-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S100000x64 : Shape := ⟨2, ![100000, 64]⟩
abbrev S256x64 : Shape := ⟨2, ![256, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S500000 : Shape := ⟨1, ![500000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S64x1 .f32) (main_arg19 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S64 .f32) (main_arg15 : FVec F S64x64 .f32) (main_arg16 : FVec F S128x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S128x64 .f32 := Host.absf main_arg16
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x1 .f32) (main_arg19 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_v63 main_v67

def fn_part2 {F : FTy → Type} [FloatOps F] (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x1 .f32) (main_arg19 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S20000x256 .f32) (main_arg1 : FVec F S100000x64 .f32) (main_arg2 : FVec F S256x64 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x1 .f32) (main_arg19 : FVec F S1 .f32) (main_arg20 : IVec S2000000 32) (main_arg21 : IVec S2000000 32) (main_arg22 : IVec S500000 32) (main_arg23 : IVec S500000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S20000x256 : Shape := ⟨2, ![20000, 256]⟩
abbrev S100000x64 : Shape := ⟨2, ![100000, 64]⟩
abbrev S256x64 : Shape := ⟨2, ![256, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S500000 : Shape := ⟨1, ![500000]⟩
abbrev S1x64 : Shape := ⟨2, ![1, 64]⟩
abbrev S20000x64 : Shape := ⟨2, ![20000, 64]⟩
abbrev S2000x256 : Shape := ⟨2, ![2000, 256]⟩
abbrev S2000x64 : Shape := ⟨2, ![2000, 64]⟩
abbrev S_ : Shape := ⟨0, ![]⟩
abbrev S2000000x1 : Shape := ⟨2, ![2000000, 1]⟩
abbrev S2000000x64 : Shape := ⟨2, ![2000000, 64]⟩
abbrev S20000x1 : Shape := ⟨2, ![20000, 1]⟩
abbrev S100000x1 : Shape := ⟨2, ![100000, 1]⟩
abbrev S10000x64 : Shape := ⟨2, ![10000, 64]⟩
abbrev S2000 : Shape := ⟨1, ![2000]⟩
abbrev S2000x1 : Shape := ⟨2, ![2000, 1]⟩
abbrev S10000 : Shape := ⟨1, ![10000]⟩
abbrev S10000x1 : Shape := ⟨2, ![10000, 1]⟩
abbrev S500000x1 : Shape := ⟨2, ![500000, 1]⟩
abbrev S500000x64 : Shape := ⟨2, ![500000, 64]⟩
abbrev S500000x128 : Shape := ⟨2, ![500000, 128]⟩
abbrev S64x128 : Shape := ⟨2, ![64, 128]⟩
abbrev S1x128 : Shape := ⟨2, ![1, 128]⟩
abbrev S2 : Shape := ⟨1, ![2]⟩
abbrev S10000x128 : Shape := ⟨2, ![10000, 128]⟩

abbrev nBuf : Space → Nat
  | .hbm => 167
  | .vmem => 50
  | .smem => 0
  | _ => 0

abbrev hbmTy0_0 (i : Nat) : BufTy := match i % 128 with
  | 0 => ⟨S20000x256, .f32⟩
  | 1 => ⟨S100000x64, .f32⟩
  | 2 => ⟨S256x64, .f32⟩
  | 3 => ⟨S64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S128x64, .f32⟩
  | 17 => ⟨S64, .f32⟩
  | 18 => ⟨S64x1, .f32⟩
  | 19 => ⟨S1, .f32⟩
  | 20 => ⟨S2000000, .i32⟩
  | 21 => ⟨S2000000, .i32⟩
  | 22 => ⟨S500000, .i32⟩
  | 23 => ⟨S500000, .i32⟩
  | 24 => ⟨S1x64, .f32⟩
  | 25 => ⟨S20000x64, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x64, .f32⟩
  | 35 => ⟨S_, .f32⟩
  | 36 => ⟨S20000x64, .f32⟩
  | 37 => ⟨S2000000x1, .i32⟩
  | 38 => ⟨S20000x64, .f32⟩
  | 39 => ⟨S_, .f32⟩
  | 40 => ⟨S2000000x1, .f32⟩
  | 41 => ⟨S_, .f32⟩
  | 42 => ⟨S20000x1, .f32⟩
  | 43 => ⟨S2000000x1, .i32⟩
  | 44 => ⟨S20000x1, .f32⟩
  | 45 => ⟨S_, .f32⟩
  | 46 => ⟨S20000x1, .f32⟩
  | 47 => ⟨S20000x1, .f32⟩
  | 48 => ⟨S20000x64, .f32⟩
  | 49 => ⟨S20000x64, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x64, .f32⟩
  | 59 => ⟨S_, .f32⟩
  | 60 => ⟨S100000x64, .f32⟩
  | 61 => ⟨S2000000x1, .i32⟩
  | 62 => ⟨S100000x64, .f32⟩
  | 63 => ⟨S_, .f32⟩
  | 64 => ⟨S2000000x1, .f32⟩
  | 65 => ⟨S_, .f32⟩
  | 66 => ⟨S100000x1, .f32⟩
  | 67 => ⟨S2000000x1, .i32⟩
  | 68 => ⟨S100000x1, .f32⟩
  | 69 => ⟨S_, .f32⟩
  | 70 => ⟨S100000x1, .f32⟩
  | 71 => ⟨S100000x1, .f32⟩
  | 72 => ⟨S100000x64, .f32⟩
  | 73 => ⟨S100000x64, .f32⟩
  | 74 => ⟨S1x64, .f32⟩
  | 75 => ⟨S20000x64, .f32⟩
  | 76 => ⟨S1x64, .f32⟩
  | 77 => ⟨S100000x64, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S_, .f32⟩
  | 88 => ⟨S20000x64, .f32⟩
  | 89 => ⟨S2000000x1, .i32⟩
  | 90 => ⟨S20000x64, .f32⟩
  | 91 => ⟨S_, .f32⟩
  | 92 => ⟨S2000000x1, .f32⟩
  | 93 => ⟨S_, .f32⟩
  | 94 => ⟨S20000x1, .f32⟩
  | 95 => ⟨S2000000x1, .i32⟩
  | 96 => ⟨S20000x1, .f32⟩
  | 97 => ⟨S_, .f32⟩
  | 98 => ⟨S20000x1, .f32⟩
  | 99 => ⟨S20000x1, .f32⟩
  | 100 => ⟨S20000x64, .f32⟩
  | 101 => ⟨S20000x64, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x64, .f32⟩
  | 111 => ⟨S_, .f32⟩
  | 112 => ⟨S100000x64, .f32⟩
  | 113 => ⟨S2000000x1, .i32⟩
  | 114 => ⟨S100000x64, .f32⟩
  | 115 => ⟨S_, .f32⟩
  | 116 => ⟨S2000000x1, .f32⟩
  | 117 => ⟨S_, .f32⟩
  | 118 => ⟨S100000x1, .f32⟩
  | 119 => ⟨S2000000x1, .i32⟩
  | 120 => ⟨S100000x1, .f32⟩
  | 121 => ⟨S_, .f32⟩
  | 122 => ⟨S100000x1, .f32⟩
  | 123 => ⟨S100000x1, .f32⟩
  | 124 => ⟨S100000x64, .f32⟩
  | 125 => ⟨S100000x64, .f32⟩
  | 126 => ⟨S1x64, .f32⟩
  | 127 => ⟨S20000x64, .f32⟩
  | _ => ⟨S20000x256, .f32⟩

abbrev hbmTy0_1 (i : Nat) : BufTy := match i % 128 with
  | 0 => ⟨S1x64, .f32⟩
  | 1 => ⟨S100000x64, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x64, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x64, .f32⟩
  | 20 => ⟨S500000x128, .f32⟩
  | 21 => ⟨S1x64, .f32⟩
  | 22 => ⟨S_, .f32⟩
  | 23 => ⟨S64x128, .f32⟩
  | 24 => ⟨S64, .f32⟩
  | 25 => ⟨S_, .i32⟩
  | 26 => ⟨S1, .i32⟩
  | 27 => ⟨S64x128, .f32⟩
  | 28 => ⟨S_, .f32⟩
  | 29 => ⟨S1x128, .f32⟩
  | 30 => ⟨S_, .f32⟩
  | 31 => ⟨S_, .i32⟩
  | 32 => ⟨S1, .i32⟩
  | 33 => ⟨S_, .i32⟩
  | 34 => ⟨S1, .i32⟩
  | 35 => ⟨S2, .i32⟩
  | 36 => ⟨S1x128, .f32⟩
  | 37 => ⟨S500000x128, .f32⟩
  | 38 => ⟨S500000x1, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64x64, .f32⟩
  | .local _ .vmem, ⟨38, _⟩ => ⟨S1x64, .f32⟩
  | .local _ .vmem, ⟨39, _⟩ => ⟨S64x64, .f32⟩
  | .local _ .vmem, ⟨40, _⟩ => ⟨S10000x64, .f32⟩
  | .local _ .vmem, ⟨41, _⟩ => ⟨S10000x64, .f32⟩
  | .local _ .vmem, ⟨42, _⟩ => ⟨S10000x128, .f32⟩
  | .local _ .vmem, ⟨43, _⟩ => ⟨S10000x128, .f32⟩
  | .local _ .vmem, ⟨44, _⟩ => ⟨S128x64, .f32⟩
  | .local _ .vmem, ⟨45, _⟩ => ⟨S1x64, .f32⟩
  | .local _ .vmem, ⟨46, _⟩ => ⟨S64x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_cst_8 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_v42 : Ref sig .tc := ⟨.hbm, 79, rfl⟩
abbrev main_v43 : Ref sig .tc := ⟨.hbm, 80, rfl⟩
abbrev main_c_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_13 : Ref sig .tc := ⟨.hbm, 91, rfl⟩
abbrev main_v52 : Ref sig .tc := ⟨.hbm, 92, rfl⟩
abbrev main_cst_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_15 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_16 : Ref sig .tc := ⟨.hbm, 102, rfl⟩
abbrev main_v60 : Ref sig .tc := ⟨.hbm, 103, rfl⟩
abbrev main_v61 : Ref sig .tc := ⟨.hbm, 104, rfl⟩
abbrev main_c_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_18 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_19 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_22 : Ref sig .tc := ⟨.hbm, 130, rfl⟩
abbrev main_v82 : Ref sig .tc := ⟨.hbm, 131, rfl⟩
abbrev main_v83 : Ref sig .tc := ⟨.hbm, 132, rfl⟩
abbrev main_c_23 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_24 : Ref sig .tc := ⟨.hbm, 139, rfl⟩
abbrev main_v89 : Ref sig .tc := ⟨.hbm, 140, rfl⟩
abbrev main_v90 : Ref sig .tc := ⟨.hbm, 141, rfl⟩
abbrev main_c_25 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_26 : Ref sig .tc := ⟨.hbm, 150, rfl⟩
abbrev main_v98 : Ref sig .tc := ⟨.hbm, 151, rfl⟩
abbrev main_v99 : Ref sig .tc := ⟨.hbm, 152, rfl⟩
abbrev main_c_27 : Ref sig .tc := ⟨.hbm, 153, rfl⟩
abbrev main_v100 : Ref sig .tc := ⟨.hbm, 154, rfl⟩
abbrev main_v101 : Ref sig .tc := ⟨.hbm, 155, rfl⟩
abbrev main_cst_28 : Ref sig .tc := ⟨.hbm, 156, rfl⟩
abbrev main_v102 : Ref sig .tc := ⟨.hbm, 157, rfl⟩
abbrev main_v103 : Ref sig .tc := ⟨.hbm, 158, rfl⟩
abbrev main_c_29 : Ref sig .tc := ⟨.hbm, 159, rfl⟩
abbrev main_v104 : Ref sig .tc := ⟨.hbm, 160, rfl⟩
abbrev main_c_30 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000x64 : S_.BroadcastsInDim S20000x64 (![] : Fin 0 → Fin S20000x64.rank)
  bcast_S_S2000000x1 : S_.BroadcastsInDim S2000000x1 (![] : Fin 0 → Fin S2000000x1.rank)
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S2000x64_S2000 : S2000x64.Reduces [1] S2000
  shapeCasts_S2000_S2000x1 : S2000.ShapeCasts S2000x1
  broadcasts_S2000x1_S2000x64 : S2000x1.Broadcasts S2000x64
  reduces_S10000x64_S10000 : S10000x64.Reduces [1] S10000
  shapeCasts_S10000_S10000x1 : S10000.ShapeCasts S10000x1
  broadcasts_S10000x1_S10000x64 : S10000x1.Broadcasts S10000x64
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S_S64x128 : S_.BroadcastsInDim S64x128 (![] : Fin 0 → Fin S64x128.rank)
  shapeCasts_S64x1_S64 : S64x1.ShapeCasts S64
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S500000x128_S500000x1_0_0 : S500000x128.Slices ![0, 0] S500000x1
  dot_S2000x256_S256x64_S2000x64_1_0_0_1_n_n_wf : DotDims.WF S2000x256 S256x64 S2000x64 [1] [0] [0] [1] [] []
  gather_S100000x64_S2000000x1_S2000000x64_1_0_n_n_0_1_164_wf : GatherDims.WF S100000x64 S2000000x1 S2000000x64 [1] [0] [] [0] [] 1 ![1, 64]
  scatter_S20000x64_S2000000x1_S2000000x64_1_0_0_1_wf : ScatterDims.WF S20000x64 S2000000x1 S2000000x64 [1] [0] [0] 1
  scatter_S20000x1_S2000000x1_S2000000x1_1_0_0_1_wf : ScatterDims.WF S20000x1 S2000000x1 S2000000x1 [1] [0] [0] 1
  gather_S20000x64_S2000000x1_S2000000x64_1_0_n_n_0_1_164_wf : GatherDims.WF S20000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  dot_S2000x64_S64x64_S2000x64_1_0_0_1_n_n_wf : DotDims.WF S2000x64 S64x64 S2000x64 [1] [0] [0] [1] [] []
  dot_S10000x64_S64x64_S10000x64_1_0_0_1_n_n_wf : DotDims.WF S10000x64 S64x64 S10000x64 [1] [0] [0] [1] [] []
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  scatter_S64x128_S1_S64_0_1_1_0_wf : ScatterDims.WF S64x128 S1 S64 [0] [1] [1] 0
  scatter_S1x128_S2_S__n_01_01_0_wf : ScatterDims.WF S1x128 S2 S_ [] [0, 1] [0, 1] 0
  dot_S10000x128_S128x64_S10000x64_1_0_0_1_n_n_wf : DotDims.WF S10000x128 S128x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S20000x64.size a
  hwx0_3 : ∀ i : grid0.Coords, EltTy.bits .f32 = 32 ∨ (Rect.block (s := S20000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S20000x64.size a
  hwx1_0 : ∀ i : grid1.Coords, EltTy.bits .f32 = 32 ∨ (Rect.block (s := S20000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S20000x64.size a
  hwx1_1 : ∀ i : grid1.Coords, EltTy.bits .f32 = 32 ∨ (Rect.block (s := S20000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S20000x64.size a
  hwx1_5 : ∀ i : grid1.Coords, EltTy.bits .f32 = 32 ∨ (Rect.block (s := S20000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S20000x64.size a
  hwx3_0 : ∀ i : grid3.Coords, EltTy.bits .f32 = 32 ∨ (Rect.block (s := S20000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S20000x64.size a
  hwx3_1 : ∀ i : grid3.Coords, EltTy.bits .f32 = 32 ∨ (Rect.block (s := S20000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S20000x64.size a
  hwx3_5 : ∀ i : grid3.Coords, EltTy.bits .f32 = 32 ∨ (Rect.block (s := S20000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S500000x128.size a
  hwx5_0 : ∀ i : grid5.Coords, EltTy.bits .f32 = 32 ∨ (Rect.block (s := S500000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S500000x128.size a
  hwx5_5 : ∀ i : grid5.Coords, EltTy.bits .f32 = 32 ∨ (Rect.block (s := S500000x128) S10000x128.size (cc5_transform_5 i) (hinb5_5 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf
def scatter_S20000x1_S2000000x1_S2000000x1_1_0_0_1 : ScatterDims S20000x1 S2000000x1 S2000000x1 where
  updateWindowDims := [1]
  insertedWindowDims := [0]
  scatterDimsToOperandDims := [0]
  indexVectorDim := 1
  wf := scatter_S20000x1_S2000000x1_S2000000x1_1_0_0_1_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v96) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S20000x256 : Shape := ⟨2, ![20000, 256]⟩
abbrev S100000x64 : Shape := ⟨2, ![100000, 64]⟩
abbrev S256x64 : Shape := ⟨2, ![256, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S2000000 : Shape := ⟨1, ![2000000]⟩
abbrev S500000 : Shape := ⟨1, ![500000]⟩
abbrev S20000x64 : Shape := ⟨2, ![20000, 64]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩
abbrev S20000x1 : Shape := ⟨2, ![20000, 1]⟩
abbrev S100000x1 : Shape := ⟨2, ![100000, 1]⟩
abbrev S100000 : Shape := ⟨1, ![100000]⟩
abbrev S20000 : Shape := ⟨1, ![20000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S20000x256, .f32⟩
  | 1 => ⟨S100000x64, .f32⟩
  | 2 => ⟨S256x64, .f32⟩
  | 3 => ⟨S64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S128x64, .f32⟩
  | 17 => ⟨S64, .f32⟩
  | 18 => ⟨S64x1, .f32⟩
  | 19 => ⟨S1, .f32⟩
  | 20 => ⟨S2000000, .i32⟩
  | 21 => ⟨S2000000, .i32⟩
  | 22 => ⟨S500000, .i32⟩
  | 23 => ⟨S500000, .i32⟩
  | 24 => ⟨S20000x64, .f32⟩
  | 25 => ⟨S1x64, .f32⟩
  | 26 => ⟨S20000x64, .f32⟩
  | 27 => ⟨S20000x64, .f32⟩
  | 28 => ⟨S_, .f32⟩
  | 29 => ⟨S20000x64, .f32⟩
  | 30 => ⟨S20000x64, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x64, .f32⟩
  | 40 => ⟨S_, .f32⟩
  | 41 => ⟨S20000x64, .f32⟩
  | 42 => ⟨S2000000x1, .i32⟩
  | 43 => ⟨S20000x64, .f32⟩
  | 44 => ⟨S_, .f32⟩
  | 45 => ⟨S2000000x1, .f32⟩
  | 46 => ⟨S_, .f32⟩
  | 47 => ⟨S20000x1, .f32⟩
  | 48 => ⟨S2000000x1, .i32⟩
  | 49 => ⟨S20000x1, .f32⟩
  | 50 => ⟨S_, .f32⟩
  | 51 => ⟨S20000x1, .f32⟩
  | 52 => ⟨S20000x1, .f32⟩
  | 53 => ⟨S20000x64, .f32⟩
  | 54 => ⟨S20000x64, .f32⟩
  | 55 => ⟨S20000x64, .f32⟩
  | 56 => ⟨S1x64, .f32⟩
  | 57 => ⟨S20000x64, .f32⟩
  | 58 => ⟨S20000x64, .f32⟩
  | 59 => ⟨S20000x64, .f32⟩
  | 60 => ⟨S20000x64, .f32⟩
  | 61 => ⟨S_, .f32⟩
  | 62 => ⟨S20000x64, .f32⟩
  | 63 => ⟨S20000x64, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x64, .f32⟩
  | 73 => ⟨S_, .f32⟩
  | 74 => ⟨S100000x64, .f32⟩
  | 75 => ⟨S2000000x1, .i32⟩
  | 76 => ⟨S100000x64, .f32⟩
  | 77 => ⟨S_, .f32⟩
  | 78 => ⟨S2000000x1, .f32⟩
  | 79 => ⟨S_, .f32⟩
  | 80 => ⟨S100000x1, .f32⟩
  | 81 => ⟨S2000000x1, .i32⟩
  | 82 => ⟨S100000x1, .f32⟩
  | 83 => ⟨S_, .f32⟩
  | 84 => ⟨S100000x1, .f32⟩
  | 85 => ⟨S100000x1, .f32⟩
  | 86 => ⟨S100000x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S20000x64, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x64, .f32⟩
  | 108 => ⟨S_, .f32⟩
  | 109 => ⟨S20000x64, .f32⟩
  | 110 => ⟨S2000000x1, .i32⟩
  | 111 => ⟨S20000x64, .f32⟩
  | 112 => ⟨S_, .f32⟩
  | 113 => ⟨S2000000x1, .f32⟩
  | 114 => ⟨S_, .f32⟩
  | 115 => ⟨S20000x1, .f32⟩
  | 116 => ⟨S2000000x1, .i32⟩
  | 117 => ⟨S20000x1, .f32⟩
  | 118 => ⟨S_, .f32⟩
  | 119 => ⟨S20000x1, .f32⟩
  | 120 => ⟨S20000x1, .f32⟩
  | 121 => ⟨S20000x64, .f32⟩
  | 122 => ⟨S20000x64, .f32⟩
  | 123 => ⟨S20000x64, .f32⟩
  | 124 => ⟨S1x64, .f32⟩
  | 125 => ⟨S20000x64, .f32⟩
  | 126 => ⟨S20000x64, .f32⟩
  | 127 => ⟨S20000x64, .f32⟩
  | _ => ⟨S20000x256, .f32⟩

abbrev hbmTy0_1 (i : Nat) : BufTy := match i % 128 with
  | 0 => ⟨S20000x64, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000x64, .f32⟩
  | 10 => ⟨S_, .f32⟩
  | 11 => ⟨S100000x64, .f32⟩
  | 12 => ⟨S2000000x1, .i32⟩
  | 13 => ⟨S100000x64, .f32⟩
  | 14 => ⟨S_, .f32⟩
  | 15 => ⟨S2000000x1, .f32⟩
  | 16 => ⟨S_, .f32⟩
  | 17 => ⟨S100000x1, .f32⟩
  | 18 => ⟨S2000000x1, .i32⟩
  | 19 => ⟨S100000x1, .f32⟩
  | 20 => ⟨S_, .f32⟩
  | 21 => ⟨S100000x1, .f32⟩
  | 22 => ⟨S100000x1, .f32⟩
  | 23 => ⟨S100000x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S100000x64, .f32⟩
  | 30 => ⟨S100000x64, .f32⟩
  | 31 => ⟨S100000x64, .f32⟩
  | 32 => ⟨S_, .f32⟩
  | 33 => ⟨S100000, .f32⟩
  | 34 => ⟨S100000x1, .f32⟩
  | 35 => ⟨S100000x1, .f32⟩
  | 36 => ⟨S_, .f32⟩
  | 37 => ⟨S100000x1, .f32⟩
  | 38 => ⟨S100000x1, .f32⟩
  | 39 => ⟨S100000x64, .f32⟩
  | 40 => ⟨S100000x64, .f32⟩
  | 41 => ⟨S20000x64, .f32⟩
  | 42 => ⟨S_, .f32⟩
  | 43 => ⟨S20000, .f32⟩
  | 44 => ⟨S20000x1, .f32⟩
  | 45 => ⟨S20000x1, .f32⟩
  | 46 => ⟨S_, .f32⟩
  | 47 => ⟨S20000x1, .f32⟩
  | 48 => ⟨S20000x1, .f32⟩
  | 49 => ⟨S20000x64, .f32⟩
  | 50 => ⟨S20000x64, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x64, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x64, .f32⟩
  | 69 => ⟨S500000x128, .f32⟩
  | 70 => ⟨S500000x64, .f32⟩
  | 71 => ⟨S1x64, .f32⟩
  | 72 => ⟨S500000x64, .f32⟩
  | 73 => ⟨S500000x64, .f32⟩
  | 74 => ⟨S_, .f32⟩
  | 75 => ⟨S500000x64, .f32⟩
  | 76 => ⟨S500000x64, .f32⟩
  | 77 => ⟨S500000x1, .f32⟩
  | 78 => ⟨S1x1, .f32⟩
  | 79 => ⟨S500000x1, .f32⟩
  | 80 => ⟨S500000x1, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call1_cst : Ref sig .tc := ⟨.hbm, 61, rfl⟩
abbrev main_call1_v0 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_c_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call2_cst : Ref sig .tc := ⟨.hbm, 94, rfl⟩
abbrev main_call2_v0 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_10 : Ref sig .tc := ⟨.hbm, 99, rfl⟩
abbrev main_v57 : Ref sig .tc := ⟨.hbm, 100, rfl⟩
abbrev main_v58 : Ref sig .tc := ⟨.hbm, 101, rfl⟩
abbrev main_c_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_12 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_13 : Ref sig .tc := ⟨.hbm, 112, rfl⟩
abbrev main_v67 : Ref sig .tc := ⟨.hbm, 113, rfl⟩
abbrev main_cst_14 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_15 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_16 : Ref sig .tc := ⟨.hbm, 129, rfl⟩
abbrev main_v81 : Ref sig .tc := ⟨.hbm, 130, rfl⟩
abbrev main_v82 : Ref sig .tc := ⟨.hbm, 131, rfl⟩
abbrev main_c_17 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_18 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_19 : Ref sig .tc := ⟨.hbm, 142, rfl⟩
abbrev main_v91 : Ref sig .tc := ⟨.hbm, 143, rfl⟩
abbrev main_cst_20 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_21 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call3_v0 : Ref sig .tc := ⟨.hbm, 159, rfl⟩
abbrev main_call3_cst : Ref sig .tc := ⟨.hbm, 160, rfl⟩
abbrev main_call3_v1 : Ref sig .tc := ⟨.hbm, 161, rfl⟩
abbrev main_call3_v2 : Ref sig .tc := ⟨.hbm, 162, rfl⟩
abbrev main_v105 : Ref sig .tc := ⟨.hbm, 163, rfl⟩
abbrev main_cst_22 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_call4_v0 : Ref sig .tc := ⟨.hbm, 169, rfl⟩
abbrev main_call4_cst : Ref sig .tc := ⟨.hbm, 170, rfl⟩
abbrev main_call4_v1 : Ref sig .tc := ⟨.hbm, 171, rfl⟩
abbrev main_call4_v2 : Ref sig .tc := ⟨.hbm, 172, rfl⟩
abbrev main_v110 : Ref sig .tc := ⟨.hbm, 173, rfl⟩
abbrev main_cst_23 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_24 : Ref sig .tc := ⟨.hbm, 179, rfl⟩
abbrev main_v115 : Ref sig .tc := ⟨.hbm, 180, rfl⟩
abbrev main_v116 : Ref sig .tc := ⟨.hbm, 181, rfl⟩
abbrev main_c_25 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_c_26 : Ref sig .tc := ⟨.hbm, 188, rfl⟩
abbrev main_v122 : Ref sig .tc := ⟨.hbm, 189, rfl⟩
abbrev main_v123 : Ref sig .tc := ⟨.hbm, 190, rfl⟩
abbrev main_c_27 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_call5_cst : Ref sig .tc := ⟨.hbm, 202, rfl⟩
abbrev main_call5_v0 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S20000x64_S20000_d1 : S20000x64.ReducesTo [1] S20000
  bcast_S20000_S20000x1_0 : S20000.BroadcastsInDim S20000x1 (![0] : Fin 1 → Fin S20000x1.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S20000x256_S256x64_S20000x64_1_0_0_1_n_n_wf : DotDims.WF S20000x256 S256x64 S20000x64 [1] [0] [0] [1] [] []
  gather_S100000x64_S2000000x1_S2000000x64_1_0_n_n_0_1_164_wf : GatherDims.WF S100000x64 S2000000x1 S2000000x64 [1] [0] [] [0] [] 1 ![1, 64]
  scatter_S20000x64_S2000000x1_S2000000x64_1_0_0_1_wf : ScatterDims.WF S20000x64 S2000000x1 S2000000x64 [1] [0] [0] 1
  scatter_S20000x1_S2000000x1_S2000000x1_1_0_0_1_wf : ScatterDims.WF S20000x1 S2000000x1 S2000000x1 [1] [0] [0] 1
  dot_S20000x64_S64x64_S20000x64_1_0_0_1_n_n_wf : DotDims.WF S20000x64 S64x64 S20000x64 [1] [0] [0] [1] [] []
  gather_S20000x64_S2000000x1_S2000000x64_1_0_n_n_0_1_164_wf : GatherDims.WF S20000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf
def scatter_S20000x1_S2000000x1_S2000000x1_1_0_0_1 : ScatterDims S20000x1 S2000000x1 S2000000x1 where
  updateWindowDims := [1]
  insertedWindowDims := [0]
  scatterDimsToOperandDims := [0]
  indexVectorDim := 1
  wf := scatter_S20000x1_S2000000x1_S2000000x1_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.NamedRun.lean ====
/-
  The idealized kernel's run with its result named.  Every weakly fair execution of the program terminates without a
  fault; in the final state the result array holds what the last boundary of the program's segments holds at the
  result's buffer — the contents after the last stretch of host operations, which follow the sixth region's
  write-backs — and every argument array is as launched.  The boundary contents are the fold through the program's
  thirteen segments: a stretch of host operations applies its operations to the previous boundary, a region replaces
  its output array by what its grid's write-backs leave and keeps every other buffer.
-/
import proofs.«114558_j41059887350180_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run : θ_run defs (onTc (τ := τ) (main (F := F))) ⟨m, fun _ => 0, ρ⟩ (fun r => ∀ c : Dev nD,
      r.2.mem ((c.tc : Thread nD τ).loc main_v109) = W13 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v109 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c)⟩)

end Cert.KernelIdeal.NamedRun

end
-- ==== Proof.Boundaries.lean ====
/-
  Buffers that a segment of the program does not write keep their contents across it.  The program is thirteen
  segments — seven stretches of host operations alternating with six regions — and its buffer contents at each of the
  boundaries between them are a fold from the launch memory.  An argument array is written by no host operation and is
  the output of no region, so at every boundary it holds what it held at launch; a region's output keeps its contents
  across the later segments that do not write it, up to the boundary where a later segment reads it.
-/
import proofs.«114558_j41059887350180_1_alg».proof.Proof.Gen.KernelIdeal.Frame
import Idealize.ShloMosaic.PureOps.Ideal

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- No operation of a literal stretch writes the buffer: each operation's result buffer is another one. -/
local macro "not_written" : tactic => `(tactic| (
    simp only [hostOps0, hostOps1, hostOps2, hostOps3, hostOps4, hostOps5, hostOps6, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

theorem arg0_at1 : W1 m ρ c (Proc.devRef .tc main_arg0) = m ((c : Thread nD τ).loc main_arg0) :=
    (StableHlo.after_of_forall_not_mem (b := Proc.devRef .tc main_arg0) _ _ (List.forall_iff_forall_mem.mp (by not_written))).trans <| rfl

theorem arg2_at1 : W1 m ρ c (Proc.devRef .tc main_arg2) = m ((c : Thread nD τ).loc main_arg2) :=
    (StableHlo.after_of_forall_not_mem (b := Proc.devRef .tc main_arg2) _ _ (List.forall_iff_forall_mem.mp (by not_written))).trans <| rfl

theorem arg3_at1 : W1 m ρ c (Proc.devRef .tc main_arg3) = m ((c : Thread nD τ).loc main_arg3) :=
    (StableHlo.after_of_forall_not_mem (b := Proc.devRef .tc main_arg3) _ _ (List.forall_iff_forall_mem.mp (by not_written))).trans <| rfl

theorem arg1_at2 : W2 m ρ c (Proc.devRef .tc main_arg1) = m ((c : Thread nD τ).loc main_arg1) :=
    (W2_of_ne m ρ c main_arg1 (by decide)).trans <|
    (StableHlo.after_of_forall_not_mem (b := Proc.devRef .tc main_arg1) _ _ (List.forall_iff_forall_mem.mp (by not_written))).trans <| rfl

theorem arg20_at2 : W2 m ρ c (Proc.devRef .tc main_arg20) = m ((c : Thread nD τ).loc main_arg20) :=
    (W2_of_ne m ρ c main_arg20 (by decide)).trans <|
    (StableHlo.after_of_forall_not_mem (b := Proc.devRef .tc main_arg20) _ _ (List.forall_iff_forall_mem.mp (by not_written))).trans <| rfl

theorem arg21_at2 : W2 m ρ c (Proc.devRef .tc main_arg21) = m ((c : Thread nD τ).loc main_arg21) :=
    (W2_of_ne m ρ c main_arg21 (by decide)).trans <|
    (StableHlo.after_of_forall_not_mem (b := Proc.devRef .tc main_arg21) _ _ (List.forall_iff_forall_mem.mp (by not_written))).trans <| rfl

theorem arg5_at2 : W2 m ρ c (Proc.devRef .tc main_arg5) = m ((c : Thread nD τ).loc main_arg5) :=
    (W2_of_ne m ρ c main_arg5 (by decide)).trans <|
    (StableHlo.after_of_forall_not_mem (b := Proc.devRef .tc main_arg5) _ _ (List.forall_iff_forall_mem.mp (by not_written))).trans <| rfl

theorem arg4_at3 : W3 m ρ c (Proc.devRef .tc main_arg4) = m ((c : Thread nD τ).loc main_arg4) :=
    (StableHlo.after_of_forall_not_mem (b := Proc.devRef .tc main_arg4) _ _ (List.forall_iff_forall_mem.mp (by not_written))).trans <|
    (W2_of_ne m ρ c main_arg4 (by decide)).trans <|
    (StableHlo.after_of_forall_not_mem (b := Proc.devRef .tc main_arg4) _ _ (List.forall_iff_forall_mem.mp (by not_written))).trans <| rfl

theorem arg6_at3 : W3 m ρ c (Proc.devRef .tc main_arg6) = m ((c : Thread nD τ).loc main_arg6) :=
    (StableHlo.after_of_forall_not_mem (b := Proc.devRef .tc main_arg6) _ _ (List.forall_iff_forall_mem.mp (by not_written))).trans <|
    (W2_of_ne m ρ c main_arg6 (by decide)).trans <|
    (StableHlo.after_of_forall_not_mem (b := Proc.devRef .tc main_arg6) _ _ (List.forall_iff_forall_mem.mp (by not_written))).trans <| rfl

theorem arg8_at4 : W4 m ρ c (Proc.devRef .tc main_arg8) = m ((c : Thread nD τ).loc main_arg8) :=
    (W4_of_ne m ρ c main_arg8 (by decide)).trans <|
    (StableHlo.after_of_forall_not_mem (b := Proc.devRef .tc main_arg8) _ _ (List.forall_iff_forall_mem.mp (by not_written))).trans <|
    (W2_of_ne m ρ c main_arg8 (by decide)).trans <|
    (StableHlo.after_of_forall_not_mem (b := Proc.devRef .tc main_arg8) _ _ (List.forall_iff_forall_mem.mp (by not_written))).trans <| rfl

theorem arg1_at5 : W5 m ρ c (Proc.devRef .tc main_arg1) = m ((c : Thread nD τ).loc main_arg1) :=
    (StableHlo.after_of_forall_not_mem (b := Proc.devRef .tc main_arg1) _ _ (List.forall_iff_forall_mem.mp (by not_written))).trans <|
    (W4_of_ne m ρ c main_arg1 (by decide)).trans <|
    (StableHlo.after_of_forall_not_mem (b := Proc.devRef .tc main_arg1) _ _ (List.forall_iff_forall_mem.mp (by not_written))).trans <|
    (W2_of_ne m ρ c main_arg1 (by decide)).trans <|
    (StableHlo.after_of_forall_not_mem (b := Proc.devRef .tc main_arg1) _ _ (List.forall_iff_forall_mem.mp (by not_written))).trans <| rfl

theorem arg7_at5 : W5 m ρ c (Proc.devRef .tc main_arg7) = m ((c : Thread nD τ).loc main_arg7) :=
    (StableHlo.after_of_forall_not_mem (b := Proc.devRef .tc main_arg7) _ _ (List.forall_iff_forall_mem.mp (by not_written))).trans <|
    (W4_of_ne m ρ c main_arg7 (by decide)).trans <|
    (StableHlo.after_of_forall_not_mem (b := Proc.devRef .tc main_arg7) _ _ (List.forall_iff_forall_mem.mp (by not_written))).trans <|
    (W2_of_ne m ρ c main_arg7 (by decide)).trans <|
    (StableHlo.after_of_forall_not_mem (b := Proc.devRef .tc main_arg7) _ _ (List.forall_iff_forall_mem.mp (by not_written))).trans <| rfl

theorem arg9_at5 : W5 m ρ c (Proc.devRef .tc main_arg9) = m ((c : Thread nD τ).loc main_arg9) :=
    (StableHlo.after_of_forall_not_mem (b := Proc.devRef .tc main_arg9) _ _ (List.forall_iff_forall_mem.mp (by not_written))).trans <|
    (W4_of_ne m ρ c main_arg9 (by decide)).trans <|
    (StableHlo.after_of_forall_not_mem (b := Proc.devRef .tc main_arg9) _ _ (List.forall_iff_forall_mem.mp (by not_written))).trans <|
    (W2_of_ne m ρ c main_arg9 (by decide)).trans <|
    (StableHlo.after_of_forall_not_mem (b := Proc.devRef .tc main_arg9) _ _ (List.forall_iff_forall_mem.mp (by not_written))).trans <| rfl

theorem arg20_at6 : W6 m ρ c (Proc.devRef .tc main_arg20) = m ((c : Thread nD τ).loc main_arg20) :=
    (W6_of_ne m ρ c main_arg20 (by decide)).trans <|
    (StableHlo.after_of_forall_not_mem (b := Proc.devRef .tc main_arg20) _ _ (List.forall_iff_forall_mem.mp (by not_written))).trans <|
    (W4_of_ne m ρ c main_arg20 (by decide)).trans <|
    (StableHlo.after_of_forall_not_mem (b := Proc.devRef .tc main_arg20) _ _ (List.forall_iff_forall_mem.mp (by not_written))).trans <|
    (W2_of_ne m ρ c main_arg20 (by decide)).trans <|
    (StableHlo.after_of_forall_not_mem (b := Proc.devRef .tc main_arg20) _ _ (List.forall_iff_forall_mem.mp (by not_written))).trans <| rfl

theorem arg21_at6 : W6 m ρ c (Proc.devRef .tc main_arg21) = m ((c : Thread nD τ).loc main_arg21) :=
    (W6_of_ne m ρ c main_arg21 (by decide)).trans <|
    (StableHlo.after_of_forall_not_mem (b := Proc.devRef .tc main_arg21) _ _ (List.forall_iff_forall_mem.mp (by not_written))).trans <|
    (W4_of_ne m ρ c main_arg21 (by decide)).trans <|
    (StableHlo.after_of_forall_not_mem (b := Proc.devRef .tc main_arg21) _ _ (List.forall_iff_forall_mem.mp (by not_written))).trans <|
    (W2_of_ne m ρ c main_arg21 (by decide)).trans <|
    (StableHlo.after_of_forall_not_mem (b := Proc.devRef .tc main_arg21) _ _ (List.forall_iff_forall_mem.mp (by not_written))).trans <| rfl

theorem arg11_at6 : W6 m ρ c (Proc.devRef .tc main_arg11) = m ((c : Thread nD τ).loc main_arg11) :=
    (W6_of_ne m ρ c main_arg11 (by decide)).trans <|
    (StableHlo.after_of_forall_not_mem (b := Proc.devRef .tc main_arg11) _ _ (List.forall_iff_forall_mem.mp (by not_written))).trans <|
    (W4_of_ne m ρ c main_arg11 (by decide)).trans <|
    (StableHlo.after_of_forall_not_mem (b := Proc.devRef .tc main_arg11) _ _ (List.forall_iff_forall_mem.mp (by not_written))).trans <|
    (W2_of_ne m ρ c main_arg11 (by decide)).trans <|
    (StableHlo.after_of_forall_not_mem (b := Proc.devRef .tc main_arg11) _ _ (List.forall_iff_forall_mem.mp (by not_written))).trans <| rfl

theorem arg10_at7 : W7 m ρ c (Proc.devRef .tc main_arg10) = m ((c : Thread nD τ).loc main_arg10) :=
    (StableHlo.after_of_forall_not_mem (b := Proc.devRef .tc main_arg10) _ _ (List.forall_iff_forall_mem.mp (by not_written))).trans <|
    (W6_of_ne m ρ c main_arg10 (by decide)).trans <|
    (StableHlo.after_of_forall_not_mem (b := Proc.devRef .tc main_arg10) _ _ (List.forall_iff_forall_mem.mp (by not_written))).trans <|
    (W4_of_ne m ρ c main_arg10 (by decide)).trans <|
    (StableHlo.after_of_forall_not_mem (b := Proc.devRef .tc main_arg10) _ _ (List.forall_iff_forall_mem.mp (by not_written))).trans <|
    (W2_of_ne m ρ c main_arg10 (by decide)).trans <|
    (StableHlo.after_of_forall_not_mem (b := Proc.devRef .tc main_arg10) _ _ (List.forall_iff_forall_mem.mp (by not_written))).trans <| rfl

theorem arg12_at7 : W7 m ρ c (Proc.devRef .tc main_arg12) = m ((c : Thread nD τ).loc main_arg12) :=
    (StableHlo.after_of_forall_not_mem (b := Proc.devRef .tc main_arg12) _ _ (List.forall_iff_forall_mem.mp (by not_written))).trans <|
    (W6_of_ne m ρ c main_arg12 (by decide)).trans <|
    (StableHlo.after_of_forall_not_mem (b := Proc.devRef .tc main_arg12) _ _ (List.forall_iff_forall_mem.mp (by not_written))).trans <|
    (W4_of_ne m ρ c main_arg12 (by decide)).trans <|
    (StableHlo.after_of_forall_not_mem (b := Proc.devRef .tc main_arg12) _ _ (List.forall_iff_forall_mem.mp (by not_written))).trans <|
    (W2_of_ne m ρ c main_arg12 (by decide)).trans <|
    (StableHlo.after_of_forall_not_mem (b := Proc.devRef .tc main_arg12) _ _ (List.forall_iff_forall_mem.mp (by not_written))).trans <| rfl

theorem arg14_at8 : W8 m ρ c (Proc.devRef .tc main_arg14) = m ((c : Thread nD τ).loc main_arg14) :=
    (W8_of_ne m ρ c main_arg14 (by decide)).trans <|
    (StableHlo.after_of_forall_not_mem (b := Proc.devRef .tc main_arg14) _ _ (List.forall_iff_forall_mem.mp (by not_written))).trans <|
    (W6_of_ne m ρ c main_arg14 (by decide)).trans <|
    (StableHlo.after_of_forall_not_mem (b := Proc.devRef .tc main_arg14) _ _ (List.forall_iff_forall_mem.mp (by not_written))).trans <|
    (W4_of_ne m ρ c main_arg14 (by decide)).trans <|
    (StableHlo.after_of_forall_not_mem (b := Proc.devRef .tc main_arg14) _ _ (List.forall_iff_forall_mem.mp (by not_written))).trans <|
    (W2_of_ne m ρ c main_arg14 (by decide)).trans <|
    (StableHlo.after_of_forall_not_mem (b := Proc.devRef .tc main_arg14) _ _ (List.forall_iff_forall_mem.mp (by not_written))).trans <| rfl

theorem arg13_at9 : W9 m ρ c (Proc.devRef .tc main_arg13) = m ((c : Thread nD τ).loc main_arg13) :=
    (StableHlo.after_of_forall_not_mem (b := Proc.devRef .tc main_arg13) _ _ (List.forall_iff_forall_mem.mp (by not_written))).trans <|
    (W8_of_ne m ρ c main_arg13 (by decide)).trans <|
    (StableHlo.after_of_forall_not_mem (b := Proc.devRef .tc main_arg13) _ _ (List.forall_iff_forall_mem.mp (by not_written))).trans <|
    (W6_of_ne m ρ c main_arg13 (by decide)).trans <|
    (StableHlo.after_of_forall_not_mem (b := Proc.devRef .tc main_arg13) _ _ (List.forall_iff_forall_mem.mp (by not_written))).trans <|
    (W4_of_ne m ρ c main_arg13 (by decide)).trans <|
    (StableHlo.after_of_forall_not_mem (b := Proc.devRef .tc main_arg13) _ _ (List.forall_iff_forall_mem.mp (by not_written))).trans <|
    (W2_of_ne m ρ c main_arg13 (by decide)).trans <|
    (StableHlo.after_of_forall_not_mem (b := Proc.devRef .tc main_arg13) _ _ (List.forall_iff_forall_mem.mp (by not_written))).trans <| rfl

theorem arg15_at9 : W9 m ρ c (Proc.devRef .tc main_arg15) = m ((c : Thread nD τ).loc main_arg15) :=
    (StableHlo.after_of_forall_not_mem (b := Proc.devRef .tc main_arg15) _ _ (List.forall_iff_forall_mem.mp (by not_written))).trans <|
    (W8_of_ne m ρ c main_arg15 (by decide)).trans <|
    (StableHlo.after_of_forall_not_mem (b := Proc.devRef .tc main_arg15) _ _ (List.forall_iff_forall_mem.mp (by not_written))).trans <|
    (W6_of_ne m ρ c main_arg15 (by decide)).trans <|
    (StableHlo.after_of_forall_not_mem (b := Proc.devRef .tc main_arg15) _ _ (List.forall_iff_forall_mem.mp (by not_written))).trans <|
    (W4_of_ne m ρ c main_arg15 (by decide)).trans <|
    (StableHlo.after_of_forall_not_mem (b := Proc.devRef .tc main_arg15) _ _ (List.forall_iff_forall_mem.mp (by not_written))).trans <|
    (W2_of_ne m ρ c main_arg15 (by decide)).trans <|
    (StableHlo.after_of_forall_not_mem (b := Proc.devRef .tc main_arg15) _ _ (List.forall_iff_forall_mem.mp (by not_written))).trans <| rfl

theorem arg22_at10 : W10 m ρ c (Proc.devRef .tc main_arg22) = m ((c : Thread nD τ).loc main_arg22) :=
    (W10_of_ne m ρ c main_arg22 (by decide)).trans <|
    (StableHlo.after_of_forall_not_mem (b := Proc.devRef .tc main_arg22) _ _ (List.forall_iff_forall_mem.mp (by not_written))).trans <|
    (W8_of_ne m ρ c main_arg22 (by decide)).trans <|
    (StableHlo.after_of_forall_not_mem (b := Proc.devRef .tc main_arg22) _ _ (List.forall_iff_forall_mem.mp (by not_written))).trans <|
    (W6_of_ne m ρ c main_arg22 (by decide)).trans <|
    (StableHlo.after_of_forall_not_mem (b := Proc.devRef .tc main_arg22) _ _ (List.forall_iff_forall_mem.mp (by not_written))).trans <|
    (W4_of_ne m ρ c main_arg22 (by decide)).trans <|
    (StableHlo.after_of_forall_not_mem (b := Proc.devRef .tc main_arg22) _ _ (List.forall_iff_forall_mem.mp (by not_written))).trans <|
    (W2_of_ne m ρ c main_arg22 (by decide)).trans <|
    (StableHlo.after_of_forall_not_mem (b := Proc.devRef .tc main_arg22) _ _ (List.forall_iff_forall_mem.mp (by not_written))).trans <| rfl

theorem arg23_at10 : W10 m ρ c (Proc.devRef .tc main_arg23) = m ((c : Thread nD τ).loc main_arg23) :=
    (W10_of_ne m ρ c main_arg23 (by decide)).trans <|
    (StableHlo.after_of_forall_not_mem (b := Proc.devRef .tc main_arg23) _ _ (List.forall_iff_forall_mem.mp (by not_written))).trans <|
    (W8_of_ne m ρ c main_arg23 (by decide)).trans <|
    (StableHlo.after_of_forall_not_mem (b := Proc.devRef .tc main_arg23) _ _ (List.forall_iff_forall_mem.mp (by not_written))).trans <|
    (W6_of_ne m ρ c main_arg23 (by decide)).trans <|
    (StableHlo.after_of_forall_not_mem (b := Proc.devRef .tc main_arg23) _ _ (List.forall_iff_forall_mem.mp (by not_written))).trans <|
    (W4_of_ne m ρ c main_arg23 (by decide)).trans <|
    (StableHlo.after_of_forall_not_mem (b := Proc.devRef .tc main_arg23) _ _ (List.forall_iff_forall_mem.mp (by not_written))).trans <|
    (W2_of_ne m ρ c main_arg23 (by decide)).trans <|
    (StableHlo.after_of_forall_not_mem (b := Proc.devRef .tc main_arg23) _ _ (List.forall_iff_forall_mem.mp (by not_written))).trans <| rfl

theorem arg17_at10 : W10 m ρ c (Proc.devRef .tc main_arg17) = m ((c : Thread nD τ).loc main_arg17) :=
    (W10_of_ne m ρ c main_arg17 (by decide)).trans <|
    (StableHlo.after_of_forall_not_mem (b := Proc.devRef .tc main_arg17) _ _ (List.forall_iff_forall_mem.mp (by not_written))).trans <|
    (W8_of_ne m ρ c main_arg17 (by decide)).trans <|
    (StableHlo.after_of_forall_not_mem (b := Proc.devRef .tc main_arg17) _ _ (List.forall_iff_forall_mem.mp (by not_written))).trans <|
    (W6_of_ne m ρ c main_arg17 (by decide)).trans <|
    (StableHlo.after_of_forall_not_mem (b := Proc.devRef .tc main_arg17) _ _ (List.forall_iff_forall_mem.mp (by not_written))).trans <|
    (W4_of_ne m ρ c main_arg17 (by decide)).trans <|
    (StableHlo.after_of_forall_not_mem (b := Proc.devRef .tc main_arg17) _ _ (List.forall_iff_forall_mem.mp (by not_written))).trans <|
    (W2_of_ne m ρ c main_arg17 (by decide)).trans <|
    (StableHlo.after_of_forall_not_mem (b := Proc.devRef .tc main_arg17) _ _ (List.forall_iff_forall_mem.mp (by not_written))).trans <| rfl

theorem arg18_at10 : W10 m ρ c (Proc.devRef .tc main_arg18) = m ((c : Thread nD τ).loc main_arg18) :=
    (W10_of_ne m ρ c main_arg18 (by decide)).trans <|
    (StableHlo.after_of_forall_not_mem (b := Proc.devRef .tc main_arg18) _ _ (List.forall_iff_forall_mem.mp (by not_written))).trans <|
    (W8_of_ne m ρ c main_arg18 (by decide)).trans <|
    (StableHlo.after_of_forall_not_mem (b := Proc.devRef .tc main_arg18) _ _ (List.forall_iff_forall_mem.mp (by not_written))).trans <|
    (W6_of_ne m ρ c main_arg18 (by decide)).trans <|
    (StableHlo.after_of_forall_not_mem (b := Proc.devRef .tc main_arg18) _ _ (List.forall_iff_forall_mem.mp (by not_written))).trans <|
    (W4_of_ne m ρ c main_arg18 (by decide)).trans <|
    (StableHlo.after_of_forall_not_mem (b := Proc.devRef .tc main_arg18) _ _ (List.forall_iff_forall_mem.mp (by not_written))).trans <|
    (W2_of_ne m ρ c main_arg18 (by decide)).trans <|
    (StableHlo.after_of_forall_not_mem (b := Proc.devRef .tc main_arg18) _ _ (List.forall_iff_forall_mem.mp (by not_written))).trans <| rfl

theorem arg19_at10 : W10 m ρ c (Proc.devRef .tc main_arg19) = m ((c : Thread nD τ).loc main_arg19) :=
    (W10_of_ne m ρ c main_arg19 (by decide)).trans <|
    (StableHlo.after_of_forall_not_mem (b := Proc.devRef .tc main_arg19) _ _ (List.forall_iff_forall_mem.mp (by not_written))).trans <|
    (W8_of_ne m ρ c main_arg19 (by decide)).trans <|
    (StableHlo.after_of_forall_not_mem (b := Proc.devRef .tc main_arg19) _ _ (List.forall_iff_forall_mem.mp (by not_written))).trans <|
    (W6_of_ne m ρ c main_arg19 (by decide)).trans <|
    (StableHlo.after_of_forall_not_mem (b := Proc.devRef .tc main_arg19) _ _ (List.forall_iff_forall_mem.mp (by not_written))).trans <|
    (W4_of_ne m ρ c main_arg19 (by decide)).trans <|
    (StableHlo.after_of_forall_not_mem (b := Proc.devRef .tc main_arg19) _ _ (List.forall_iff_forall_mem.mp (by not_written))).trans <|
    (W2_of_ne m ρ c main_arg19 (by decide)).trans <|
    (StableHlo.after_of_forall_not_mem (b := Proc.devRef .tc main_arg19) _ _ (List.forall_iff_forall_mem.mp (by not_written))).trans <| rfl

theorem arg16_at11 : W11 m ρ c (Proc.devRef .tc main_arg16) = m ((c : Thread nD τ).loc main_arg16) :=
    (StableHlo.after_of_forall_not_mem (b := Proc.devRef .tc main_arg16) _ _ (List.forall_iff_forall_mem.mp (by not_written))).trans <|
    (W10_of_ne m ρ c main_arg16 (by decide)).trans <|
    (StableHlo.after_of_forall_not_mem (b := Proc.devRef .tc main_arg16) _ _ (List.forall_iff_forall_mem.mp (by not_written))).trans <|
    (W8_of_ne m ρ c main_arg16 (by decide)).trans <|
    (StableHlo.after_of_forall_not_mem (b := Proc.devRef .tc main_arg16) _ _ (List.forall_iff_forall_mem.mp (by not_written))).trans <|
    (W6_of_ne m ρ c main_arg16 (by decide)).trans <|
    (StableHlo.after_of_forall_not_mem (b := Proc.devRef .tc main_arg16) _ _ (List.forall_iff_forall_mem.mp (by not_written))).trans <|
    (W4_of_ne m ρ c main_arg16 (by decide)).trans <|
    (StableHlo.after_of_forall_not_mem (b := Proc.devRef .tc main_arg16) _ _ (List.forall_iff_forall_mem.mp (by not_written))).trans <|
    (W2_of_ne m ρ c main_arg16 (by decide)).trans <|
    (StableHlo.after_of_forall_not_mem (b := Proc.devRef .tc main_arg16) _ _ (List.forall_iff_forall_mem.mp (by not_written))).trans <| rfl

theorem v1_at3_from2 : W3 m ρ c (Proc.devRef .tc main_v1) = W2 m ρ c (Proc.devRef .tc main_v1) :=
    (StableHlo.after_of_forall_not_mem (b := Proc.devRef .tc main_v1) _ _ (List.forall_iff_forall_mem.mp (by not_written))).trans <| rfl

theorem v37_at5_from3 : W5 m ρ c (Proc.devRef .tc main_v37) = W3 m ρ c (Proc.devRef .tc main_v37) :=
    (StableHlo.after_of_forall_not_mem (b := Proc.devRef .tc main_v37) _ _ (List.forall_iff_forall_mem.mp (by not_written))).trans <|
    (W4_of_ne m ρ c main_v37 (by decide)).trans <| rfl

theorem v39_at6_from4 : W6 m ρ c (Proc.devRef .tc main_v39) = W4 m ρ c (Proc.devRef .tc main_v39) :=
    (W6_of_ne m ρ c main_v39 (by decide)).trans <|
    (StableHlo.after_of_forall_not_mem (b := Proc.devRef .tc main_v39) _ _ (List.forall_iff_forall_mem.mp (by not_written))).trans <| rfl

theorem v39_at7_from4 : W7 m ρ c (Proc.devRef .tc main_v39) = W4 m ρ c (Proc.devRef .tc main_v39) :=
    (StableHlo.after_of_forall_not_mem (b := Proc.devRef .tc main_v39) _ _ (List.forall_iff_forall_mem.mp (by not_written))).trans <|
    (W6_of_ne m ρ c main_v39 (by decide)).trans <|
    (StableHlo.after_of_forall_not_mem (b := Proc.devRef .tc main_v39) _ _ (List.forall_iff_forall_mem.mp (by not_written))).trans <| rfl

theorem v41_at7_from6 : W7 m ρ c (Proc.devRef .tc main_v41) = W6 m ρ c (Proc.devRef .tc main_v41) :=
    (StableHlo.after_of_forall_not_mem (b := Proc.devRef .tc main_v41) _ _ (List.forall_iff_forall_mem.mp (by not_written))).trans <| rfl

theorem v41_at9_from6 : W9 m ρ c (Proc.devRef .tc main_v41) = W6 m ρ c (Proc.devRef .tc main_v41) :=
    (StableHlo.after_of_forall_not_mem (b := Proc.devRef .tc main_v41) _ _ (List.forall_iff_forall_mem.mp (by not_written))).trans <|
    (W8_of_ne m ρ c main_v41 (by decide)).trans <|
    (StableHlo.after_of_forall_not_mem (b := Proc.devRef .tc main_v41) _ _ (List.forall_iff_forall_mem.mp (by not_written))).trans <| rfl

theorem v77_at9_from7 : W9 m ρ c (Proc.devRef .tc main_v77) = W7 m ρ c (Proc.devRef .tc main_v77) :=
    (StableHlo.after_of_forall_not_mem (b := Proc.devRef .tc main_v77) _ _ (List.forall_iff_forall_mem.mp (by not_written))).trans <|
    (W8_of_ne m ρ c main_v77 (by decide)).trans <| rfl

theorem v79_at10_from8 : W10 m ρ c (Proc.devRef .tc main_v79) = W8 m ρ c (Proc.devRef .tc main_v79) :=
    (W10_of_ne m ρ c main_v79 (by decide)).trans <|
    (StableHlo.after_of_forall_not_mem (b := Proc.devRef .tc main_v79) _ _ (List.forall_iff_forall_mem.mp (by not_written))).trans <| rfl

end Cert.KernelIdeal.Boundary

end
-- ==== Proof.Spec.lean ====
/-
  The mathematics both programs compute, stated once over whole arrays as extended-real functions of a row index and a
  column index.  A dense layer's entry is a finite sum of products plus a bias row's entry; a SAGE pre-activation adds the
  neighbour mean through one weight matrix, a bias row, and the node's own features through a second weight matrix.
  The four layer shapes of the network are: a projection (dense layer, then max with zero); a combination with a
  residual (pre-activation, max with zero, plus the node's own entry); a combination normalised by its row's Euclidean
  norm (each entry divided by the larger of the norm and a small positive literal); and the decoder (two dense layers
  with a max with zero between them).  Every function here depends, at row p, only on row p of the row-indexed
  operands: that is what lets a row-tiled computation agree with the whole-array one.
-/
import Idealize.ShloMosaic.Lib.ValueIdx
import Idealize.ShloMosaic.PureOps.Ideal

noncomputable section

namespace Cert.Sage

open Idealize.ShloMosaic Idealize.ShloMosaic.ValueIdx

/-- A matrix of extended reals with `a` rows and `b` columns. -/
abbrev Mat (a b : ℕ) : Type := (⟨2, ![a, b]⟩ : Shape).Idx → EReal

/-- The float word of zero, read as an extended real. -/
def zeroF : EReal := Ideal.ofBits .f32 0x00000000#32

/-- The small positive float word that bounds a norm from below before dividing by it. -/
def epsF : EReal := Ideal.ofBits .f32 0x2B8CBCCC#32

/-- Entry (p, j) of a dense layer: the sum over q of x(p,q)·w(q,j), plus the bias row's entry j. -/
def lin {n k h : ℕ} (x : Mat n k) (w : Mat k h) (b : Mat 1 h) (p : Fin n) (j : Fin h) : EReal :=
  (∑ q : Fin k, x (ix2 p q) * w (ix2 q j)) + b (ix2 (0 : Fin 1) j)

/-- Entry (p, j) of a SAGE pre-activation: the dense layer of the neighbour mean, plus the node's own row through
    the second weight matrix. -/
def sage {n h : ℕ} (mean xdst : Mat n h) (wl : Mat h h) (bl : Mat 1 h) (wr : Mat h h) (p : Fin n) (j : Fin h) : EReal :=
  lin mean wl bl p j + ∑ q : Fin h, xdst (ix2 p q) * wr (ix2 q j)

/-- A dense layer followed by the maximum with zero. -/
def proj {n k h : ℕ} (x : Mat n k) (w : Mat k h) (b : Mat 1 h) : Mat n h :=
  fun i => max (lin x w b (i 0) (i 1)) zeroF

/-- A SAGE combination with a residual: max(pre-activation, 0) plus the node's own entry. -/
def combineRes {n h : ℕ} (mean xdst : Mat n h) (wl : Mat h h) (bl : Mat 1 h) (wr : Mat h h) : Mat n h :=
  fun i => max (sage mean xdst wl bl wr (i 0) (i 1)) zeroF + xdst (ix2 (i 0) (i 1))

/-- A SAGE combination normalised by its row: each entry of the pre-activation divided by the larger of the row's
    Euclidean norm (the square root of the sum of the row's squares) and the small positive literal. -/
def combineNorm {n h : ℕ} (mean xdst : Mat n h) (wl : Mat h h) (bl : Mat 1 h) (wr : Mat h h) : Mat n h :=
  fun i => Ideal.div (sage mean xdst wl bl wr (i 0) (i 1))
    (max (Ideal.sqrt (∑ q : Fin h, sage mean xdst wl bl wr (i 0) q * sage mean xdst wl bl wr (i 0) q)) epsF)

/-- The decoder: a dense layer, the maximum with zero, and a second dense layer. -/
def decoder {n k h o : ℕ} (x : Mat n k) (w1 : Mat k h) (b1 : Mat 1 h) (w2 : Mat h o) (b2 : Mat 1 o) : Mat n o :=
  fun i => lin (proj x w1 b1) w2 b2 (i 0) (i 1)

end Cert.Sage

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Region0.lean ====
/-
  The projection layer's region: ten grid points, point t computing rows 2000·t … 2000·t + 1999 of
  max(x·w + b, 0) from the same rows of x, the whole weight matrix w and the whole bias row b.
  Read at an entry (p, j) the block a point stores is the sum over q of x(p,q)·w(q,j), plus b(0,j), capped
  below by zero: a change of float format is the identity on extended reals, the product into a zero
  accumulator is the plain sum of products, and the bias row is repeated down the rows.  Each block is therefore
  the restriction of the whole-array projection to the point's rows, and the ten blocks cover the 20000 rows,
  row r lying in the block of point r / 2000.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem Cert.KernelIdeal

namespace Cert.KernelIdeal.Region0

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The stored block at entry (p, j): the dense layer of the loaded rows, capped below by zero. -/
theorem pay_apply (x0 : Vec Ideal S2000x256 .f32) (x1 : Vec Ideal S256x64 .f32) (x2 : Vec Ideal S1x64 .f32)
    (p : Fin 2000) (j : Fin 64) :
    Gen.k0_pay1 (F := Ideal) x0 x1 x2 (ix2 p j)
      = max ((∑ q : Fin 256, x0 (ix2 p q) * x1 (ix2 q j)) + x2 (ix2 (0 : Fin 1) j)) Cert.Sage.zeroF := by
  unfold Gen.k0_pay1
  refine congrArg₂ max (congrArg₂ (· + ·) ?_ ?_) rfl
  · exact Cert.PlainDot.matmul_zero_ix2 dot_S2000x256_S256x64_S2000x64_1_0_0_1_n_n rfl none _ _ p j
  · refine (Cert.LibRowBroadcast.broadcastTo_1b_ab_apply _ _ p j).trans ?_
    rw [shapeCast_self]

/-- The printed index maps over the grid: the row-tiled operand and the result sit at block row t, the weight
    matrix and the bias row at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point t holds rows 2000·t … 2000·t + 1999 of the array. -/
theorem rows_x (c : Dev nD) (t : Fin cfg0.N) (p : Fin 2000) (q : Fin 256) (g : Fin 20000)
    (hg : g.val = t.val * 2000 + p.val) :
    (Gen.iblk0 V c 0 t : Vec Ideal S2000x256 .f32) (ix2 p q) = (V c main_arg0 : Cert.Sage.Mat 20000 256) (ix2 g q) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t 0 * 2000 + 1 * p.val = g.val; rw [e0, hg]; omega
  | ⟨1, _⟩ => show win0_0.index t 1 * 256 + 1 * q.val = q.val; rw [e1]; omega

/-- The weight matrix's block at every point is the whole matrix. -/
theorem whole_w (c : Dev nD) (t : Fin cfg0.N) :
    (Gen.iblk0 V c 1 t : Vec Ideal S256x64 .f32) = (V c main_arg2 : Cert.Sage.Mat 256 64) := by
  obtain ⟨-, -, e0, e1, -⟩ := idx_facts t
  funext x
  unfold Gen.iblk0
  rw [View.read_apply]
  show V c main_arg2 _ = V c main_arg2 _
  congr 1
  funext a
  apply Fin.ext
  match a with
  | ⟨0, _⟩ => show win0_1.index t 0 * 256 + 1 * (x 0).val = (x 0).val; rw [e0]; omega
  | ⟨1, _⟩ => show win0_1.index t 1 * 64 + 1 * (x 1).val = (x 1).val; rw [e1]; omega

/-- The bias row's block at every point is the whole row. -/
theorem whole_b (c : Dev nD) (t : Fin cfg0.N) :
    (Gen.iblk0 V c 2 t : Vec Ideal S1x64 .f32) = (V c main_v0 : Cert.Sage.Mat 1 64) := by
  obtain ⟨-, -, -, -, e0, e1, -⟩ := idx_facts t
  funext x
  unfold Gen.iblk0
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- One entry of a stored block, over any blocks that hold rows 2000·r … of x, all of w and all of b: it is the
    projection's entry at row 2000·r + p. -/
theorem block_entry (A0 : Cert.Sage.Mat 20000 256) (A1 : Cert.Sage.Mat 256 64) (A2 : Cert.Sage.Mat 1 64)
    (x0 : Vec Ideal S2000x256 .f32) (x1 : Vec Ideal S256x64 .f32) (x2 : Vec Ideal S1x64 .f32) (r : Nat)
    (h0 : ∀ (p : Fin 2000) (q : Fin 256) (g : Fin 20000), g.val = r * 2000 + p.val → x0 (ix2 p q) = A0 (ix2 g q))
    (h1 : x1 = A1) (h2 : x2 = A2) (p : Fin 2000) (j : Fin 64) (g : Fin 20000) (hg : g.val = r * 2000 + p.val) :
    Gen.k0_pay1 (F := Ideal) x0 x1 x2 (ix2 p j) = Cert.Sage.proj A0 A1 A2 (ix2 g j) := by
  subst h1 h2
  rw [pay_apply]
  show _ = max ((∑ q : Fin 256, A0 (ix2 g q) * x1 (ix2 q j)) + x2 (ix2 (0 : Fin 1) j)) Cert.Sage.zeroF
  refine congrArg₂ max (congrArg₂ (· + ·) (Finset.sum_congr rfl fun q _ => ?_) rfl) rfl
  rw [h0 p q g hg]

/-- What point t writes back is block t of the projection of the arrays as the region finds them. -/
theorem flushed_eq (c : Dev nD) (t : Fin cfg0.N) :
    (Gen.dat0 (F := Ideal) V c).flushed 3 t
      = ((cfg0.win 3).blk t).view.read (Elt Ideal)
          (Cert.Sage.proj (V c main_arg0 : Cert.Sage.Mat 20000 256) (V c main_arg2 : Cert.Sage.Mat 256 64) (V c main_v0 : Cert.Sage.Mat 1 64)) := by
  show (cfg0.win 3).cut (grid0.coords t) ((Gen.dat0 (F := Ideal) V c).after 3 t) = _
  rw [Gen.after0_3]
  unfold Gen.out0_3
  rw [View.canon_unit_zero hz]
  simp only [View.ld_unit_zero (S := S2000x256) hz, View.ld_unit_zero (S := S256x64) hz, View.ld_unit_zero (S := S1x64) hz]
  obtain ⟨-, -, -, -, -, -, e0, e1⟩ := idx_facts t
  have ht : t.val < 10 := lt_of_lt_of_eq t.isLt Gen.N_0
  funext y
  obtain ⟨p, j, rfl⟩ : ∃ (p : Fin 2000) (j : Fin 64), y = ix2 p j := ⟨y 0, y 1, eq_ix2 y⟩
  have hp : p.val < 2000 := p.isLt
  have hemb : ((cfg0.win 3).blk t).view.emb (ix2 p j) = ix2 (⟨t.val * 2000 + p.val, by omega⟩ : Fin 20000) j := by
    funext a
    apply Fin.ext
    match a with
    | ⟨0, _⟩ => show win0_3.index t 0 * 2000 + 1 * p.val = t.val * 2000 + p.val; rw [e0]; omega
    | ⟨1, _⟩ => show win0_3.index t 1 * 64 + 1 * j.val = j.val; rw [e1]; omega
  show Gen.k0_pay1 (F := Ideal) (Gen.iblk0 V c 0 t) (Gen.iblk0 V c 1 t) (Gen.iblk0 V c 2 t) (ix2 p j)
    = Cert.Sage.proj (V c main_arg0 : Cert.Sage.Mat 20000 256) (V c main_arg2 : Cert.Sage.Mat 256 64) (V c main_v0 : Cert.Sage.Mat 1 64)
        (((cfg0.win 3).blk t).view.emb (ix2 p j))
  rw [hemb]
  exact block_entry (V c main_arg0) (V c main_arg2) (V c main_v0) (Gen.iblk0 V c 0 t) (Gen.iblk0 V c 1 t) (Gen.iblk0 V c 2 t)
    t.val (fun p q g hg => rows_x V c t p q g hg) (whole_w V c t) (whole_b V c t) p j ⟨t.val * 2000 + p.val, by omega⟩ rfl

/-- The result array after the region: the projection of the three operands, the ten blocks of 2000 rows covering
    its 20000 rows (row r lies in the block of point r / 2000). -/
theorem final (c : Dev nD) :
    (Gen.dat0 (F := Ideal) V c).arrAt 3 cfg0.N
      = Cert.Sage.proj (V c main_arg0 : Cert.Sage.Mat 20000 256) (V c main_arg2 : Cert.Sage.Mat 256 64) (V c main_v0 : Cert.Sage.Mat 1 64) :=
  (Gen.dat0 (F := Ideal) V c).arrAt_eq_of_cover 3
    (Cert.Sage.proj (V c main_arg0 : Cert.Sage.Mat 20000 256) (V c main_arg2 : Cert.Sage.Mat 256 64) (V c main_v0 : Cert.Sage.Mat 1 64))
    (fun t _ => flushed_eq V c t) fun i => by
      have hi0 : (i 0).val < 20000 := (i 0).isLt
      have hi1 : (i 1).val < 64 := (i 1).isLt
      have hN : grid0.N = 10 := Gen.N_0
      have hlt : (i 0).val / 2000 < cfg0.N := by show _ < grid0.N; rw [hN]; omega
      obtain ⟨-, -, -, -, -, -, e0, e1⟩ := idx_facts ⟨(i 0).val / 2000, hlt⟩
      refine ⟨⟨(i 0).val / 2000, hlt⟩, Gen.flush0_3 _, ?_⟩
      show i ∈ ((View.whole main_v1).slice (win0_3.rect ⟨(i 0).val / 2000, hlt⟩)).set
      rw [View.set_slice_whole, Rect.mem_set_unit]
      intro a
      match a with
      | ⟨0, _⟩ =>
        show win0_3.index ⟨(i 0).val / 2000, hlt⟩ 0 * 2000 ≤ (i 0).val
          ∧ (i 0).val < win0_3.index ⟨(i 0).val / 2000, hlt⟩ 0 * 2000 + 2000
        rw [e0]; show (i 0).val / 2000 * 2000 ≤ (i 0).val ∧ (i 0).val < (i 0).val / 2000 * 2000 + 2000; omega
      | ⟨1, _⟩ =>
        show win0_3.index ⟨(i 0).val / 2000, hlt⟩ 1 * 64 ≤ (i 1).val
          ∧ (i 1).val < win0_3.index ⟨(i 0).val / 2000, hlt⟩ 1 * 64 + 64
        rw [e1]; omega

end Cert.KernelIdeal.Region0

end
-- ==== Proof.Region1.lean ====
/-
  A residual combination's region: ten grid points, point t computing rows 2000·t … 2000·t + 1999 of
  max(mean·Wl + b + xdst·Wr, 0) + xdst from the same rows of the neighbour mean and of the nodes' own features, the
  two whole weight matrices and the whole bias row.  Read at an entry (p, j) the block a point stores is
  the sum over q of mean(p,q)·Wl(q,j), plus b(0,j), plus the sum over q of xdst(p,q)·Wr(q,j), capped below by zero,
  plus xdst(p,j): a change of float format is the identity on extended reals, each product into a zero accumulator
  is the plain sum of products, a reshape to the same shape changes nothing, and the bias row is repeated down the
  rows.  Each block is therefore the restriction of the whole-array combination to the point's rows, and the ten
  blocks cover the 20000 rows, row r lying in the block of point r / 2000.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem Cert.KernelIdeal

namespace Cert.KernelIdeal.Region1

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The stored block at entry (p, j): the pre-activation of the loaded rows, capped below by zero, plus the
    node's own entry. -/
theorem pay_apply (x0 x1 : Vec Ideal S2000x64 .f32) (w1 w2 : Vec Ideal S64x64 .f32) (b : Vec Ideal S1x64 .f32)
    (p : Fin 2000) (j : Fin 64) :
    Gen.k1_pay1 (F := Ideal) x0 x1 w1 w2 b (ix2 p j)
      = max (((∑ q : Fin 64, x0 (ix2 p q) * w1 (ix2 q j)) + b (ix2 (0 : Fin 1) j))
            + ∑ q : Fin 64, x1 (ix2 p q) * w2 (ix2 q j)) Cert.Sage.zeroF + x1 (ix2 p j) := by
  unfold Gen.k1_pay1
  simp only [shapeCast_self]
  refine congrArg₂ (· + ·) (congrArg₂ max (congrArg₂ (· + ·) (congrArg₂ (· + ·) ?_ ?_) ?_) rfl) rfl
  · exact Cert.PlainDot.matmul_zero_ix2 dot_S2000x64_S64x64_S2000x64_1_0_0_1_n_n rfl none _ _ p j
  · exact Cert.LibRowBroadcast.broadcastTo_1b_ab_apply _ _ p j
  · exact Cert.PlainDot.matmul_zero_ix2 dot_S2000x64_S64x64_S2000x64_1_0_0_1_n_n rfl none _ _ p j

/-- The printed index maps over the grid: the two row-tiled operands and the result sit at block row t, the weight
    matrices and the bias row at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour mean's block at point t holds rows 2000·t … 2000·t + 1999 of the array. -/
theorem rows_mean (c : Dev nD) (t : Fin cfg1.N) (p : Fin 2000) (q : Fin 64) (g : Fin 20000)
    (hg : g.val = t.val * 2000 + p.val) :
    (Gen.iblk1 V c 0 t : Vec Ideal S2000x64 .f32) (ix2 p q) = (V c main_v19 : Cert.Sage.Mat 20000 64) (ix2 g q) := by
  obtain ⟨e0, e1, -⟩ := idx_facts t
  unfold Gen.iblk1
  rw [View.read_apply]
  show V c main_v19 _ = V c main_v19 _
  congr 1
  funext a
  apply Fin.ext
  match a with
  | ⟨0, _⟩ => show win1_0.index t 0 * 2000 + 1 * p.val = g.val; rw [e0, hg]; omega
  | ⟨1, _⟩ => show win1_0.index t 1 * 64 + 1 * q.val = q.val; rw [e1]; omega

/-- The nodes' own features' block at point t holds the same rows of their array. -/
theorem rows_own (c : Dev nD) (t : Fin cfg1.N) (p : Fin 2000) (q : Fin 64) (g : Fin 20000)
    (hg : g.val = t.val * 2000 + p.val) :
    (Gen.iblk1 V c 1 t : Vec Ideal S2000x64 .f32) (ix2 p q) = (V c main_v1 : Cert.Sage.Mat 20000 64) (ix2 g q) := by
  obtain ⟨-, -, e0, e1, -⟩ := idx_facts t
  unfold Gen.iblk1
  rw [View.read_apply]
  show V c main_v1 _ = V c main_v1 _
  congr 1
  funext a
  apply Fin.ext
  match a with
  | ⟨0, _⟩ => show win1_1.index t 0 * 2000 + 1 * p.val = g.val; rw [e0, hg]; omega
  | ⟨1, _⟩ => show win1_1.index t 1 * 64 + 1 * q.val = q.val; rw [e1]; omega

/-- The first weight matrix's block at every point is the whole matrix. -/
theorem whole_wl (c : Dev nD) (t : Fin cfg1.N) :
    (Gen.iblk1 V c 2 t : Vec Ideal S64x64 .f32) = (V c main_arg4 : Cert.Sage.Mat 64 64) := by
  obtain ⟨-, -, -, -, e0, e1, -⟩ := idx_facts t
  funext x
  unfold Gen.iblk1
  rw [View.read_apply]
  show V c main_arg4 _ = V c main_arg4 _
  congr 1
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The bias row's block at every point is the whole row. -/
theorem whole_b (c : Dev nD) (t : Fin cfg1.N) :
    (Gen.iblk1 V c 3 t : Vec Ideal S1x64 .f32) = (V c main_v38 : Cert.Sage.Mat 1 64) := by
  obtain ⟨-, -, -, -, -, -, e0, e1, -⟩ := idx_facts t
  funext x
  unfold Gen.iblk1
  rw [View.read_apply]
  show V c main_v38 _ = V c main_v38 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The second weight matrix's block at every point is the whole matrix. -/
theorem whole_wr (c : Dev nD) (t : Fin cfg1.N) :
    (Gen.iblk1 V c 4 t : Vec Ideal S64x64 .f32) = (V c main_arg6 : Cert.Sage.Mat 64 64) := by
  obtain ⟨-, -, -, -, -, -, -, -, e0, e1, -⟩ := idx_facts t
  funext x
  unfold Gen.iblk1
  rw [View.read_apply]
  show V c main_arg6 _ = V c main_arg6 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- One entry of a stored block, over any blocks that hold rows 2000·r … of the mean and of the own features and all of
    the two weight matrices and the bias row: it is the combination's entry at row 2000·r + p. -/
theorem block_entry (A0 A1 : Cert.Sage.Mat 20000 64) (W1 : Cert.Sage.Mat 64 64) (B : Cert.Sage.Mat 1 64) (W2 : Cert.Sage.Mat 64 64)
    (x0 x1 : Vec Ideal S2000x64 .f32) (w1 w2 : Vec Ideal S64x64 .f32) (b : Vec Ideal S1x64 .f32) (r : Nat)
    (h0 : ∀ (p : Fin 2000) (q : Fin 64) (g : Fin 20000), g.val = r * 2000 + p.val → x0 (ix2 p q) = A0 (ix2 g q))
    (h1 : ∀ (p : Fin 2000) (q : Fin 64) (g : Fin 20000), g.val = r * 2000 + p.val → x1 (ix2 p q) = A1 (ix2 g q))
    (hw1 : w1 = W1) (hb : b = B) (hw2 : w2 = W2) (p : Fin 2000) (j : Fin 64) (g : Fin 20000) (hg : g.val = r * 2000 + p.val) :
    Gen.k1_pay1 (F := Ideal) x0 x1 w1 w2 b (ix2 p j) = Cert.Sage.combineRes A0 A1 W1 B W2 (ix2 g j) := by
  subst hw1 hb hw2
  rw [pay_apply]
  show _ = max (((∑ q : Fin 64, A0 (ix2 g q) * w1 (ix2 q j)) + b (ix2 (0 : Fin 1) j))
            + ∑ q : Fin 64, A1 (ix2 g q) * w2 (ix2 q j)) Cert.Sage.zeroF + A1 (ix2 g j)
  refine congrArg₂ (· + ·) (congrArg₂ max (congrArg₂ (· + ·) (congrArg₂ (· + ·)
    (Finset.sum_congr rfl fun q _ => ?_) rfl) (Finset.sum_congr rfl fun q _ => ?_)) rfl) (h1 p j g hg)
  · rw [h0 p q g hg]
  · rw [h1 p q g hg]

/-- What point t writes back is block t of the combination of the arrays as the region finds them. -/
theorem flushed_eq (c : Dev nD) (t : Fin cfg1.N) :
    (Gen.dat1 (F := Ideal) V c).flushed 5 t
      = ((cfg1.win 5).blk t).view.read (Elt Ideal)
          (Cert.Sage.combineRes (V c main_v19 : Cert.Sage.Mat 20000 64) (V c main_v1 : Cert.Sage.Mat 20000 64)
            (V c main_arg4 : Cert.Sage.Mat 64 64) (V c main_v38 : Cert.Sage.Mat 1 64) (V c main_arg6 : Cert.Sage.Mat 64 64)) := by
  show (cfg1.win 5).cut (grid1.coords t) ((Gen.dat1 (F := Ideal) V c).after 5 t) = _
  rw [Gen.after1_5]
  unfold Gen.out1_5
  rw [View.canon_unit_zero hz]
  simp only [View.ld_unit_zero (S := S2000x64) hz, View.ld_unit_zero (S := S64x64) hz, View.ld_unit_zero (S := S1x64) hz]
  obtain ⟨-, -, -, -, -, -, -, -, -, -, e0, e1⟩ := idx_facts t
  have ht : t.val < 10 := lt_of_lt_of_eq t.isLt Gen.N_1
  funext y
  obtain ⟨p, j, rfl⟩ : ∃ (p : Fin 2000) (j : Fin 64), y = ix2 p j := ⟨y 0, y 1, eq_ix2 y⟩
  have hp : p.val < 2000 := p.isLt
  have hemb : ((cfg1.win 5).blk t).view.emb (ix2 p j) = ix2 (⟨t.val * 2000 + p.val, by omega⟩ : Fin 20000) j := by
    funext a
    apply Fin.ext
    match a with
    | ⟨0, _⟩ => show win1_5.index t 0 * 2000 + 1 * p.val = t.val * 2000 + p.val; rw [e0]; omega
    | ⟨1, _⟩ => show win1_5.index t 1 * 64 + 1 * j.val = j.val; rw [e1]; omega
  show Gen.k1_pay1 (F := Ideal) (Gen.iblk1 V c 0 t) (Gen.iblk1 V c 1 t) (Gen.iblk1 V c 2 t) (Gen.iblk1 V c 4 t)
      (Gen.iblk1 V c 3 t) (ix2 p j)
    = Cert.Sage.combineRes (V c main_v19 : Cert.Sage.Mat 20000 64) (V c main_v1 : Cert.Sage.Mat 20000 64)
        (V c main_arg4 : Cert.Sage.Mat 64 64) (V c main_v38 : Cert.Sage.Mat 1 64) (V c main_arg6 : Cert.Sage.Mat 64 64)
        (((cfg1.win 5).blk t).view.emb (ix2 p j))
  rw [hemb]
  exact block_entry (V c main_v19) (V c main_v1) (V c main_arg4) (V c main_v38) (V c main_arg6)
    (Gen.iblk1 V c 0 t) (Gen.iblk1 V c 1 t) (Gen.iblk1 V c 2 t) (Gen.iblk1 V c 4 t) (Gen.iblk1 V c 3 t) t.val
    (fun p q g hg => rows_mean V c t p q g hg) (fun p q g hg => rows_own V c t p q g hg)
    (whole_wl V c t) (whole_b V c t) (whole_wr V c t) p j ⟨t.val * 2000 + p.val, by omega⟩ rfl

/-- The result array after the region: the residual combination of the five operands, the ten blocks of 2000 rows
    covering its 20000 rows (row r lies in the block of point r / 2000). -/
theorem final (c : Dev nD) :
    (Gen.dat1 (F := Ideal) V c).arrAt 5 cfg1.N
      = Cert.Sage.combineRes (V c main_v19 : Cert.Sage.Mat 20000 64) (V c main_v1 : Cert.Sage.Mat 20000 64)
          (V c main_arg4 : Cert.Sage.Mat 64 64) (V c main_v38 : Cert.Sage.Mat 1 64) (V c main_arg6 : Cert.Sage.Mat 64 64) :=
  (Gen.dat1 (F := Ideal) V c).arrAt_eq_of_cover 5
    (Cert.Sage.combineRes (V c main_v19 : Cert.Sage.Mat 20000 64) (V c main_v1 : Cert.Sage.Mat 20000 64)
      (V c main_arg4 : Cert.Sage.Mat 64 64) (V c main_v38 : Cert.Sage.Mat 1 64) (V c main_arg6 : Cert.Sage.Mat 64 64))
    (fun t _ => flushed_eq V c t) fun i => by
      have hi0 : (i 0).val < 20000 := (i 0).isLt
      have hi1 : (i 1).val < 64 := (i 1).isLt
      have hN : grid1.N = 10 := Gen.N_1
      have hlt : (i 0).val / 2000 < cfg1.N := by show _ < grid1.N; rw [hN]; omega
      obtain ⟨-, -, -, -, -, -, -, -, -, -, e0, e1⟩ := idx_facts ⟨(i 0).val / 2000, hlt⟩
      refine ⟨⟨(i 0).val / 2000, hlt⟩, Gen.flush1_5 _, ?_⟩
      show i ∈ ((View.whole main_v39).slice (win1_5.rect ⟨(i 0).val / 2000, hlt⟩)).set
      rw [View.set_slice_whole, Rect.mem_set_unit]
      intro a
      match a with
      | ⟨0, _⟩ =>
        show win1_5.index ⟨(i 0).val / 2000, hlt⟩ 0 * 2000 ≤ (i 0).val
          ∧ (i 0).val < win1_5.index ⟨(i 0).val / 2000, hlt⟩ 0 * 2000 + 2000
        rw [e0]; show (i 0).val / 2000 * 2000 ≤ (i 0).val ∧ (i 0).val < (i 0).val / 2000 * 2000 + 2000; omega
      | ⟨1, _⟩ =>
        show win1_5.index ⟨(i 0).val / 2000, hlt⟩ 1 * 64 ≤ (i 1).val
          ∧ (i 1).val < win1_5.index ⟨(i 0).val / 2000, hlt⟩ 1 * 64 + 64
        rw [e1]; omega

end Cert.KernelIdeal.Region1

end
-- ==== Proof.Region2.lean ====
/-
  A residual combination's region: ten grid points, point t computing rows 10000·t … 10000·t + 9999 of
  max(mean·Wl + b + xdst·Wr, 0) + xdst from the same rows of the neighbour mean and of the nodes' own features, the
  two whole weight matrices and the whole bias row.  Read at an entry (p, j) the block a point stores is
  the sum over q of mean(p,q)·Wl(q,j), plus b(0,j), plus the sum over q of xdst(p,q)·Wr(q,j), capped below by zero,
  plus xdst(p,j): a change of float format is the identity on extended reals, each product into a zero accumulator
  is the plain sum of products, a reshape to the same shape changes nothing, and the bias row is repeated down the
  rows.  Each block is therefore the restriction of the whole-array combination to the point's rows, and the ten
  blocks cover the 100000 rows, row r lying in the block of point r / 10000.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem Cert.KernelIdeal

namespace Cert.KernelIdeal.Region2

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The stored block at entry (p, j): the pre-activation of the loaded rows, capped below by zero, plus the
    node's own entry. -/
theorem pay_apply (x0 x1 : Vec Ideal S10000x64 .f32) (w1 w2 : Vec Ideal S64x64 .f32) (b : Vec Ideal S1x64 .f32)
    (p : Fin 10000) (j : Fin 64) :
    Gen.k2_pay1 (F := Ideal) x0 x1 w1 w2 b (ix2 p j)
      = max (((∑ q : Fin 64, x0 (ix2 p q) * w1 (ix2 q j)) + b (ix2 (0 : Fin 1) j))
            + ∑ q : Fin 64, x1 (ix2 p q) * w2 (ix2 q j)) Cert.Sage.zeroF + x1 (ix2 p j) := by
  unfold Gen.k2_pay1
  simp only [shapeCast_self]
  refine congrArg₂ (· + ·) (congrArg₂ max (congrArg₂ (· + ·) (congrArg₂ (· + ·) ?_ ?_) ?_) rfl) rfl
  · exact Cert.PlainDot.matmul_zero_ix2 dot_S10000x64_S64x64_S10000x64_1_0_0_1_n_n rfl none _ _ p j
  · exact Cert.LibRowBroadcast.broadcastTo_1b_ab_apply _ _ p j
  · exact Cert.PlainDot.matmul_zero_ix2 dot_S10000x64_S64x64_S10000x64_1_0_0_1_n_n rfl none _ _ p j

/-- The printed index maps over the grid: the two row-tiled operands and the result sit at block row t, the weight
    matrices and the bias row at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour mean's block at point t holds rows 10000·t … 10000·t + 9999 of the array. -/
theorem rows_mean (c : Dev nD) (t : Fin cfg2.N) (p : Fin 10000) (q : Fin 64) (g : Fin 100000)
    (hg : g.val = t.val * 10000 + p.val) :
    (Gen.iblk2 V c 0 t : Vec Ideal S10000x64 .f32) (ix2 p q) = (V c main_v37 : Cert.Sage.Mat 100000 64) (ix2 g q) := by
  obtain ⟨e0, e1, -⟩ := idx_facts t
  unfold Gen.iblk2
  rw [View.read_apply]
  show V c main_v37 _ = V c main_v37 _
  congr 1
  funext a
  apply Fin.ext
  match a with
  | ⟨0, _⟩ => show win2_0.index t 0 * 10000 + 1 * p.val = g.val; rw [e0, hg]; omega
  | ⟨1, _⟩ => show win2_0.index t 1 * 64 + 1 * q.val = q.val; rw [e1]; omega

/-- The nodes' own features' block at point t holds the same rows of their array. -/
theorem rows_own (c : Dev nD) (t : Fin cfg2.N) (p : Fin 10000) (q : Fin 64) (g : Fin 100000)
    (hg : g.val = t.val * 10000 + p.val) :
    (Gen.iblk2 V c 1 t : Vec Ideal S10000x64 .f32) (ix2 p q) = (V c main_arg1 : Cert.Sage.Mat 100000 64) (ix2 g q) := by
  obtain ⟨-, -, e0, e1, -⟩ := idx_facts t
  unfold Gen.iblk2
  rw [View.read_apply]
  show V c main_arg1 _ = V c main_arg1 _
  congr 1
  funext a
  apply Fin.ext
  match a with
  | ⟨0, _⟩ => show win2_1.index t 0 * 10000 + 1 * p.val = g.val; rw [e0, hg]; omega
  | ⟨1, _⟩ => show win2_1.index t 1 * 64 + 1 * q.val = q.val; rw [e1]; omega

/-- The first weight matrix's block at every point is the whole matrix. -/
theorem whole_wl (c : Dev nD) (t : Fin cfg2.N) :
    (Gen.iblk2 V c 2 t : Vec Ideal S64x64 .f32) = (V c main_arg7 : Cert.Sage.Mat 64 64) := by
  obtain ⟨-, -, -, -, e0, e1, -⟩ := idx_facts t
  funext x
  unfold Gen.iblk2
  rw [View.read_apply]
  show V c main_arg7 _ = V c main_arg7 _
  congr 1
  funext a
  apply Fin.ext
  match a with
  | ⟨0, _⟩ => show win2_2.index t 0 * 64 + 1 * (x 0).val = (x 0).val; rw [e0]; omega
  | ⟨1, _⟩ => show win2_2.index t 1 * 64 + 1 * (x 1).val = (x 1).val; rw [e1]; omega

/-- The bias row's block at every point is the whole row. -/
theorem whole_b (c : Dev nD) (t : Fin cfg2.N) :
    (Gen.iblk2 V c 3 t : Vec Ideal S1x64 .f32) = (V c main_v40 : Cert.Sage.Mat 1 64) := by
  obtain ⟨-, -, -, -, -, -, e0, e1, -⟩ := idx_facts t
  funext x
  unfold Gen.iblk2
  rw [View.read_apply]
  show V c main_v40 _ = V c main_v40 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- The second weight matrix's block at every point is the whole matrix. -/
theorem whole_wr (c : Dev nD) (t : Fin cfg2.N) :
    (Gen.iblk2 V c 4 t : Vec Ideal S64x64 .f32) = (V c main_arg9 : Cert.Sage.Mat 64 64) := by
  obtain ⟨-, -, -, -, -, -, -, -, e0, e1, -⟩ := idx_facts t
  funext x
  unfold Gen.iblk2
  rw [View.read_apply]
  show V c main_arg9 _ = V c main_arg9 _
  congr 1
  funext a
  apply Fin.ext
  match a with
  | ⟨0, _⟩ => show win2_4.index t 0 * 64 + 1 * (x 0).val = (x 0).val; rw [e0]; omega
  | ⟨1, _⟩ => show win2_4.index t 1 * 64 + 1 * (x 1).val = (x 1).val; rw [e1]; omega

/-- One entry of a stored block, over any blocks that hold rows 10000·r … of the mean and of the own features and all of
    the two weight matrices and the bias row: it is the combination's entry at row 10000·r + p. -/
theorem block_entry (A0 A1 : Cert.Sage.Mat 100000 64) (W1 : Cert.Sage.Mat 64 64) (B : Cert.Sage.Mat 1 64) (W2 : Cert.Sage.Mat 64 64)
    (x0 x1 : Vec Ideal S10000x64 .f32) (w1 w2 : Vec Ideal S64x64 .f32) (b : Vec Ideal S1x64 .f32) (r : Nat)
    (h0 : ∀ (p : Fin 10000) (q : Fin 64) (g : Fin 100000), g.val = r * 10000 + p.val → x0 (ix2 p q) = A0 (ix2 g q))
    (h1 : ∀ (p : Fin 10000) (q : Fin 64) (g : Fin 100000), g.val = r * 10000 + p.val → x1 (ix2 p q) = A1 (ix2 g q))
    (hw1 : w1 = W1) (hb : b = B) (hw2 : w2 = W2) (p : Fin 10000) (j : Fin 64) (g : Fin 100000) (hg : g.val = r * 10000 + p.val) :
    Gen.k2_pay1 (F := Ideal) x0 x1 w1 w2 b (ix2 p j) = Cert.Sage.combineRes A0 A1 W1 B W2 (ix2 g j) := by
  subst hw1 hb hw2
  rw [pay_apply]
  show _ = max (((∑ q : Fin 64, A0 (ix2 g q) * w1 (ix2 q j)) + b (ix2 (0 : Fin 1) j))
            + ∑ q : Fin 64, A1 (ix2 g q) * w2 (ix2 q j)) Cert.Sage.zeroF + A1 (ix2 g j)
  refine congrArg₂ (· + ·) (congrArg₂ max (congrArg₂ (· + ·) (congrArg₂ (· + ·)
    (Finset.sum_congr rfl fun q _ => ?_) rfl) (Finset.sum_congr rfl fun q _ => ?_)) rfl) (h1 p j g hg)
  · rw [h0 p q g hg]
  · rw [h1 p q g hg]

/-- What point t writes back is block t of the combination of the arrays as the region finds them. -/
theorem flushed_eq (c : Dev nD) (t : Fin cfg2.N) :
    (Gen.dat2 (F := Ideal) V c).flushed 5 t
      = ((cfg2.win 5).blk t).view.read (Elt Ideal)
          (Cert.Sage.combineRes (V c main_v37 : Cert.Sage.Mat 100000 64) (V c main_arg1 : Cert.Sage.Mat 100000 64)
            (V c main_arg7 : Cert.Sage.Mat 64 64) (V c main_v40 : Cert.Sage.Mat 1 64) (V c main_arg9 : Cert.Sage.Mat 64 64)) := by
  show (cfg2.win 5).cut (grid2.coords t) ((Gen.dat2 (F := Ideal) V c).after 5 t) = _
  rw [Gen.after2_5]
  unfold Gen.out2_5
  rw [View.canon_unit_zero hz]
  simp only [View.ld_unit_zero (S := S10000x64) hz, View.ld_unit_zero (S := S64x64) hz, View.ld_unit_zero (S := S1x64) hz]
  obtain ⟨-, -, -, -, -, -, -, -, -, -, e0, e1⟩ := idx_facts t
  have ht : t.val < 10 := lt_of_lt_of_eq t.isLt Gen.N_2
  funext y
  obtain ⟨p, j, rfl⟩ : ∃ (p : Fin 10000) (j : Fin 64), y = ix2 p j := ⟨y 0, y 1, eq_ix2 y⟩
  have hp : p.val < 10000 := p.isLt
  have hemb : ((cfg2.win 5).blk t).view.emb (ix2 p j) = ix2 (⟨t.val * 10000 + p.val, by omega⟩ : Fin 100000) j := by
    funext a
    apply Fin.ext
    match a with
    | ⟨0, _⟩ => show win2_5.index t 0 * 10000 + 1 * p.val = t.val * 10000 + p.val; rw [e0]; omega
    | ⟨1, _⟩ => show win2_5.index t 1 * 64 + 1 * j.val = j.val; rw [e1]; omega
  show Gen.k2_pay1 (F := Ideal) (Gen.iblk2 V c 0 t) (Gen.iblk2 V c 1 t) (Gen.iblk2 V c 2 t) (Gen.iblk2 V c 4 t)
      (Gen.iblk2 V c 3 t) (ix2 p j)
    = Cert.Sage.combineRes (V c main_v37 : Cert.Sage.Mat 100000 64) (V c main_arg1 : Cert.Sage.Mat 100000 64)
        (V c main_arg7 : Cert.Sage.Mat 64 64) (V c main_v40 : Cert.Sage.Mat 1 64) (V c main_arg9 : Cert.Sage.Mat 64 64)
        (((cfg2.win 5).blk t).view.emb (ix2 p j))
  rw [hemb]
  exact block_entry (V c main_v37) (V c main_arg1) (V c main_arg7) (V c main_v40) (V c main_arg9)
    (Gen.iblk2 V c 0 t) (Gen.iblk2 V c 1 t) (Gen.iblk2 V c 2 t) (Gen.iblk2 V c 4 t) (Gen.iblk2 V c 3 t) t.val
    (fun p q g hg => rows_mean V c t p q g hg) (fun p q g hg => rows_own V c t p q g hg)
    (whole_wl V c t) (whole_b V c t) (whole_wr V c t) p j ⟨t.val * 10000 + p.val, by omega⟩ rfl

/-- The result array after the region: the residual combination of the five operands, the ten blocks of 10000 rows
    covering its 100000 rows (row r lies in the block of point r / 10000). -/
theorem final (c : Dev nD) :
    (Gen.dat2 (F := Ideal) V c).arrAt 5 cfg2.N
      = Cert.Sage.combineRes (V c main_v37 : Cert.Sage.Mat 100000 64) (V c main_arg1 : Cert.Sage.Mat 100000 64)
          (V c main_arg7 : Cert.Sage.Mat 64 64) (V c main_v40 : Cert.Sage.Mat 1 64) (V c main_arg9 : Cert.Sage.Mat 64 64) :=
  (Gen.dat2 (F := Ideal) V c).arrAt_eq_of_cover 5
    (Cert.Sage.combineRes (V c main_v37 : Cert.Sage.Mat 100000 64) (V c main_arg1 : Cert.Sage.Mat 100000 64)
      (V c main_arg7 : Cert.Sage.Mat 64 64) (V c main_v40 : Cert.Sage.Mat 1 64) (V c main_arg9 : Cert.Sage.Mat 64 64))
    (fun t _ => flushed_eq V c t) fun i => by
      have hi0 : (i 0).val < 100000 := (i 0).isLt
      have hi1 : (i 1).val < 64 := (i 1).isLt
      have hN : grid2.N = 10 := Gen.N_2
      have hlt : (i 0).val / 10000 < cfg2.N := by show _ < grid2.N; rw [hN]; omega
      obtain ⟨-, -, -, -, -, -, -, -, -, -, e0, e1⟩ := idx_facts ⟨(i 0).val / 10000, hlt⟩
      refine ⟨⟨(i 0).val / 10000, hlt⟩, Gen.flush2_5 _, ?_⟩
      show i ∈ ((View.whole main_v41).slice (win2_5.rect ⟨(i 0).val / 10000, hlt⟩)).set
      rw [View.set_slice_whole, Rect.mem_set_unit]
      intro a
      match a with
      | ⟨0, _⟩ =>
        show win2_5.index ⟨(i 0).val / 10000, hlt⟩ 0 * 10000 ≤ (i 0).val
          ∧ (i 0).val < win2_5.index ⟨(i 0).val / 10000, hlt⟩ 0 * 10000 + 10000
        rw [e0]; show (i 0).val / 10000 * 10000 ≤ (i 0).val ∧ (i 0).val < (i 0).val / 10000 * 10000 + 10000; omega
      | ⟨1, _⟩ =>
        show win2_5.index ⟨(i 0).val / 10000, hlt⟩ 1 * 64 ≤ (i 1).val
          ∧ (i 1).val < win2_5.index ⟨(i 0).val / 10000, hlt⟩ 1 * 64 + 64
        rw [e1]; omega

end Cert.KernelIdeal.Region2

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.Region3.lean ====
/-
  The value of the program's region 3, the first of its two row-normalised SAGE combinations, over row tiles.

  Each grid point t works on rows 2000·t … 2000·t + 1999 of the two row-indexed operands (the neighbour mean and the
  node's own features) and on the two weight matrices and the bias row whole.  Its body forms the pre-activation
  s(p, j) = Σ_q mean(p, q)·wl(q, j) + bl(j) + Σ_q own(p, q)·wr(q, j), the row's Euclidean norm
  sqrt(Σ_q s(p, q)²), and stores s(p, j) divided by the larger of that norm and a small positive literal.  Row p of
  the result depends on row p of the row-indexed operands only, so the block a point writes is the restriction of the
  whole-array function to that point's rows, and the ten blocks tile the array.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import proofs.«114558_j41059887350180_1_alg».proof.Proof.LibColBroadcast
import proofs.«114558_j41059887350180_1_alg».proof.Proof.LibMatrixLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.ValueIdx Idealize.ShloMosaic.TcCoe Idealize.SL.Sem Cert.KernelIdeal

namespace Cert.KernelIdeal.Region3

/-! ## The body's value at an index -/

/-- The pre-activation block the body forms: the two matrix products into zero accumulators, the first with the bias
    row added to every row. -/
def pre (x0 x1 : Vec Ideal S2000x64 .f32) (wl wr : Vec Ideal S64x64 .f32) (bl : Vec Ideal S1x64 .f32) : FVec Ideal S2000x64 .f32 :=
  addf
    (addf
      (matmul dot_S2000x64_S64x64_S2000x64_1_0_0_1_n_n none
        (truncf .bf16 (shapeCast S2000x64 x0 Facts₀.shapeCasts_S2000x64_S2000x64) Facts₀.bitsLt_bf16_f32)
        (truncf .bf16 wl Facts₀.bitsLt_bf16_f32) (constant S2000x64 .f32 0x00000000#32))
      (broadcastTo S2000x64 (shapeCast S1x64 bl Facts₀.shapeCasts_S1x64_S1x64) Facts₀.broadcasts_S1x64_S2000x64))
    (matmul dot_S2000x64_S64x64_S2000x64_1_0_0_1_n_n none
      (truncf .bf16 (shapeCast S2000x64 x1 Facts₀.shapeCasts_S2000x64_S2000x64) Facts₀.bitsLt_bf16_f32)
      (truncf .bf16 wr Facts₀.bitsLt_bf16_f32) (constant S2000x64 .f32 0x00000000#32))

/-- The stored block is the pre-activation divided, row by row, by the larger of the row's norm and the literal. -/
theorem pay_eq (x0 x1 : Vec Ideal S2000x64 .f32) (wl wr : Vec Ideal S64x64 .f32) (bl : Vec Ideal S1x64 .f32) :
    Gen.k3_pay1 x0 x1 wl wr bl
      = divf (pre x0 x1 wl wr bl)
          (broadcastTo S2000x64
            (maximumf
              (sqrt (shapeCast S2000x1
                (multiReduction (F := Ideal) .add [1] S2000 (mulf (pre x0 x1 wl wr bl) (pre x0 x1 wl wr bl)) 0x00000000#32
                  Facts₀.reduces_S2000x64_S2000 (.inl rfl) rfl)
                Facts₀.shapeCasts_S2000_S2000x1))
              (broadcast S2000x1 (Scalar.ofBits (F := Ideal) .f32 0x2B8CBCCC#32)))
            Facts₀.broadcasts_S2000x1_S2000x64) := rfl

/-- Entry (p, j) of the pre-activation block is the SAGE pre-activation of the loaded blocks. -/
theorem pre_apply (x0 x1 : Vec Ideal S2000x64 .f32) (wl wr : Vec Ideal S64x64 .f32) (bl : Vec Ideal S1x64 .f32)
    (p : Fin 2000) (j : Fin 64) :
    pre x0 x1 wl wr bl (ix2 p j) = Cert.Sage.sage x0 x1 wl bl wr p j := by
  unfold pre
  rw [addf_apply, addf_apply,
    Cert.PlainDot.matmul_zero_ix2 dot_S2000x64_S64x64_S2000x64_1_0_0_1_n_n rfl,
    Cert.PlainDot.matmul_zero_ix2 dot_S2000x64_S64x64_S2000x64_1_0_0_1_n_n rfl,
    Cert.LibRowBroadcast.broadcastTo_1b_ab_apply, shapeCast_self, shapeCast_self, shapeCast_self]
  rfl

/-- The lane reduction's source index over row p with lane k put back is entry (p, k). -/
theorem lift_row (h : S2000x64.Reduces [1] S2000) (p : Fin 2000) (k : Fin 64) : h.lift (ix1 p) k = ix2 p k :=
  funext fun a => Fin.ext (by match a with | ⟨0, _⟩ => rfl | ⟨1, _⟩ => rfl)

/-- The sum over the lanes of a block, at row p, is the sum over q of the block's entries (p, q). -/
theorem lane_sum (src : FVec Ideal S2000x64 .f32) (h : S2000x64.Reduces [1] S2000) (hφ : FKind.Formats .f32)
    (hacc : (0x00000000#32 : BitVec 32) = FKind.add.neutral .f32 hφ) (p : Fin 2000) :
    multiReduction (F := Ideal) .add [1] S2000 src 0x00000000#32 h hφ hacc (ix1 p) = ∑ q : Fin 64, src (ix2 p q) :=
  (Ideal.multiReduction_add_single src 0x00000000#32 h hφ hacc (ix1 p)).trans
    (Finset.sum_congr rfl fun q _ => congrArg src (lift_row h p q))

/-- Entry (p, j) of the stored block: the pre-activation there divided by the larger of the row's Euclidean norm and
    the small positive literal. -/
theorem pay_apply (x0 x1 : Vec Ideal S2000x64 .f32) (wl wr : Vec Ideal S64x64 .f32) (bl : Vec Ideal S1x64 .f32)
    (p : Fin 2000) (j : Fin 64) :
    Gen.k3_pay1 x0 x1 wl wr bl (ix2 p j)
      = Ideal.div (Cert.Sage.sage x0 x1 wl bl wr p j)
          (max (Ideal.sqrt (∑ q : Fin 64, Cert.Sage.sage x0 x1 wl bl wr p q * Cert.Sage.sage x0 x1 wl bl wr p q))
            Cert.Sage.epsF) := by
  rw [pay_eq, divf_apply, pre_apply, Cert.LibColBroadcast.broadcastTo_a1_ab_apply, maximumf_apply, broadcast_apply]
  congr 1
  congr 1
  show Ideal.sqrt (shapeCast S2000x1 _ _ (ix2 p (0 : Fin 1))) = _
  rw [Cert.LibMatrixLayout.shapeCast_a_a1_apply]
  refine congrArg Ideal.sqrt ((lane_sum _ _ _ _ p).trans ?_)
  refine Finset.sum_congr rfl fun q _ => ?_
  rw [mulf_apply, pre_apply]

/-! ## Rows of the whole arrays -/

/-- A SAGE pre-activation at row p of one set of operands is that at row r of another when the row-indexed operands
    agree on those two rows and the weights and the bias row agree everywhere. -/
theorem sage_rows {n n' h : ℕ} (mean xdst : Cert.Sage.Mat n h) (mean' xdst' : Cert.Sage.Mat n' h)
    (wl wl' wr wr' : Cert.Sage.Mat h h) (bl bl' : Cert.Sage.Mat 1 h) (p : Fin n) (r : Fin n') (j : Fin h)
    (h0 : ∀ q, mean (ix2 p q) = mean' (ix2 r q)) (h1 : ∀ q, xdst (ix2 p q) = xdst' (ix2 r q))
    (hwl : ∀ a b, wl (ix2 a b) = wl' (ix2 a b)) (hwr : ∀ a b, wr (ix2 a b) = wr' (ix2 a b))
    (hbl : ∀ b, bl (ix2 (0 : Fin 1) b) = bl' (ix2 (0 : Fin 1) b)) :
    Cert.Sage.sage mean xdst wl bl wr p j = Cert.Sage.sage mean' xdst' wl' bl' wr' r j := by
  unfold Cert.Sage.sage Cert.Sage.lin
  rw [hbl j]
  congr 1
  · congr 1
    exact Finset.sum_congr rfl fun q _ => by rw [h0 q, hwl q j]
  · exact Finset.sum_congr rfl fun q _ => by rw [h1 q, hwr q j]

/-- Entry (p, j) of the stored block is entry (r, j) of the whole-array function, when the loaded blocks are rows of
    the arrays: row p of each row-indexed block is row r of its array, the other blocks are their arrays. -/
theorem pay_rows (x0 x1 : Vec Ideal S2000x64 .f32) (wl wr : Vec Ideal S64x64 .f32) (bl : Vec Ideal S1x64 .f32)
    (mean xdst : Cert.Sage.Mat 20000 64) (Wl Wr : Cert.Sage.Mat 64 64) (Bl : Cert.Sage.Mat 1 64)
    (p : Fin 2000) (r : Fin 20000) (j : Fin 64)
    (h0 : ∀ q : Fin 64, x0 (ix2 p q) = mean (ix2 r q)) (h1 : ∀ q : Fin 64, x1 (ix2 p q) = xdst (ix2 r q))
    (hwl : ∀ a b : Fin 64, wl (ix2 a b) = Wl (ix2 a b)) (hwr : ∀ a b : Fin 64, wr (ix2 a b) = Wr (ix2 a b))
    (hbl : ∀ b : Fin 64, bl (ix2 (0 : Fin 1) b) = Bl (ix2 (0 : Fin 1) b)) :
    Gen.k3_pay1 x0 x1 wl wr bl (ix2 p j) = Cert.Sage.combineNorm mean xdst Wl Bl Wr (ix2 r j) := by
  have e : ∀ q : Fin 64, Cert.Sage.sage x0 x1 wl bl wr p q = Cert.Sage.sage mean xdst Wl Bl Wr r q :=
    fun q => sage_rows x0 x1 mean xdst wl Wl wr Wr bl Bl p r q h0 h1 hwl hwr hbl
  rw [pay_apply]
  simp only [e]
  rfl

/-! ## From blocks to the array -/

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the row-tiled windows (the two row-indexed operands and the result) sit at
    block row t, block column 0; the weight matrices and the bias row at block (0, 0). -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of the neighbour-mean block at point t is entry (2000·t + p, q) of its array. -/
theorem mean_block (t : Fin cfg3.N) (p : Fin 2000) (q : Fin 64) (r : Fin 20000) (hr : r.val = t.val * 2000 + p.val) :
    (Gen.iblk3 V c 0 t : Vec Ideal S2000x64 .f32) (ix2 p q) = (V c main_v59 : S20000x64.Idx → EReal) (ix2 r q) := by
  obtain ⟨e0, e1, -⟩ := index_maps t
  unfold Gen.iblk3
  show V c main_v59 (((cfg3.win 0).blk t).view.emb (ix2 p q)) = _
  congr 1
  funext a; apply Fin.ext
  match a with
  | ⟨0, _⟩ => show win3_0.index t (0 : Fin 2) * 2000 + 1 * p.val = r.val; rw [e0, hr]; omega
  | ⟨1, _⟩ => show win3_0.index t (1 : Fin 2) * 64 + 1 * q.val = q.val; rw [e1]; omega

/-- Entry (p, q) of the own-features block at point t is entry (2000·t + p, q) of its array. -/
theorem own_block (t : Fin cfg3.N) (p : Fin 2000) (q : Fin 64) (r : Fin 20000) (hr : r.val = t.val * 2000 + p.val) :
    (Gen.iblk3 V c 1 t : Vec Ideal S2000x64 .f32) (ix2 p q) = (V c main_v39 : S20000x64.Idx → EReal) (ix2 r q) := by
  obtain ⟨-, -, e0, e1, -⟩ := index_maps t
  unfold Gen.iblk3
  show V c main_v39 (((cfg3.win 1).blk t).view.emb (ix2 p q)) = _
  congr 1
  funext a; apply Fin.ext
  match a with
  | ⟨0, _⟩ => show win3_1.index t (0 : Fin 2) * 2000 + 1 * p.val = r.val; rw [e0, hr]; omega
  | ⟨1, _⟩ => show win3_1.index t (1 : Fin 2) * 64 + 1 * q.val = q.val; rw [e1]; omega

/-- The first weight matrix's block at any point is the matrix. -/
theorem wl_block (t : Fin cfg3.N) (a b : Fin 64) :
    (Gen.iblk3 V c 2 t : Vec Ideal S64x64 .f32) (ix2 a b) = (V c main_arg10 : S64x64.Idx → EReal) (ix2 a b) := by
  obtain ⟨-, -, -, -, e0, e1, -⟩ := index_maps t
  unfold Gen.iblk3
  show V c main_arg10 (((cfg3.win 2).blk t).view.emb (ix2 a b)) = _
  congr 1
  funext d; apply Fin.ext
  match d with
  | ⟨0, _⟩ => show win3_2.index t (0 : Fin 2) * 64 + 1 * a.val = a.val; rw [e0]; omega
  | ⟨1, _⟩ => show win3_2.index t (1 : Fin 2) * 64 + 1 * b.val = b.val; rw [e1]; omega

/-- The bias row's block at any point is the row. -/
theorem bl_block (t : Fin cfg3.N) (b : Fin 64) :
    (Gen.iblk3 V c 3 t : Vec Ideal S1x64 .f32) (ix2 (0 : Fin 1) b) = (V c main_v78 : S1x64.Idx → EReal) (ix2 (0 : Fin 1) b) := by
  obtain ⟨-, -, -, -, -, -, e0, e1, -⟩ := index_maps t
  unfold Gen.iblk3
  show V c main_v78 (((cfg3.win 3).blk t).view.emb (ix2 (0 : Fin 1) b)) = _
  congr 1
  funext d; apply Fin.ext
  match d with
  | ⟨0, _⟩ => show win3_3.index t (0 : Fin 2) * 1 + 1 * 0 = 0; rw [e0]
  | ⟨1, _⟩ => show win3_3.index t (1 : Fin 2) * 64 + 1 * b.val = b.val; rw [e1]; omega

/-- The second weight matrix's block at any point is the matrix. -/
theorem wr_block (t : Fin cfg3.N) (a b : Fin 64) :
    (Gen.iblk3 V c 4 t : Vec Ideal S64x64 .f32) (ix2 a b) = (V c main_arg12 : S64x64.Idx → EReal) (ix2 a b) := by
  obtain ⟨-, -, -, -, -, -, -, -, e0, e1, -⟩ := index_maps t
  unfold Gen.iblk3
  show V c main_arg12 (((cfg3.win 4).blk t).view.emb (ix2 a b)) = _
  congr 1
  funext d; apply Fin.ext
  match d with
  | ⟨0, _⟩ => show win3_4.index t (0 : Fin 2) * 64 + 1 * a.val = a.val; rw [e0]; omega
  | ⟨1, _⟩ => show win3_4.index t (1 : Fin 2) * 64 + 1 * b.val = b.val; rw [e1]; omega

/-- What point t writes back is rows 2000·t … 2000·t + 1999 of the whole-array function of the arrays as the region
    finds them. -/
theorem flushed_eq (t : Fin cfg3.N) :
    (Gen.dat3 (F := Ideal) V c).flushed 5 t = ((cfg3.win 5).blk t).view.read (Elt Ideal)
      (Cert.Sage.combineNorm (V c main_v59) (V c main_v39) (V c main_arg10) (V c main_v78) (V c main_arg12)) := by
  show (cfg3.win 5).cut (grid3.coords t) ((Gen.dat3 V c).after 5 t) = _
  rw [Gen.after3_5]
  unfold Gen.out3_5
  rw [View.canon_unit_zero zero_offsets]
  simp only [View.ld_unit_zero (S := S2000x64) zero_offsets, View.ld_unit_zero (S := S64x64) zero_offsets,
    View.ld_unit_zero (S := S1x64) zero_offsets]
  funext y
  obtain ⟨p, j, rfl⟩ : ∃ (p : Fin 2000) (j : Fin 64), y = ix2 p j := ⟨y 0, y 1, eq_ix2 y⟩
  obtain ⟨-, -, -, -, -, -, -, -, -, -, e0, e1⟩ := index_maps t
  have hN : cfg3.N = 10 := Gen.N_3
  have ht : t.val < cfg3.N := t.isLt
  obtain ⟨r, hr⟩ : ∃ r : Fin 20000, r.val = t.val * 2000 + p.val := ⟨⟨t.val * 2000 + p.val, by omega⟩, rfl⟩
  have hemb : ((cfg3.win 5).blk t).view.emb (ix2 p j) = ix2 r j := by
    funext a; apply Fin.ext
    match a with
    | ⟨0, _⟩ => show win3_5.index t (0 : Fin 2) * 2000 + 1 * p.val = r.val; rw [e0, hr]; omega
    | ⟨1, _⟩ => show win3_5.index t (1 : Fin 2) * 64 + 1 * j.val = j.val; rw [e1]; omega
  show Gen.k3_pay1 (F := Ideal) _ _ _ _ _ (ix2 p j) = Cert.Sage.combineNorm _ _ _ _ _ (((cfg3.win 5).blk t).view.emb (ix2 p j))
  rw [hemb]
  exact pay_rows (Gen.iblk3 V c 0 t) (Gen.iblk3 V c 1 t) (Gen.iblk3 V c 2 t) (Gen.iblk3 V c 4 t) (Gen.iblk3 V c 3 t)
    (V c main_v59) (V c main_v39) (V c main_arg10) (V c main_arg12) (V c main_v78) p r j
    (fun q => mean_block V c t p q r hr) (fun q => own_block V c t p q r hr)
    (fun a b => wl_block V c t a b) (fun a b => wr_block V c t a b) (fun b => bl_block V c t b)

/-- An index of the result array is in point t's block iff each coordinate is in the block's range on its axis. -/
theorem mem_block (t : Fin cfg3.N) (i : S20000x64.Idx) :
    i ∈ ((cfg3.win 5).blk t).view.set ↔ ∀ a : Fin 2, win3_5.index t a * S2000x64.size a ≤ (i a).val
      ∧ (i a).val < win3_5.index t a * S2000x64.size a + S2000x64.size a := by
  show i ∈ ((View.whole main_v79).slice (win3_5.rect t)).set ↔ _
  rw [View.set_slice_whole, Rect.mem_set_unit]
  exact Iff.rfl

/-- Every index of the result array is in some point's block: row r is in the block of point r / 2000. -/
theorem cover (i : S20000x64.Idx) :
    ∃ t : Fin cfg3.N, (cfg3.win 5).flush t = true ∧ i ∈ ((cfg3.win 5).blk t).view.set := by
  have hi0 : (i 0).val < 20000 := (i 0).isLt
  have hi1 : (i 1).val < 64 := (i 1).isLt
  have hN : cfg3.N = 10 := Gen.N_3
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := index_maps t
  refine ⟨t, Gen.flush3_5 t, ?_⟩
  rw [mem_block]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 64 ≤ (i 1).val ∧ (i 1).val < win3_5.index t (1 : Fin 2) * 64 + 64
    rw [e1]; omega

/-- The result array after the region: the row-normalised combination of the arrays as the region finds them. -/
theorem final : (Gen.dat3 (F := Ideal) V c).arrAt 5 cfg3.N
    = Cert.Sage.combineNorm (V c main_v59) (V c main_v39) (V c main_arg10) (V c main_v78) (V c main_arg12) :=
  (Gen.dat3 (F := Ideal) V c).arrAt_eq_of_cover 5 _ (fun t _ => flushed_eq V c t) cover

end Cert.KernelIdeal.Region3

end
-- ==== Proof.Region4.lean ====
/-
  The value of the program's region 4, the second of its two row-normalised SAGE combinations, over row tiles.

  Each grid point t works on rows 10000·t … 10000·t + 9999 of the two row-indexed operands (the neighbour mean and the
  node's own features) and on the two weight matrices and the bias row whole.  Its body forms the pre-activation
  s(p, j) = Σ_q mean(p, q)·wl(q, j) + bl(j) + Σ_q own(p, q)·wr(q, j), the row's Euclidean norm
  sqrt(Σ_q s(p, q)²), and stores s(p, j) divided by the larger of that norm and a small positive literal.  Row p of
  the result depends on row p of the row-indexed operands only, so the block a point writes is the restriction of the
  whole-array function to that point's rows, and the ten blocks tile the array.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import proofs.«114558_j41059887350180_1_alg».proof.Proof.LibColBroadcast
import proofs.«114558_j41059887350180_1_alg».proof.Proof.LibMatrixLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.ValueIdx Idealize.ShloMosaic.TcCoe Idealize.SL.Sem Cert.KernelIdeal

namespace Cert.KernelIdeal.Region4

/-! ## The body's value at an index -/

/-- The pre-activation block the body forms: the two matrix products into zero accumulators, the first with the bias
    row added to every row. -/
def pre (x0 x1 : Vec Ideal S10000x64 .f32) (wl wr : Vec Ideal S64x64 .f32) (bl : Vec Ideal S1x64 .f32) : FVec Ideal S10000x64 .f32 :=
  addf
    (addf
      (matmul dot_S10000x64_S64x64_S10000x64_1_0_0_1_n_n none
        (truncf .bf16 (shapeCast S10000x64 x0 Facts₀.shapeCasts_S10000x64_S10000x64) Facts₀.bitsLt_bf16_f32)
        (truncf .bf16 wl Facts₀.bitsLt_bf16_f32) (constant S10000x64 .f32 0x00000000#32))
      (broadcastTo S10000x64 (shapeCast S1x64 bl Facts₀.shapeCasts_S1x64_S1x64) Facts₀.broadcasts_S1x64_S10000x64))
    (matmul dot_S10000x64_S64x64_S10000x64_1_0_0_1_n_n none
      (truncf .bf16 (shapeCast S10000x64 x1 Facts₀.shapeCasts_S10000x64_S10000x64) Facts₀.bitsLt_bf16_f32)
      (truncf .bf16 wr Facts₀.bitsLt_bf16_f32) (constant S10000x64 .f32 0x00000000#32))

/-- The stored block is the pre-activation divided, row by row, by the larger of the row's norm and the literal. -/
theorem pay_eq (x0 x1 : Vec Ideal S10000x64 .f32) (wl wr : Vec Ideal S64x64 .f32) (bl : Vec Ideal S1x64 .f32) :
    Gen.k4_pay1 x0 x1 wl wr bl
      = divf (pre x0 x1 wl wr bl)
          (broadcastTo S10000x64
            (maximumf
              (sqrt (shapeCast S10000x1
                (multiReduction (F := Ideal) .add [1] S10000 (mulf (pre x0 x1 wl wr bl) (pre x0 x1 wl wr bl)) 0x00000000#32
                  Facts₀.reduces_S10000x64_S10000 (.inl rfl) rfl)
                Facts₀.shapeCasts_S10000_S10000x1))
              (broadcast S10000x1 (Scalar.ofBits (F := Ideal) .f32 0x2B8CBCCC#32)))
            Facts₀.broadcasts_S10000x1_S10000x64) := rfl

/-- Entry (p, j) of the pre-activation block is the SAGE pre-activation of the loaded blocks. -/
theorem pre_apply (x0 x1 : Vec Ideal S10000x64 .f32) (wl wr : Vec Ideal S64x64 .f32) (bl : Vec Ideal S1x64 .f32)
    (p : Fin 10000) (j : Fin 64) :
    pre x0 x1 wl wr bl (ix2 p j) = Cert.Sage.sage x0 x1 wl bl wr p j := by
  unfold pre
  rw [addf_apply, addf_apply,
    Cert.PlainDot.matmul_zero_ix2 dot_S10000x64_S64x64_S10000x64_1_0_0_1_n_n rfl,
    Cert.PlainDot.matmul_zero_ix2 dot_S10000x64_S64x64_S10000x64_1_0_0_1_n_n rfl,
    Cert.LibRowBroadcast.broadcastTo_1b_ab_apply, shapeCast_self, shapeCast_self, shapeCast_self]
  rfl

/-- The lane reduction's source index over row p with lane k put back is entry (p, k). -/
theorem lift_row (h : S10000x64.Reduces [1] S10000) (p : Fin 10000) (k : Fin 64) : h.lift (ix1 p) k = ix2 p k :=
  funext fun a => Fin.ext (by match a with | ⟨0, _⟩ => rfl | ⟨1, _⟩ => rfl)

/-- The sum over the lanes of a block, at row p, is the sum over q of the block's entries (p, q). -/
theorem lane_sum (src : FVec Ideal S10000x64 .f32) (h : S10000x64.Reduces [1] S10000) (hφ : FKind.Formats .f32)
    (hacc : (0x00000000#32 : BitVec 32) = FKind.add.neutral .f32 hφ) (p : Fin 10000) :
    multiReduction (F := Ideal) .add [1] S10000 src 0x00000000#32 h hφ hacc (ix1 p) = ∑ q : Fin 64, src (ix2 p q) :=
  (Ideal.multiReduction_add_single src 0x00000000#32 h hφ hacc (ix1 p)).trans
    (Finset.sum_congr rfl fun q _ => congrArg src (lift_row h p q))

/-- Entry (p, j) of the stored block: the pre-activation there divided by the larger of the row's Euclidean norm and
    the small positive literal. -/
theorem pay_apply (x0 x1 : Vec Ideal S10000x64 .f32) (wl wr : Vec Ideal S64x64 .f32) (bl : Vec Ideal S1x64 .f32)
    (p : Fin 10000) (j : Fin 64) :
    Gen.k4_pay1 x0 x1 wl wr bl (ix2 p j)
      = Ideal.div (Cert.Sage.sage x0 x1 wl bl wr p j)
          (max (Ideal.sqrt (∑ q : Fin 64, Cert.Sage.sage x0 x1 wl bl wr p q * Cert.Sage.sage x0 x1 wl bl wr p q))
            Cert.Sage.epsF) := by
  rw [pay_eq, divf_apply, pre_apply, Cert.LibColBroadcast.broadcastTo_a1_ab_apply, maximumf_apply, broadcast_apply]
  congr 1
  congr 1
  show Ideal.sqrt (shapeCast S10000x1 _ _ (ix2 p (0 : Fin 1))) = _
  rw [Cert.LibMatrixLayout.shapeCast_a_a1_apply]
  refine congrArg Ideal.sqrt ((lane_sum _ _ _ _ p).trans ?_)
  refine Finset.sum_congr rfl fun q _ => ?_
  rw [mulf_apply, pre_apply]

/-! ## Rows of the whole arrays -/

/-- A SAGE pre-activation at row p of one set of operands is that at row r of another when the row-indexed operands
    agree on those two rows and the weights and the bias row agree everywhere. -/
theorem sage_rows {n n' h : ℕ} (mean xdst : Cert.Sage.Mat n h) (mean' xdst' : Cert.Sage.Mat n' h)
    (wl wl' wr wr' : Cert.Sage.Mat h h) (bl bl' : Cert.Sage.Mat 1 h) (p : Fin n) (r : Fin n') (j : Fin h)
    (h0 : ∀ q, mean (ix2 p q) = mean' (ix2 r q)) (h1 : ∀ q, xdst (ix2 p q) = xdst' (ix2 r q))
    (hwl : ∀ a b, wl (ix2 a b) = wl' (ix2 a b)) (hwr : ∀ a b, wr (ix2 a b) = wr' (ix2 a b))
    (hbl : ∀ b, bl (ix2 (0 : Fin 1) b) = bl' (ix2 (0 : Fin 1) b)) :
    Cert.Sage.sage mean xdst wl bl wr p j = Cert.Sage.sage mean' xdst' wl' bl' wr' r j := by
  unfold Cert.Sage.sage Cert.Sage.lin
  rw [hbl j]
  congr 1
  · congr 1
    exact Finset.sum_congr rfl fun q _ => by rw [h0 q, hwl q j]
  · exact Finset.sum_congr rfl fun q _ => by rw [h1 q, hwr q j]

/-- Entry (p, j) of the stored block is entry (r, j) of the whole-array function, when the loaded blocks are rows of
    the arrays: row p of each row-indexed block is row r of its array, the other blocks are their arrays. -/
theorem pay_rows (x0 x1 : Vec Ideal S10000x64 .f32) (wl wr : Vec Ideal S64x64 .f32) (bl : Vec Ideal S1x64 .f32)
    (mean xdst : Cert.Sage.Mat 100000 64) (Wl Wr : Cert.Sage.Mat 64 64) (Bl : Cert.Sage.Mat 1 64)
    (p : Fin 10000) (r : Fin 100000) (j : Fin 64)
    (h0 : ∀ q : Fin 64, x0 (ix2 p q) = mean (ix2 r q)) (h1 : ∀ q : Fin 64, x1 (ix2 p q) = xdst (ix2 r q))
    (hwl : ∀ a b : Fin 64, wl (ix2 a b) = Wl (ix2 a b)) (hwr : ∀ a b : Fin 64, wr (ix2 a b) = Wr (ix2 a b))
    (hbl : ∀ b : Fin 64, bl (ix2 (0 : Fin 1) b) = Bl (ix2 (0 : Fin 1) b)) :
    Gen.k4_pay1 x0 x1 wl wr bl (ix2 p j) = Cert.Sage.combineNorm mean xdst Wl Bl Wr (ix2 r j) := by
  have e : ∀ q : Fin 64, Cert.Sage.sage x0 x1 wl bl wr p q = Cert.Sage.sage mean xdst Wl Bl Wr r q :=
    fun q => sage_rows x0 x1 mean xdst wl Wl wr Wr bl Bl p r q h0 h1 hwl hwr hbl
  rw [pay_apply]
  simp only [e]
  rfl

/-! ## From blocks to the array -/

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the row-tiled windows (the two row-indexed operands and the result) sit at
    block row t, block column 0; the weight matrices and the bias row at block (0, 0). -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Entry (p, q) of the neighbour-mean block at point t is entry (10000·t + p, q) of its array. -/
theorem mean_block (t : Fin cfg4.N) (p : Fin 10000) (q : Fin 64) (r : Fin 100000) (hr : r.val = t.val * 10000 + p.val) :
    (Gen.iblk4 V c 0 t : Vec Ideal S10000x64 .f32) (ix2 p q) = (V c main_v77 : S100000x64.Idx → EReal) (ix2 r q) := by
  obtain ⟨e0, e1, -⟩ := index_maps t
  unfold Gen.iblk4
  show V c main_v77 (((cfg4.win 0).blk t).view.emb (ix2 p q)) = _
  congr 1
  funext a; apply Fin.ext
  match a with
  | ⟨0, _⟩ => show win4_0.index t (0 : Fin 2) * 10000 + 1 * p.val = r.val; rw [e0, hr]; omega
  | ⟨1, _⟩ => show win4_0.index t (1 : Fin 2) * 64 + 1 * q.val = q.val; rw [e1]; omega

/-- Entry (p, q) of the own-features block at point t is entry (10000·t + p, q) of its array. -/
theorem own_block (t : Fin cfg4.N) (p : Fin 10000) (q : Fin 64) (r : Fin 100000) (hr : r.val = t.val * 10000 + p.val) :
    (Gen.iblk4 V c 1 t : Vec Ideal S10000x64 .f32) (ix2 p q) = (V c main_v41 : S100000x64.Idx → EReal) (ix2 r q) := by
  obtain ⟨-, -, e0, e1, -⟩ := index_maps t
  unfold Gen.iblk4
  show V c main_v41 (((cfg4.win 1).blk t).view.emb (ix2 p q)) = _
  congr 1
  funext a; apply Fin.ext
  match a with
  | ⟨0, _⟩ => show win4_1.index t (0 : Fin 2) * 10000 + 1 * p.val = r.val; rw [e0, hr]; omega
  | ⟨1, _⟩ => show win4_1.index t (1 : Fin 2) * 64 + 1 * q.val = q.val; rw [e1]; omega

/-- The first weight matrix's block at any point is the matrix. -/
theorem wl_block (t : Fin cfg4.N) (a b : Fin 64) :
    (Gen.iblk4 V c 2 t : Vec Ideal S64x64 .f32) (ix2 a b) = (V c main_arg13 : S64x64.Idx → EReal) (ix2 a b) := by
  obtain ⟨-, -, -, -, e0, e1, -⟩ := index_maps t
  unfold Gen.iblk4
  show V c main_arg13 (((cfg4.win 2).blk t).view.emb (ix2 a b)) = _
  congr 1
  funext d; apply Fin.ext
  match d with
  | ⟨0, _⟩ => show win4_2.index t (0 : Fin 2) * 64 + 1 * a.val = a.val; rw [e0]; omega
  | ⟨1, _⟩ => show win4_2.index t (1 : Fin 2) * 64 + 1 * b.val = b.val; rw [e1]; omega

/-- The bias row's block at any point is the row. -/
theorem bl_block (t : Fin cfg4.N) (b : Fin 64) :
    (Gen.iblk4 V c 3 t : Vec Ideal S1x64 .f32) (ix2 (0 : Fin 1) b) = (V c main_v80 : S1x64.Idx → EReal) (ix2 (0 : Fin 1) b) := by
  obtain ⟨-, -, -, -, -, -, e0, e1, -⟩ := index_maps t
  unfold Gen.iblk4
  show V c main_v80 (((cfg4.win 3).blk t).view.emb (ix2 (0 : Fin 1) b)) = _
  congr 1
  funext d; apply Fin.ext
  match d with
  | ⟨0, _⟩ => show win4_3.index t (0 : Fin 2) * 1 + 1 * 0 = 0; rw [e0]
  | ⟨1, _⟩ => show win4_3.index t (1 : Fin 2) * 64 + 1 * b.val = b.val; rw [e1]; omega

/-- The second weight matrix's block at any point is the matrix. -/
theorem wr_block (t : Fin cfg4.N) (a b : Fin 64) :
    (Gen.iblk4 V c 4 t : Vec Ideal S64x64 .f32) (ix2 a b) = (V c main_arg15 : S64x64.Idx → EReal) (ix2 a b) := by
  obtain ⟨-, -, -, -, -, -, -, -, e0, e1, -⟩ := index_maps t
  unfold Gen.iblk4
  show V c main_arg15 (((cfg4.win 4).blk t).view.emb (ix2 a b)) = _
  congr 1
  funext d; apply Fin.ext
  match d with
  | ⟨0, _⟩ => show win4_4.index t (0 : Fin 2) * 64 + 1 * a.val = a.val; rw [e0]; omega
  | ⟨1, _⟩ => show win4_4.index t (1 : Fin 2) * 64 + 1 * b.val = b.val; rw [e1]; omega

/-- What point t writes back is rows 10000·t … 10000·t + 9999 of the whole-array function of the arrays as the region
    finds them. -/
theorem flushed_eq (t : Fin cfg4.N) :
    (Gen.dat4 (F := Ideal) V c).flushed 5 t = ((cfg4.win 5).blk t).view.read (Elt Ideal)
      (Cert.Sage.combineNorm (V c main_v77) (V c main_v41) (V c main_arg13) (V c main_v80) (V c main_arg15)) := by
  show (cfg4.win 5).cut (grid4.coords t) ((Gen.dat4 V c).after 5 t) = _
  rw [Gen.after4_5]
  unfold Gen.out4_5
  rw [View.canon_unit_zero zero_offsets]
  simp only [View.ld_unit_zero (S := S10000x64) zero_offsets, View.ld_unit_zero (S := S64x64) zero_offsets,
    View.ld_unit_zero (S := S1x64) zero_offsets]
  funext y
  obtain ⟨p, j, rfl⟩ : ∃ (p : Fin 10000) (j : Fin 64), y = ix2 p j := ⟨y 0, y 1, eq_ix2 y⟩
  obtain ⟨-, -, -, -, -, -, -, -, -, -, e0, e1⟩ := index_maps t
  have hN : cfg4.N = 10 := Gen.N_4
  have ht : t.val < cfg4.N := t.isLt
  obtain ⟨r, hr⟩ : ∃ r : Fin 100000, r.val = t.val * 10000 + p.val := ⟨⟨t.val * 10000 + p.val, by omega⟩, rfl⟩
  have hemb : ((cfg4.win 5).blk t).view.emb (ix2 p j) = ix2 r j := by
    funext a; apply Fin.ext
    match a with
    | ⟨0, _⟩ => show win4_5.index t (0 : Fin 2) * 10000 + 1 * p.val = r.val; rw [e0, hr]; omega
    | ⟨1, _⟩ => show win4_5.index t (1 : Fin 2) * 64 + 1 * j.val = j.val; rw [e1]; omega
  show Gen.k4_pay1 (F := Ideal) _ _ _ _ _ (ix2 p j) = Cert.Sage.combineNorm _ _ _ _ _ (((cfg4.win 5).blk t).view.emb (ix2 p j))
  rw [hemb]
  exact pay_rows (Gen.iblk4 V c 0 t) (Gen.iblk4 V c 1 t) (Gen.iblk4 V c 2 t) (Gen.iblk4 V c 4 t) (Gen.iblk4 V c 3 t)
    (V c main_v77) (V c main_v41) (V c main_arg13) (V c main_arg15) (V c main_v80) p r j
    (fun q => mean_block V c t p q r hr) (fun q => own_block V c t p q r hr)
    (fun a b => wl_block V c t a b) (fun a b => wr_block V c t a b) (fun b => bl_block V c t b)

/-- An index of the result array is in point t's block iff each coordinate is in the block's range on its axis. -/
theorem mem_block (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v81).slice (win4_5.rect t)).set ↔ _
  rw [View.set_slice_whole, Rect.mem_set_unit]
  exact Iff.rfl

/-- Every index of the result array is in some point's block: row r is in the block of point r / 10000. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := Gen.N_4
  obtain ⟨t, ht⟩ : ∃ t : Fin cfg4.N, t.val = (i 0).val / 10000 := ⟨⟨(i 0).val / 10000, by rw [hN]; omega⟩, rfl⟩
  obtain ⟨-, -, -, -, -, -, -, -, -, -, e0, e1⟩ := index_maps t
  refine ⟨t, Gen.flush4_5 t, ?_⟩
  rw [mem_block]
  intro a
  match a with
  | ⟨0, _⟩ =>
    show win4_5.index t (0 : Fin 2) * 10000 ≤ (i 0).val ∧ (i 0).val < win4_5.index t (0 : Fin 2) * 10000 + 10000
    rw [e0, ht]; omega
  | ⟨1, _⟩ =>
    show win4_5.index t (1 : Fin 2) * 64 ≤ (i 1).val ∧ (i 1).val < win4_5.index t (1 : Fin 2) * 64 + 64
    rw [e1]; omega

/-- The result array after the region: the row-normalised combination of the arrays as the region finds them. -/
theorem final : (Gen.dat4 (F := Ideal) V c).arrAt 5 cfg4.N
    = Cert.Sage.combineNorm (V c main_v77) (V c main_v41) (V c main_arg13) (V c main_v80) (V c main_arg15) :=
  (Gen.dat4 (F := Ideal) V c).arrAt_eq_of_cover 5 _ (fun t _ => flushed_eq V c t) cover

end Cert.KernelIdeal.Region4

end
-- ==== Proof.Region5.lean ====
/-
  The value of the program's region 5: the decoder over row tiles.

  Each grid point t works on rows 10000·t … 10000·t + 9999 of the row-indexed operand and on the two weight matrices and
  the two bias rows whole.  Its body forms the hidden block max(Σ_k x(p, k)·w1(k, q) + b1(q), 0) and stores
  Σ_q hidden(p, q)·w2(q, j) + b2(j).  Row p of the result depends on row p of the row-indexed operand only, so the
  block a point writes is the restriction of the whole-array function to that point's rows, and the fifty blocks tile
  the array.
-/
import proofs.«114558_j41059887350180_1_alg».proof.Proof.Gen.KernelIdeal.Frame
import proofs.«114558_j41059887350180_1_alg».proof.Proof.Spec
import proofs.«114558_j41059887350180_1_alg».proof.Proof.LibPlainDot
import proofs.«114558_j41059887350180_1_alg».proof.Proof.LibRowBroadcast
import proofs.«114558_j41059887350180_1_alg».proof.Proof.LibColBroadcast
import proofs.«114558_j41059887350180_1_alg».proof.Proof.LibMatrixLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.ValueIdx Idealize.ShloMosaic.TcCoe Idealize.SL.Sem Cert.KernelIdeal

namespace Cert.KernelIdeal.Region5

/-! ## The body's value at an index -/

/-- The hidden block the body forms: the first matrix product into a zero accumulator, the first bias row added to
    every row, and the maximum with zero. -/
def hid (x : Vec Ideal S10000x128 .f32) (w1 : Vec Ideal S128x64 .f32) (b1 : Vec Ideal S1x64 .f32) : FVec Ideal S10000x64 .f32 :=
  maximumf
    (addf
      (matmul dot_S10000x128_S128x64_S10000x64_1_0_0_1_n_n none
        (truncf .bf16 (shapeCast S10000x128 x Facts₀.shapeCasts_S10000x128_S10000x128) Facts₀.bitsLt_bf16_f32)
        (truncf .bf16 w1 Facts₀.bitsLt_bf16_f32) (constant S10000x64 .f32 0x00000000#32))
      (broadcastTo S10000x64 (shapeCast S1x64 b1 Facts₀.shapeCasts_S1x64_S1x64) Facts₀.broadcasts_S1x64_S10000x64))
    (broadcast S10000x64 (Scalar.ofBits (F := Ideal) .f32 0x00000000#32))

/-- The stored block is the second matrix product of the hidden block into a zero accumulator, with the second bias
    row added to every row. -/
theorem pay_eq (x : Vec Ideal S10000x128 .f32) (w1 : Vec Ideal S128x64 .f32) (b1 : Vec Ideal S1x64 .f32)
    (w2 : Vec Ideal S64x128 .f32) (b2 : Vec Ideal S1x128 .f32) :
    Gen.k5_pay1 x w1 b1 w2 b2
      = addf
          (matmul dot_S10000x64_S64x128_S10000x128_1_0_0_1_n_n none
            (truncf .bf16 (hid x w1 b1) Facts₀.bitsLt_bf16_f32)
            (truncf .bf16 (shapeCast S64x128 w2 Facts₀.shapeCasts_S64x128_S64x128) Facts₀.bitsLt_bf16_f32)
            (constant S10000x128 .f32 0x00000000#32))
          (broadcastTo S10000x128 (shapeCast S1x128 b2 Facts₀.shapeCasts_S1x128_S1x128) Facts₀.broadcasts_S1x128_S10000x128) := rfl

/-- Entry (p, q) of the hidden block is the first dense layer there, cut below at zero. -/
theorem hid_apply (x : Vec Ideal S10000x128 .f32) (w1 : Vec Ideal S128x64 .f32) (b1 : Vec Ideal S1x64 .f32)
    (p : Fin 10000) (q : Fin 64) :
    hid x w1 b1 (ix2 p q) = Cert.Sage.proj x w1 b1 (ix2 p q) := by
  unfold hid
  rw [maximumf_apply, addf_apply, broadcast_apply,
    Cert.PlainDot.matmul_zero_ix2 dot_S10000x128_S128x64_S10000x64_1_0_0_1_n_n rfl,
    Cert.LibRowBroadcast.broadcastTo_1b_ab_apply, shapeCast_self, shapeCast_self]
  rfl

/-- Entry (p, j) of the stored block is the decoder of the loaded blocks there. -/
theorem pay_apply (x : Vec Ideal S10000x128 .f32) (w1 : Vec Ideal S128x64 .f32) (b1 : Vec Ideal S1x64 .f32)
    (w2 : Vec Ideal S64x128 .f32) (b2 : Vec Ideal S1x128 .f32) (p : Fin 10000) (j : Fin 128) :
    Gen.k5_pay1 x w1 b1 w2 b2 (ix2 p j) = Cert.Sage.decoder x w1 b1 w2 b2 (ix2 p j) := by
  rw [pay_eq, addf_apply, Cert.PlainDot.matmul_zero_ix2 dot_S10000x64_S64x128_S10000x128_1_0_0_1_n_n rfl,
    Cert.LibRowBroadcast.broadcastTo_1b_ab_apply, shapeCast_self, shapeCast_self]
  show _ = (∑ q : Fin 64, Cert.Sage.proj x w1 b1 (ix2 p q) * w2 (ix2 q j)) + b2 (ix2 (0 : Fin 1) j)
  congr 1
  refine Finset.sum_congr rfl fun q _ => ?_
  show hid x w1 b1 (ix2 p q) * w2 (ix2 q j) = _
  rw [hid_apply]

/-! ## Rows of the whole arrays -/

/-- The decoder at row p of one set of operands is that at row r of another when the row-indexed operands agree on
    those two rows and the weights and the bias rows agree everywhere. -/
theorem decoder_rows {n n' k h o : ℕ} (x : Cert.Sage.Mat n k) (x' : Cert.Sage.Mat n' k) (w1 w1' : Cert.Sage.Mat k h)
    (b1 b1' : Cert.Sage.Mat 1 h) (w2 w2' : Cert.Sage.Mat h o) (b2 b2' : Cert.Sage.Mat 1 o) (p : Fin n) (r : Fin n') (j : Fin o)
    (hx : ∀ q, x (ix2 p q) = x' (ix2 r q)) (hw1 : ∀ a b, w1 (ix2 a b) = w1' (ix2 a b))
    (hb1 : ∀ b, b1 (ix2 (0 : Fin 1) b) = b1' (ix2 (0 : Fin 1) b)) (hw2 : ∀ a b, w2 (ix2 a b) = w2' (ix2 a b))
    (hb2 : ∀ b, b2 (ix2 (0 : Fin 1) b) = b2' (ix2 (0 : Fin 1) b)) :
    Cert.Sage.decoder x w1 b1 w2 b2 (ix2 p j) = Cert.Sage.decoder x' w1' b1' w2' b2' (ix2 r j) := by
  have e : ∀ q : Fin h, Cert.Sage.proj x w1 b1 (ix2 p q) = Cert.Sage.proj x' w1' b1' (ix2 r q) := fun q => by
    show max (Cert.Sage.lin x w1 b1 p q) Cert.Sage.zeroF = max (Cert.Sage.lin x' w1' b1' r q) Cert.Sage.zeroF
    unfold Cert.Sage.lin
    rw [hb1 q]
    congr 1
    congr 1
    exact Finset.sum_congr rfl fun a _ => by rw [hx a, hw1 a q]
  show Cert.Sage.lin (Cert.Sage.proj x w1 b1) w2 b2 p j = Cert.Sage.lin (Cert.Sage.proj x' w1' b1') w2' b2' r j
  unfold Cert.Sage.lin
  rw [hb2 j]
  congr 1
  exact Finset.sum_congr rfl fun q _ => by rw [e q, hw2 q j]

/-- Entry (p, j) of the stored block is entry (r, j) of the whole-array function, when the loaded blocks are rows of
    the arrays: row p of the row-indexed block is row r of its array, the other blocks are their arrays. -/
theorem pay_rows (x : Vec Ideal S10000x128 .f32) (w1 : Vec Ideal S128x64 .f32) (b1 : Vec Ideal S1x64 .f32)
    (w2 : Vec Ideal S64x128 .f32) (b2 : Vec Ideal S1x128 .f32)
    (X : Cert.Sage.Mat 500000 128) (W1 : Cert.Sage.Mat 128 64) (B1 : Cert.Sage.Mat 1 64) (W2 : Cert.Sage.Mat 64 128)
    (B2 : Cert.Sage.Mat 1 128) (p : Fin 10000) (r : Fin 500000) (j : Fin 128)
    (hx : ∀ q : Fin 128, x (ix2 p q) = X (ix2 r q))
    (hw1 : ∀ (a : Fin 128) (b : Fin 64), w1 (ix2 a b) = W1 (ix2 a b))
    (hb1 : ∀ b : Fin 64, b1 (ix2 (0 : Fin 1) b) = B1 (ix2 (0 : Fin 1) b))
    (hw2 : ∀ (a : Fin 64) (b : Fin 128), w2 (ix2 a b) = W2 (ix2 a b))
    (hb2 : ∀ b : Fin 128, b2 (ix2 (0 : Fin 1) b) = B2 (ix2 (0 : Fin 1) b)) :
    Gen.k5_pay1 x w1 b1 w2 b2 (ix2 p j) = Cert.Sage.decoder X W1 B1 W2 B2 (ix2 r j) :=
  (pay_apply x w1 b1 w2 b2 p j).trans (decoder_rows x X w1 W1 b1 B1 w2 W2 b2 B2 p r j hx hw1 hb1 hw2 hb2)

/-! ## From blocks to the array -/

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the row-tiled windows (the row-indexed operand and the result) sit at block
    row t, block column 0; the weight matrices and the bias rows at block (0, 0). -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, q) of the row-indexed operand's block at point t is entry (10000·t + p, q) of its array. -/
theorem x_block (t : Fin cfg5.N) (p : Fin 10000) (q : Fin 128) (r : Fin 500000) (hr : r.val = t.val * 10000 + p.val) :
    (Gen.iblk5 V c 0 t : Vec Ideal S10000x128 .f32) (ix2 p q) = (V c main_v96 : S500000x128.Idx → EReal) (ix2 r q) := by
  obtain ⟨e0, e1, -⟩ := index_maps t
  unfold Gen.iblk5
  show V c main_v96 (((cfg5.win 0).blk t).view.emb (ix2 p q)) = _
  congr 1
  funext a; apply Fin.ext
  match a with
  | ⟨0, _⟩ => show win5_0.index t (0 : Fin 2) * 10000 + 1 * p.val = r.val; rw [e0, hr]; omega
  | ⟨1, _⟩ => show win5_0.index t (1 : Fin 2) * 128 + 1 * q.val = q.val; rw [e1]; omega

/-- The first weight matrix's block at any point is the matrix. -/
theorem w1_block (t : Fin cfg5.N) (a : Fin 128) (b : Fin 64) :
    (Gen.iblk5 V c 1 t : Vec Ideal S128x64 .f32) (ix2 a b) = (V c main_arg16 : S128x64.Idx → EReal) (ix2 a b) := by
  obtain ⟨-, -, e0, e1, -⟩ := index_maps t
  unfold Gen.iblk5
  show V c main_arg16 (((cfg5.win 1).blk t).view.emb (ix2 a b)) = _
  congr 1
  funext d; apply Fin.ext
  match d with
  | ⟨0, _⟩ => show win5_1.index t (0 : Fin 2) * 128 + 1 * a.val = a.val; rw [e0]; omega
  | ⟨1, _⟩ => show win5_1.index t (1 : Fin 2) * 64 + 1 * b.val = b.val; rw [e1]; omega

/-- The first bias row's block at any point is the row. -/
theorem b1_block (t : Fin cfg5.N) (b : Fin 64) :
    (Gen.iblk5 V c 2 t : Vec Ideal S1x64 .f32) (ix2 (0 : Fin 1) b) = (V c main_v97 : S1x64.Idx → EReal) (ix2 (0 : Fin 1) b) := by
  obtain ⟨-, -, -, -, e0, e1, -⟩ := index_maps t
  unfold Gen.iblk5
  show V c main_v97 (((cfg5.win 2).blk t).view.emb (ix2 (0 : Fin 1) b)) = _
  congr 1
  funext d; apply Fin.ext
  match d with
  | ⟨0, _⟩ => show win5_2.index t (0 : Fin 2) * 1 + 1 * 0 = 0; rw [e0]
  | ⟨1, _⟩ => show win5_2.index t (1 : Fin 2) * 64 + 1 * b.val = b.val; rw [e1]; omega

/-- The second weight matrix's block at any point is the matrix. -/
theorem w2_block (t : Fin cfg5.N) (a : Fin 64) (b : Fin 128) :
    (Gen.iblk5 V c 3 t : Vec Ideal S64x128 .f32) (ix2 a b) = (V c main_v101 : S64x128.Idx → EReal) (ix2 a b) := by
  obtain ⟨-, -, -, -, -, -, e0, e1, -⟩ := index_maps t
  unfold Gen.iblk5
  show V c main_v101 (((cfg5.win 3).blk t).view.emb (ix2 a b)) = _
  congr 1
  funext d; apply Fin.ext
  match d with
  | ⟨0, _⟩ => show win5_3.index t (0 : Fin 2) * 64 + 1 * a.val = a.val; rw [e0]; omega
  | ⟨1, _⟩ => show win5_3.index t (1 : Fin 2) * 128 + 1 * b.val = b.val; rw [e1]; omega

/-- The second bias row's block at any point is the row. -/
theorem b2_block (t : Fin cfg5.N) (b : Fin 128) :
    (Gen.iblk5 V c 4 t : Vec Ideal S1x128 .f32) (ix2 (0 : Fin 1) b) = (V c main_v107 : S1x128.Idx → EReal) (ix2 (0 : Fin 1) b) := by
  obtain ⟨-, -, -, -, -, -, -, -, e0, e1, -⟩ := index_maps t
  unfold Gen.iblk5
  show V c main_v107 (((cfg5.win 4).blk t).view.emb (ix2 (0 : Fin 1) b)) = _
  congr 1
  funext d; apply Fin.ext
  match d with
  | ⟨0, _⟩ => show win5_4.index t (0 : Fin 2) * 1 + 1 * 0 = 0; rw [e0]
  | ⟨1, _⟩ => show win5_4.index t (1 : Fin 2) * 128 + 1 * b.val = b.val; rw [e1]; omega

/-- What point t writes back is rows 10000·t … 10000·t + 9999 of the whole-array function of the arrays as the region
    finds them. -/
theorem flushed_eq (t : Fin cfg5.N) :
    (Gen.dat5 (F := Ideal) V c).flushed 5 t = ((cfg5.win 5).blk t).view.read (Elt Ideal)
      (Cert.Sage.decoder (V c main_v96) (V c main_arg16) (V c main_v97) (V c main_v101) (V c main_v107)) := by
  show (cfg5.win 5).cut (grid5.coords t) ((Gen.dat5 V c).after 5 t) = _
  rw [Gen.after5_5]
  unfold Gen.out5_5
  rw [View.canon_unit_zero zero_offsets]
  simp only [View.ld_unit_zero (S := S10000x128) zero_offsets, View.ld_unit_zero (S := S128x64) zero_offsets,
    View.ld_unit_zero (S := S1x64) zero_offsets, View.ld_unit_zero (S := S64x128) zero_offsets,
    View.ld_unit_zero (S := S1x128) zero_offsets]
  funext y
  obtain ⟨p, j, rfl⟩ : ∃ (p : Fin 10000) (j : Fin 128), y = ix2 p j := ⟨y 0, y 1, eq_ix2 y⟩
  obtain ⟨-, -, -, -, -, -, -, -, -, -, e0, e1⟩ := index_maps t
  have hN : cfg5.N = 50 := Gen.N_5
  have ht : t.val < cfg5.N := t.isLt
  obtain ⟨r, hr⟩ : ∃ r : Fin 500000, r.val = t.val * 10000 + p.val := ⟨⟨t.val * 10000 + p.val, by omega⟩, rfl⟩
  have hemb : ((cfg5.win 5).blk t).view.emb (ix2 p j) = ix2 r j := by
    funext a; apply Fin.ext
    match a with
    | ⟨0, _⟩ => show win5_5.index t (0 : Fin 2) * 10000 + 1 * p.val = r.val; rw [e0, hr]; omega
    | ⟨1, _⟩ => show win5_5.index t (1 : Fin 2) * 128 + 1 * j.val = j.val; rw [e1]; omega
  show Gen.k5_pay1 (F := Ideal) _ _ _ _ _ (ix2 p j) = Cert.Sage.decoder _ _ _ _ _ (((cfg5.win 5).blk t).view.emb (ix2 p j))
  rw [hemb]
  exact pay_rows (Gen.iblk5 V c 0 t) (Gen.iblk5 V c 1 t) (Gen.iblk5 V c 2 t) (Gen.iblk5 V c 3 t) (Gen.iblk5 V c 4 t)
    (V c main_v96) (V c main_arg16) (V c main_v97) (V c main_v101) (V c main_v107) p r j
    (fun q => x_block V c t p q r hr) (fun a b => w1_block V c t a b) (fun b => b1_block V c t b)
    (fun a b => w2_block V c t a b) (fun b => b2_block V c t b)

/-- An index of the result array is in point t's block iff each coordinate is in the block's range on its axis. -/
theorem mem_block (t : Fin cfg5.N) (i : S500000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v108).slice (win5_5.rect t)).set ↔ _
  rw [View.set_slice_whole, Rect.mem_set_unit]
  exact Iff.rfl

/-- Every index of the result array is in some point's block: row r is in the block of point r / 10000. -/
theorem cover (i : S500000x128.Idx) :
    ∃ t : Fin cfg5.N, (cfg5.win 5).flush t = true ∧ i ∈ ((cfg5.win 5).blk t).view.set := by
  have hi0 : (i 0).val < 500000 := (i 0).isLt
  have hi1 : (i 1).val < 128 := (i 1).isLt
  have hN : cfg5.N = 50 := Gen.N_5
  obtain ⟨t, ht⟩ : ∃ t : Fin cfg5.N, t.val = (i 0).val / 10000 := ⟨⟨(i 0).val / 10000, by rw [hN]; omega⟩, rfl⟩
  obtain ⟨-, -, -, -, -, -, -, -, -, -, e0, e1⟩ := index_maps t
  refine ⟨t, Gen.flush5_5 t, ?_⟩
  rw [mem_block]
  intro a
  match a with
  | ⟨0, _⟩ =>
    show win5_5.index t (0 : Fin 2) * 10000 ≤ (i 0).val ∧ (i 0).val < win5_5.index t (0 : Fin 2) * 10000 + 10000
    rw [e0, ht]; omega
  | ⟨1, _⟩ =>
    show win5_5.index t (1 : Fin 2) * 128 ≤ (i 1).val ∧ (i 1).val < win5_5.index t (1 : Fin 2) * 128 + 128
    rw [e1]; omega

/-- The result array after the region: the decoder of the arrays as the region finds them. -/
theorem final : (Gen.dat5 (F := Ideal) V c).arrAt 5 cfg5.N
    = Cert.Sage.decoder (V c main_v96) (V c main_arg16) (V c main_v97) (V c main_v101) (V c main_v107) :=
  (Gen.dat5 (F := Ideal) V c).arrAt_eq_of_cover 5 _ (fun t _ => flushed_eq V c t) cover

end Cert.KernelIdeal.Region5

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.HostLayers.lean ====
/-
  Host operations read at a row and a column, at the ideal instance.  A `dot_general` contracted over the left
  operand's columns and the right operand's rows, plus a bias row broadcast over the rows, is entry by entry a dense
  layer; adding a second such product gives a SAGE pre-activation; the maximum with a broadcast zero is the maximum
  with the zero word.  A vector laid out as a one-row matrix is the same matrix whether a reshape or a broadcast along
  a new leading axis produced it, because both read the vector's entry j at (0, j).
-/
import Idealize.ShloMosaic.Lib.ValueIdx
import Idealize.ShloMosaic.Lib.Pipeline.Value
import Idealize.ShloMosaic.PureOps.Ideal.Laws
import proofs.«114558_j41059887350180_1_alg».proof.Proof.Spec
import proofs.«114558_j41059887350180_1_alg».proof.Proof.LibPlainDot
import proofs.«114558_j41059887350180_1_alg».proof.Proof.LibMatrixLayout
import proofs.«114558_j41059887350180_1_alg».proof.Proof.LibRowReshape

noncomputable section

namespace Cert.Sage

open Idealize.ShloMosaic Idealize.ShloMosaic.ValueIdx

variable {n k h : ℕ}

/-- A vector reshaped to a one-row matrix and the same vector broadcast along a new leading axis are one matrix. -/
theorem reshapeRow_eq_bcastRow (b : FVec Ideal ⟨1, ![h]⟩ .f32) (hs : (⟨1, ![h]⟩ : Shape).ShapeCasts ⟨2, ![1, h]⟩)
    (hb : (⟨1, ![h]⟩ : Shape).BroadcastsInDim ⟨2, ![1, h]⟩ ![1]) :
    shapeCast ⟨2, ![1, h]⟩ b hs = broadcastInDim ⟨2, ![1, h]⟩ ![1] hb b := by
  funext i
  obtain ⟨u, j, rfl⟩ : ∃ (u : Fin 1) (j : Fin h), i = ix2 u j := ⟨i 0, i 1, eq_ix2 i⟩
  rw [Cert.LibRowReshape.shapeCast_b_1b_apply, Cert.LibMatrixLayout.bcast_b_1b_apply]

/-- The host's product plus a bias row broadcast over the rows is a dense layer, entry by entry. -/
theorem hostLin_apply (D : DotDims ⟨2, ![n, k]⟩ ⟨2, ![k, h]⟩ ⟨2, ![n, h]⟩) (hD : D = DotDims.plain n k h)
    (a : FVec Ideal ⟨2, ![n, k]⟩ .f32) (w : FVec Ideal ⟨2, ![k, h]⟩ .f32) (b : FVec Ideal ⟨2, ![1, h]⟩ .f32)
    (hb : (⟨2, ![1, h]⟩ : Shape).BroadcastsInDim ⟨2, ![n, h]⟩ ![0, 1]) (p : Fin n) (j : Fin h) :
    addf (Host.dotGeneral D none a w) (broadcastInDim ⟨2, ![n, h]⟩ ![0, 1] hb b) (ix2 p j) = lin a w b p j := by
  show FloatOps.addf (Host.dotGeneral D none a w (ix2 p j)) (broadcastInDim ⟨2, ![n, h]⟩ ![0, 1] hb b (ix2 p j)) = _
  rw [Cert.PlainDot.dotGeneral_ix2 D hD, Cert.LibMatrixLayout.bcast_1b_ab_apply, Ideal.addf_def]
  rfl

/-- A dense layer of the neighbour mean plus the product of the node's own rows with a second weight matrix is
    the SAGE pre-activation, entry by entry. -/
theorem hostSage_apply (D : DotDims ⟨2, ![n, h]⟩ ⟨2, ![h, h]⟩ ⟨2, ![n, h]⟩) (hD : D = DotDims.plain n h h)
    (mean xdst : FVec Ideal ⟨2, ![n, h]⟩ .f32) (wl : FVec Ideal ⟨2, ![h, h]⟩ .f32) (b : FVec Ideal ⟨2, ![1, h]⟩ .f32)
    (wr : FVec Ideal ⟨2, ![h, h]⟩ .f32) (hb : (⟨2, ![1, h]⟩ : Shape).BroadcastsInDim ⟨2, ![n, h]⟩ ![0, 1])
    (p : Fin n) (j : Fin h) :
    addf (addf (Host.dotGeneral D none mean wl) (broadcastInDim ⟨2, ![n, h]⟩ ![0, 1] hb b)) (Host.dotGeneral D none xdst wr)
      (ix2 p j) = sage mean xdst wl b wr p j := by
  show FloatOps.addf (addf (Host.dotGeneral D none mean wl) (broadcastInDim ⟨2, ![n, h]⟩ ![0, 1] hb b) (ix2 p j))
    (Host.dotGeneral D none xdst wr (ix2 p j)) = _
  rw [hostLin_apply D hD, Cert.PlainDot.dotGeneral_ix2 D hD, Ideal.addf_def]
  rfl

/-- The maximum with a zero constant broadcast to the operand's shape is, entry by entry, the maximum with the
    zero word. -/
theorem hostRelu_apply {s : Shape} (x : FVec Ideal s .f32) (hb : (⟨0, ![]⟩ : Shape).BroadcastsInDim s ![]) (i : s.Idx) :
    maximumf x (broadcastInDim s ![] hb (constant (F := Ideal) ⟨0, ![]⟩ .f32 0x00000000#32)) i = max (x i) zeroF := by
  show FloatOps.maximumf (x i) (broadcastInDim s ![] hb (constant (F := Ideal) ⟨0, ![]⟩ .f32 0x00000000#32) i) = _
  rw [Cert.LibMatrixLayout.bcast_scalar_apply, Ideal.maximumf_def]
  rfl

/-- The projection on the host: product, bias row, maximum with zero. -/
theorem hostProj_eq (D : DotDims ⟨2, ![n, k]⟩ ⟨2, ![k, h]⟩ ⟨2, ![n, h]⟩) (hD : D = DotDims.plain n k h)
    (a : FVec Ideal ⟨2, ![n, k]⟩ .f32) (w : FVec Ideal ⟨2, ![k, h]⟩ .f32) (b : FVec Ideal ⟨2, ![1, h]⟩ .f32)
    (hb : (⟨2, ![1, h]⟩ : Shape).BroadcastsInDim ⟨2, ![n, h]⟩ ![0, 1])
    (hz : (⟨0, ![]⟩ : Shape).BroadcastsInDim ⟨2, ![n, h]⟩ ![]) :
    maximumf (addf (Host.dotGeneral D none a w) (broadcastInDim ⟨2, ![n, h]⟩ ![0, 1] hb b))
      (broadcastInDim ⟨2, ![n, h]⟩ ![] hz (constant (F := Ideal) ⟨0, ![]⟩ .f32 0x00000000#32)) = proj a w b := by
  funext i
  obtain ⟨p, j, rfl⟩ : ∃ (p : Fin n) (j : Fin h), i = ix2 p j := ⟨i 0, i 1, eq_ix2 i⟩
  rw [hostRelu_apply, hostLin_apply D hD]
  rfl

/-- The residual combination on the host: the node's own entry plus the maximum of the pre-activation with zero
    (the host adds the residual on the left; addition of extended reals is commutative). -/
theorem hostCombineRes_eq (D : DotDims ⟨2, ![n, h]⟩ ⟨2, ![h, h]⟩ ⟨2, ![n, h]⟩) (hD : D = DotDims.plain n h h)
    (mean xdst : FVec Ideal ⟨2, ![n, h]⟩ .f32) (wl : FVec Ideal ⟨2, ![h, h]⟩ .f32) (b : FVec Ideal ⟨2, ![1, h]⟩ .f32)
    (wr : FVec Ideal ⟨2, ![h, h]⟩ .f32) (hb : (⟨2, ![1, h]⟩ : Shape).BroadcastsInDim ⟨2, ![n, h]⟩ ![0, 1])
    (hz : (⟨0, ![]⟩ : Shape).BroadcastsInDim ⟨2, ![n, h]⟩ ![]) :
    addf xdst (maximumf (addf (addf (Host.dotGeneral D none mean wl) (broadcastInDim ⟨2, ![n, h]⟩ ![0, 1] hb b))
        (Host.dotGeneral D none xdst wr))
      (broadcastInDim ⟨2, ![n, h]⟩ ![] hz (constant (F := Ideal) ⟨0, ![]⟩ .f32 0x00000000#32)))
      = combineRes mean xdst wl b wr := by
  funext i
  obtain ⟨p, j, rfl⟩ : ∃ (p : Fin n) (j : Fin h), i = ix2 p j := ⟨i 0, i 1, eq_ix2 i⟩
  show FloatOps.addf (xdst (ix2 p j)) (maximumf _ _ (ix2 p j)) = _
  rw [hostRelu_apply, hostSage_apply D hD, Ideal.addf_def]
  exact add_comm _ _

/-- Pointwise host operations read at an index, at the ideal instance. -/
theorem hostDivf_apply {s : Shape} (x y : FVec Ideal s .f32) (i : s.Idx) : Host.divf x y i = Ideal.div (x i) (y i) := by
  show FloatOps.hostDivf (x i) (y i) = _
  rw [Ideal.hostDivf_def]

theorem maximumf_apply' {s : Shape} (x y : FVec Ideal s .f32) (i : s.Idx) : maximumf x y i = max (x i) (y i) := by
  show FloatOps.maximumf (x i) (y i) = _
  rw [Ideal.maximumf_def]

theorem hostSqrt_apply {s : Shape} (x : FVec Ideal s .f32) (i : s.Idx) : Host.sqrt x i = Ideal.sqrt (x i) := by
  show FloatOps.hostUnary .sqrt (x i) = _
  rw [Ideal.hostUnary_sqrt_def]

theorem mulf_apply' {s : Shape} (x y : FVec Ideal s .f32) (i : s.Idx) : mulf x y i = x i * y i := by
  show FloatOps.mulf (x i) (y i) = _
  rw [Ideal.mulf_def]

/-- The host's sum of a matrix along its columns, read at a row: the initial value plus the sum of the row. -/
theorem hostRowSum_apply (x : FVec Ideal ⟨2, ![n, h]⟩ .f32) (init : FVec Ideal ⟨0, ![]⟩ .f32)
    (hr' : (⟨2, ![n, h]⟩ : Shape).ReducesTo [(1 : Fin 2)] ⟨1, ![n]⟩) (hr : (⟨2, ![n, h]⟩ : Shape).Reduces [(1 : Fin 2)] ⟨1, ![n]⟩)
    (h0 : 0 < (⟨0, ![]⟩ : Shape).numel) (p : Fin n) :
    Host.reduceAdd x init hr' h0 (ix1 p) = init (Shape.Idx.first h0) + ∑ q : Fin h, x (ix2 p q) := by
  simp only [Host.reduceAdd, Ideal.hostReduceAdd_def]
  rw [Ideal.hostReduceAdd_single hr' hr]
  refine congrArg (_ + ·) (Finset.sum_congr rfl fun q _ => ?_)
  exact congrArg x (funext fun a => Fin.ext (by match a with | ⟨0, _⟩ => rfl | ⟨1, _⟩ => rfl))

/-- The row-normalised combination on the host: the pre-activation divided by the larger of its row's norm and the
    small positive literal.  The host's sum starts from the zero word, which is zero. -/
theorem hostCombineNorm_eq (D : DotDims ⟨2, ![n, h]⟩ ⟨2, ![h, h]⟩ ⟨2, ![n, h]⟩) (hD : D = DotDims.plain n h h)
    (mean xdst : FVec Ideal ⟨2, ![n, h]⟩ .f32) (wl : FVec Ideal ⟨2, ![h, h]⟩ .f32) (b : FVec Ideal ⟨2, ![1, h]⟩ .f32)
    (wr : FVec Ideal ⟨2, ![h, h]⟩ .f32) (hb : (⟨2, ![1, h]⟩ : Shape).BroadcastsInDim ⟨2, ![n, h]⟩ ![0, 1])
    (hr' : (⟨2, ![n, h]⟩ : Shape).ReducesTo [(1 : Fin 2)] ⟨1, ![n]⟩) (hr : (⟨2, ![n, h]⟩ : Shape).Reduces [(1 : Fin 2)] ⟨1, ![n]⟩)
    (h0 : 0 < (⟨0, ![]⟩ : Shape).numel)
    (hc : (⟨1, ![n]⟩ : Shape).BroadcastsInDim ⟨2, ![n, 1]⟩ ![0])
    (he : (⟨0, ![]⟩ : Shape).BroadcastsInDim ⟨2, ![n, 1]⟩ ![])
    (hcol : (⟨2, ![n, 1]⟩ : Shape).BroadcastsInDim ⟨2, ![n, h]⟩ ![0, 1])
    (s : FVec Ideal ⟨2, ![n, h]⟩ .f32)
    (hs : s = addf (addf (Host.dotGeneral D none mean wl) (broadcastInDim ⟨2, ![n, h]⟩ ![0, 1] hb b)) (Host.dotGeneral D none xdst wr)) :
    Host.divf s (broadcastInDim ⟨2, ![n, h]⟩ ![0, 1] hcol
      (maximumf (Host.sqrt (broadcastInDim ⟨2, ![n, 1]⟩ ![0] hc
          (Host.reduceAdd (mulf s s) (constant (F := Ideal) ⟨0, ![]⟩ .f32 0x00000000#32) hr' h0)))
        (broadcastInDim ⟨2, ![n, 1]⟩ ![] he (constant (F := Ideal) ⟨0, ![]⟩ .f32 0x2B8CBCCC#32))))
      = combineNorm mean xdst wl b wr := by
  have hsage : ∀ (p : Fin n) (q : Fin h), s (ix2 p q) = sage mean xdst wl b wr p q := fun p q => by
    rw [hs]; exact hostSage_apply D hD mean xdst wl b wr hb p q
  funext i
  obtain ⟨p, j, rfl⟩ : ∃ (p : Fin n) (j : Fin h), i = ix2 p j := ⟨i 0, i 1, eq_ix2 i⟩
  rw [hostDivf_apply, Cert.LibMatrixLayout.bcast_a1_ab_apply, maximumf_apply', hostSqrt_apply,
    Cert.LibMatrixLayout.bcast_a_a1_apply, Cert.LibMatrixLayout.bcast_scalar_apply, hostRowSum_apply _ _ hr' hr h0, hsage]
  have hz : (constant (F := Ideal) ⟨0, ![]⟩ .f32 0x00000000#32) (Shape.Idx.first h0) = (0 : EReal) := Ideal.ofBits_zero_f32
  rw [hz, zero_add]
  have hsq : ∀ q : Fin h, mulf s s (ix2 p q) = sage mean xdst wl b wr p q * sage mean xdst wl b wr p q := fun q => by
    rw [mulf_apply', hsage]
  simp only [hsq]
  rfl

/-- The decoder on the host: a dense layer, the maximum with zero, a second dense layer. -/
theorem hostDecoder_eq {o : ℕ} (D1 : DotDims ⟨2, ![n, k]⟩ ⟨2, ![k, h]⟩ ⟨2, ![n, h]⟩) (hD1 : D1 = DotDims.plain n k h)
    (D2 : DotDims ⟨2, ![n, h]⟩ ⟨2, ![h, o]⟩ ⟨2, ![n, o]⟩) (hD2 : D2 = DotDims.plain n h o)
    (x : FVec Ideal ⟨2, ![n, k]⟩ .f32) (w1 : FVec Ideal ⟨2, ![k, h]⟩ .f32) (b1 : FVec Ideal ⟨2, ![1, h]⟩ .f32)
    (w2 : FVec Ideal ⟨2, ![h, o]⟩ .f32) (b2 : FVec Ideal ⟨2, ![1, o]⟩ .f32)
    (hb1 : (⟨2, ![1, h]⟩ : Shape).BroadcastsInDim ⟨2, ![n, h]⟩ ![0, 1])
    (hz : (⟨0, ![]⟩ : Shape).BroadcastsInDim ⟨2, ![n, h]⟩ ![])
    (hb2 : (⟨2, ![1, o]⟩ : Shape).BroadcastsInDim ⟨2, ![n, o]⟩ ![0, 1]) :
    addf (Host.dotGeneral D2 none
        (maximumf (addf (Host.dotGeneral D1 none x w1) (broadcastInDim ⟨2, ![n, h]⟩ ![0, 1] hb1 b1))
          (broadcastInDim ⟨2, ![n, h]⟩ ![] hz (constant (F := Ideal) ⟨0, ![]⟩ .f32 0x00000000#32))) w2)
      (broadcastInDim ⟨2, ![n, o]⟩ ![0, 1] hb2 b2) = decoder x w1 b1 w2 b2 := by
  rw [hostProj_eq D1 hD1]
  funext i
  obtain ⟨p, j, rfl⟩ : ∃ (p : Fin n) (j : Fin o), i = ix2 p j := ⟨i 0, i 1, eq_ix2 i⟩
  rw [hostLin_apply D2 hD2]
  rfl

end Cert.Sage

end
-- ==== Proof.RefLayers.lean ====
/-
  The reference program's dense stages are the network's layers.  Each stage of the reference is a nested term of host
  operations over the argument arrays; its projection, its two residual combinations, its two row-normalised
  combinations and its decoder are, as functions of a row and a column, the layer functions of the specification, with
  the gathered and segment-averaged operands left as the reference's own earlier stages.
-/
import proofs.«114558_j41059887350180_1_alg».proof.Proof.Gen.ReferenceIdeal.Read
import proofs.«114558_j41059887350180_1_alg».proof.Proof.HostLayers

noncomputable section

namespace Cert.ReferenceIdeal.Layers

open Idealize.ShloMosaic Idealize.ShloMosaic.ValueIdx Cert.ReferenceIdeal Cert.ReferenceIdeal.Read Cert.Sage

variable (x0 : (⟨S20000x256, .f32⟩ : BufTy).Contents (Elt Ideal)) (x1 : (⟨S100000x64, .f32⟩ : BufTy).Contents (Elt Ideal)) (x2 : (⟨S256x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 : (⟨S64x64, .f32⟩ : BufTy).Contents (Elt Ideal)) (x11 : (⟨S64, .f32⟩ : BufTy).Contents (Elt Ideal)) (x12 x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S128x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal)) (x20 x21 : (⟨S2000000, .i32⟩ : BufTy).Contents (Elt Ideal)) (x22 x23 : (⟨S500000, .i32⟩ : BufTy).Contents (Elt Ideal))

/-- The movie projection: dense layer of the movie features, maximum with zero. -/
theorem movie0 : val_main_v4 (F := Ideal) x0 x2 x3 = proj x0 x2 (val_main_v1 (F := Ideal) x3) := by
  unfold val_main_v4 val_main_v3 val_main_v2 val_main_v0 val_main_call0_v0 val_main_call0_cst
  exact hostProj_eq _ rfl _ _ _ _ _

/-- Layer one on the movies: the residual combination of the users' mean with the projected movies. -/
theorem movieRes : val_main_v56 (F := Ideal) x0 x1 x2 x3 x4 x5 x6 x20 x21 = combineRes (val_main_v22 (F := Ideal) x1 x20 x21) (val_main_v4 (F := Ideal) x0 x2 x3) x4 (val_main_v24 (F := Ideal) x5) x6 := by
  unfold val_main_v56 val_main_v29 val_main_v28 val_main_v26 val_main_v25 val_main_v23 val_main_v27 val_main_call1_v0 val_main_call1_cst
  exact hostCombineRes_eq _ rfl _ _ _ _ _ _ _

/-- Layer one on the users: the residual combination of the movies' mean with the user embeddings. -/
theorem userRes : val_main_v55 (F := Ideal) x0 x1 x2 x3 x7 x8 x9 x20 x21 = combineRes (val_main_v47 (F := Ideal) x0 x2 x3 x20 x21) x1 x7 (val_main_v49 (F := Ideal) x8) x9 := by
  unfold val_main_v55 val_main_v54 val_main_v53 val_main_v51 val_main_v50 val_main_v48 val_main_v52 val_main_call2_v0 val_main_call2_cst
  exact hostCombineRes_eq _ rfl _ _ _ _ _ _ _

/-- Layer two on the movies, normalised by rows. -/
theorem movieOut : val_main_v114 (F := Ideal) x0 x1 x2 x3 x4 x5 x6 x7 x8 x9 x10 x11 x12 x20 x21 = combineNorm (val_main_v74 (F := Ideal) x0 x1 x2 x3 x7 x8 x9 x20 x21) (val_main_v56 (F := Ideal) x0 x1 x2 x3 x4 x5 x6 x20 x21) x10 (val_main_v76 (F := Ideal) x11) x12 := by
  unfold val_main_v114 val_main_v113 val_main_v112 val_main_v111 val_main_v110 val_main_call4_v2 val_main_call4_v1 val_main_call4_v0 val_main_call4_cst val_main_cst_23
  exact hostCombineNorm_eq _ rfl _ _ _ _ _ _ _ (by decide) _ _ _ _ (val_main_v80 (F := Ideal) x0 x1 x2 x3 x4 x5 x6 x7 x8 x9 x10 x11 x12 x20 x21)
    (by unfold val_main_v80 val_main_v78 val_main_v77 val_main_v75 val_main_v79; rfl)

/-- Layer two on the users, normalised by rows. -/
theorem userOut : val_main_v109 (F := Ideal) x0 x1 x2 x3 x4 x5 x6 x7 x8 x9 x13 x14 x15 x20 x21 = combineNorm (val_main_v98 (F := Ideal) x0 x1 x2 x3 x4 x5 x6 x20 x21) (val_main_v55 (F := Ideal) x0 x1 x2 x3 x7 x8 x9 x20 x21) x13 (val_main_v100 (F := Ideal) x14) x15 := by
  unfold val_main_v109 val_main_v108 val_main_v107 val_main_v106 val_main_v105 val_main_call3_v2 val_main_call3_v1 val_main_call3_v0 val_main_call3_cst val_main_cst_22
  exact hostCombineNorm_eq _ rfl _ _ _ _ _ _ _ (by decide) _ _ _ _ (val_main_v104 (F := Ideal) x0 x1 x2 x3 x4 x5 x6 x7 x8 x9 x13 x14 x15 x20 x21)
    (by unfold val_main_v104 val_main_v102 val_main_v101 val_main_v99 val_main_v103; rfl)

/-- The decoder on the gathered, joined rows. -/
theorem decoderOut : val_main_v138 (F := Ideal) x0 x1 x2 x3 x4 x5 x6 x7 x8 x9 x10 x11 x12 x13 x14 x15 x16 x17 x18 x19 x20 x21 x22 x23 = decoder (val_main_v129 (F := Ideal) x0 x1 x2 x3 x4 x5 x6 x7 x8 x9 x10 x11 x12 x13 x14 x15 x20 x21 x22 x23) x16 (val_main_v131 (F := Ideal) x17) x18 (val_main_v136 (F := Ideal) x19) := by
  unfold val_main_v138 val_main_v137 val_main_v135 val_main_v134 val_main_v133 val_main_v132 val_main_v130 val_main_call5_v0 val_main_call5_cst
  exact hostDecoder_eq _ rfl _ rfl _ _ _ _ _ _ _ _

end Cert.ReferenceIdeal.Layers

end
-- ==== Proof.DecoderPads.lean ====
/-
  Three host operations on the decoder's operands, read at an index written by coordinates.

  * a scatter whose body returns the update ("set"), at landing indices that are pairwise distinct: read at the landing
    index of update j, the result is update j (the fold of writes at distinct keys, read at one of them);
  * a [64] column set into column 0 of a [64, 128] array at the one start index 0;
  * a scalar set at (0, 0) of a [1, 128] array at the start index vector (0, 0);
  * column 0 cut out of a matrix [n, b].
-/
import proofs.«114558_j41059887350180_1_alg».proof.KernelIdeal
import Idealize.ShloMosaic.Lib.ValueIdx
import Idealize.ShloMosaic.Lib.Pipeline.Value

noncomputable section

namespace Cert.KernelIdeal.DecoderPads

open Idealize.ShloMosaic Idealize.ShloMosaic.ValueIdx Cert.KernelIdeal

/-! ## A fold of writes at distinct keys -/

section Fold

variable {α ι β : Type} [DecidableEq ι]

/-- One write: when the item has a key, the item's value replaces the old value there; an item without a key writes
    nothing. -/
def writeStep (key : β → Option ι) (val : β → α) (r : ι → α) (n : β) : ι → α :=
  match key n with
  | some i => fun i' => if i' = i then val n else r i'
  | none => r

theorem writeStep_some (key : β → Option ι) (val : β → α) (r : ι → α) (n : β) (i : ι) (h : key n = some i) :
    writeStep key val r n = fun i' => if i' = i then val n else r i' := by
  unfold writeStep; rw [h]

theorem writeStep_none (key : β → Option ι) (val : β → α) (r : ι → α) (n : β) (h : key n = none) :
    writeStep key val r n = r := by
  unfold writeStep; rw [h]

/-- A position that is no item's key keeps its value through the fold. -/
theorem foldl_write_untouched (key : β → Option ι) (val : β → α) (i : ι) :
    ∀ (l : List β) (x : ι → α), (∀ n ∈ l, key n ≠ some i) → (l.foldl (writeStep key val) x) i = x i
  | [], _, _ => rfl
  | a :: l, x, h => by
      rw [List.foldl_cons, foldl_write_untouched key val i l _ fun n hn => h n (List.mem_cons_of_mem _ hn)]
      have ha : key a ≠ some i := h a (List.mem_cons_self ..)
      cases hk : key a with
      | none => rw [writeStep_none key val x a hk]
      | some i' =>
          rw [writeStep_some key val x a i' hk]
          have hne : i ≠ i' := fun e => ha (by rw [hk, e])
          exact if_neg hne

/-- Among items without repetition, when item n₀ is the only one whose key is i, the fold read at i is n₀'s value. -/
theorem foldl_write_read (key : β → Option ι) (val : β → α) (i : ι) (n₀ : β) (hk : key n₀ = some i) :
    ∀ (l : List β) (x : ι → α), l.Nodup → n₀ ∈ l → (∀ n ∈ l, key n = some i → n = n₀) →
      (l.foldl (writeStep key val) x) i = val n₀
  | [], _, _, hm, _ => absurd hm (List.not_mem_nil)
  | a :: l, x, hnd, hm, huniq => by
      rw [List.foldl_cons]
      have hnd' := List.nodup_cons.1 hnd
      by_cases hl : n₀ ∈ l
      · exact foldl_write_read key val i n₀ hk l _ hnd'.2 hl fun n hn => huniq n (List.mem_cons_of_mem _ hn)
      · have han : a = n₀ := by
          rcases List.mem_cons.1 hm with e | e
          · exact e.symm
          · exact absurd e hl
        subst han
        rw [foldl_write_untouched key val i l _ fun n hn e => hnd'.1 (by
          have := huniq n (List.mem_cons_of_mem _ hn) e; rw [this] at hn; exact hn)]
        rw [writeStep_some key val x a i hk]
        exact if_pos rfl

end Fold

/-! ## A set-scatter at pairwise distinct landing indices -/

section Scatter

variable {α : Type}

/-- A scatter whose body returns the update, every update landing inside the operand and no two at the same index:
    the result at the landing index of update j is update j. -/
theorem scatter_set_landing {s si u : Shape} {w : ℕ} (d : ScatterDims s si u) (x : s.Idx → α) (idx : IVec si w)
    (upd : u.Idx → α) (land : u.Idx → s.Idx) (hland : ∀ j, d.resultIdx? j idx = some (land j))
    (hinj : Function.Injective land) (j : u.Idx) :
    Host.scatter d (fun _ b => b) x idx upd (land j) = upd j := by
  have hfold : Host.scatter d (fun _ b => b) x idx upd
      = (List.finRange u.numel).foldl
          (writeStep (fun n => d.resultIdx? (u.rowMajor.symm n) idx) (fun n => upd (u.rowMajor.symm n))) x := by
    unfold Host.scatter
    congr 1
    funext r n
    cases hk : d.resultIdx? (u.rowMajor.symm n) idx with
    | none => rw [writeStep_none _ _ r n hk]
    | some i => rw [writeStep_some _ _ r n i hk]
  rw [hfold]
  have h := foldl_write_read (fun n => d.resultIdx? (u.rowMajor.symm n) idx) (fun n => upd (u.rowMajor.symm n))
    (land j) (u.rowMajor j) (by simp only [Equiv.symm_apply_apply]; exact hland j)
    (List.finRange u.numel) x (List.nodup_finRange _) (List.mem_finRange _) (fun n _ hn => by
      have h1 : some (land (u.rowMajor.symm n)) = some (land j) := (hland _).symm.trans hn
      have h2 : u.rowMajor.symm n = j := hinj (Option.some.inj h1)
      rw [← h2, Equiv.apply_symm_apply])
  rw [h]
  simp only [Equiv.symm_apply_apply]

/-- The landing index of an update: when start plus window coordinate is, on every axis, the coordinate of i, the
    update lands at i. -/
theorem resultIdx?_eq_some {s si u : Shape} {w : ℕ} (d : ScatterDims s si u) (j : u.Idx) (idx : IVec si w) (i : s.Idx)
    (h : ∀ a, d.start j idx a + (d.window j a : ℤ) = ((i a).val : ℤ)) : d.resultIdx? j idx = some i := by
  have hb : ∀ a, 0 ≤ d.start j idx a + (d.window j a : ℤ) ∧ d.start j idx a + (d.window j a : ℤ) < (s.size a : ℤ) := by
    intro a
    rw [h a]
    exact ⟨Int.natCast_nonneg _, by exact_mod_cast (i a).isLt⟩
  unfold ScatterDims.resultIdx?
  rw [dif_pos hb]
  congr 1
  funext a
  apply Fin.ext
  show (d.start j idx a + (d.window j a : ℤ)).toNat = (i a).val
  rw [h a]
  exact Int.toNat_natCast _

/-- Start indices that are all zero give the start 0 on every operand axis. -/
theorem start_eq_zero {s si u : Shape} {w : ℕ} (d : ScatterDims s si u) (j : u.Idx) (idx : IVec si w)
    (hidx : ∀ i, idx i = 0#w) (a : Fin s.rank) : d.start j idx a = 0 := by
  unfold ScatterDims.start
  split
  · rw [hidx]; exact BitVec.toInt_zero
  · rfl

end Scatter

/-! ## The two zero-padded operands -/

section Pads

variable {α : Type} [Facts₀]

/-- A [64] column set into a [64, 128] array at the one start index 0 (the start goes to the array's axis 1, the
    column runs along axis 0): update (k) lands at (k, 0), so the result's column 0 is the column. -/
theorem weightPad_col0 (x : S64x128.Idx → α) (idx : IVec S1 32) (hidx : ∀ i, idx i = 0#32) (upd : S64.Idx → α)
    (k : Fin 64) :
    Host.scatter scatter_S64x128_S1_S64_0_1_1_0 (fun _ b => b) x idx upd (ix2 k (0 : Fin 128)) = upd (ix1 k) := by
  let land : S64.Idx → S64x128.Idx := fun j => ix2 (n0 := 64) (j 0) (0 : Fin 128)
  have hland : ∀ j, scatter_S64x128_S1_S64_0_1_1_0.resultIdx? j idx = some (land j) := by
    intro j
    refine resultIdx?_eq_some _ j idx (land j) fun a => ?_
    rw [start_eq_zero _ j idx hidx a]
    match a with
    | ⟨0, _⟩ => show (0 : ℤ) + (((j 0).val : ℕ) : ℤ) = (((j 0).val : ℕ) : ℤ); omega
    | ⟨1, _⟩ => show (0 : ℤ) + ((0 : ℕ) : ℤ) = ((0 : ℕ) : ℤ); rfl
  have hinj : Function.Injective land := by
    intro j j' e
    have h0 : j 0 = j' 0 := congrFun e 0
    rw [eq_ix1 j, eq_ix1 j', h0]
  exact scatter_set_landing _ x idx upd land hland hinj (ix1 k)

/-- A scalar set into a [1, 128] array at the start index vector (0, 0) (both of the array's axes are inserted ones):
    the one update lands at (0, 0). -/
theorem biasPad_00 (x : S1x128.Idx → α) (idx : IVec S2 32) (hidx : ∀ i, idx i = 0#32) (upd : S_.Idx → α) :
    Host.scatter scatter_S1x128_S2_S__n_01_01_0 (fun _ b => b) x idx upd (ix2 (0 : Fin 1) (0 : Fin 128)) = upd ix0 := by
  let land : S_.Idx → S1x128.Idx := fun _ => ix2 (0 : Fin 1) (0 : Fin 128)
  have hland : ∀ j, scatter_S1x128_S2_S__n_01_01_0.resultIdx? j idx = some (land j) := by
    intro j
    refine resultIdx?_eq_some _ j idx (land j) fun a => ?_
    rw [start_eq_zero _ j idx hidx a]
    match a with
    | ⟨0, _⟩ => show (0 : ℤ) + ((0 : ℕ) : ℤ) = ((0 : ℕ) : ℤ); rfl
    | ⟨1, _⟩ => show (0 : ℤ) + ((0 : ℕ) : ℤ) = ((0 : ℕ) : ℤ); rfl
  have hinj : Function.Injective land := fun j j' _ => (eq_ix0 j).trans (eq_ix0 j').symm
  exact scatter_set_landing _ x idx upd land hland hinj ix0

end Pads

/-! ## Column 0 cut out of a matrix -/

section Column

variable {α : Type}

/-- Column 0 cut out of a matrix [n, b] reads, at (p, 0), the matrix's entry (p, 0). -/
theorem slice_col0_apply {n b : ℕ} (x : (⟨2, ![n, b]⟩ : Shape).Idx → α)
    (h : (⟨2, ![n, b]⟩ : Shape).Slices ![0, 0] ⟨2, ![n, 1]⟩) (p : Fin n) (u : Fin 1) (e : Fin b) (he : e.val = 0) :
    extractStridedSlice ⟨2, ![n, 1]⟩ ![0, 0] x h (ix2 p u) = x (ix2 p e) := by
  refine extractStridedSlice_apply ![0, 0] x h (ix2 p u) (ix2 p e) fun ax => ?_
  match ax with
  | ⟨0, _⟩ => show p.val = 0 + p.val; omega
  | ⟨1, _⟩ =>
      show e.val = 0 + u.val
      have := u.isLt
      omega

end Column

end Cert.KernelIdeal.DecoderPads
-- ==== Proof.KernelValue.lean ====
/-
  The idealized kernel's result as a function of the launch arguments.  Walking the program's boundaries in order:
  each region's output array is the layer function of the specification applied to the region's input arrays as the
  region finds them; each stretch of host operations applies the same gathers, segment sums, maxima and quotients that
  the reference applies, to the same operands.  So at every boundary the live arrays are the reference's own stages of
  the launch arguments, and the result — column 0 of the decoder's output, whose second weight matrix and bias row are
  the last two arguments written into column 0 of zero arrays — is the reference's result.
-/
import proofs.«114558_j41059887350180_1_alg».proof.Proof.Gen.KernelIdeal.Frame
import proofs.«114558_j41059887350180_1_alg».proof.Proof.Gen.ReferenceIdeal.Read
import proofs.«114558_j41059887350180_1_alg».proof.Proof.Boundaries
import proofs.«114558_j41059887350180_1_alg».proof.Proof.Region0
import proofs.«114558_j41059887350180_1_alg».proof.Proof.Region1
import proofs.«114558_j41059887350180_1_alg».proof.Proof.Region2
import proofs.«114558_j41059887350180_1_alg».proof.Proof.Region3
import proofs.«114558_j41059887350180_1_alg».proof.Proof.Region4
import proofs.«114558_j41059887350180_1_alg».proof.Proof.Region5
import proofs.«114558_j41059887350180_1_alg».proof.Proof.RefLayers
import proofs.«114558_j41059887350180_1_alg».proof.Proof.HostLayers
import proofs.«114558_j41059887350180_1_alg».proof.Proof.DecoderPads

set_option maxRecDepth 16384

noncomputable section

namespace Cert.KernelIdeal.Network

open Idealize.ShloMosaic Idealize.ShloMosaic.TcCoe Idealize.ShloMosaic.ValueIdx Idealize.SL.Sem Idealize.ShloMosaic.StableHlo
open Cert.KernelIdeal Cert.KernelIdeal.Gen Cert.KernelIdeal.Boundary Cert.Sage
open Cert.ReferenceIdeal.Read Cert.ReferenceIdeal.Layers

variable (m : (ℓ : Loc nD τ sig) → Buf (Elt Ideal) ℓ) (ρ : Dev nD → PrngReg) (c : Dev nD)

/-! ## Region 0: the projected movies -/

theorem bias0_at1 : W1 m ρ c (Proc.devRef .tc main_v0) = (val_main_v1 (F := Ideal) (m ((c : Thread nD τ).loc main_arg3))) := by
  show StableHlo.after hostOps0 (W0 m ρ c) _ = _
  simp only [hostOps0]
  after_results_simp
  exact reshapeRow_eq_bcastRow _ _ _

theorem v1_at2 : W2 m ρ c (Proc.devRef .tc main_v1) = (val_main_v4 (F := Ideal) (m ((c : Thread nD τ).loc main_arg0)) (m ((c : Thread nD τ).loc main_arg2)) (m ((c : Thread nD τ).loc main_arg3))) := by
  rw [movie0]
  refine (W2_arr m ρ c 3).trans ((Region0.final (V1 m ρ) c).trans ?_)
  have e0 : V1 m ρ c main_arg0 = (m ((c : Thread nD τ).loc main_arg0)) := arg0_at1 m ρ c
  have e2 : V1 m ρ c main_arg2 = (m ((c : Thread nD τ).loc main_arg2)) := arg2_at1 m ρ c
  have e3 : V1 m ρ c main_v0 = (val_main_v1 (F := Ideal) (m ((c : Thread nD τ).loc main_arg3))) := bias0_at1 m ρ c
  rw [e0, e2, e3]

/-! ## The first stretch of gathers and segment means, and region 1 and 2: layer one with residuals -/

theorem v19_at3 : W3 m ρ c (Proc.devRef .tc main_v19) = (val_main_v22 (F := Ideal) (m ((c : Thread nD τ).loc main_arg1)) (m ((c : Thread nD τ).loc main_arg20)) (m ((c : Thread nD τ).loc main_arg21))) := by
  show StableHlo.after hostOps1 (W2 m ρ c) _ = _
  simp only [hostOps1]
  after_results_simp
  rw [arg1_at2 m ρ c, arg20_at2 m ρ c, arg21_at2 m ρ c]
  rfl

theorem v37_at3 : W3 m ρ c (Proc.devRef .tc main_v37) = (val_main_v47 (F := Ideal) (m ((c : Thread nD τ).loc main_arg0)) (m ((c : Thread nD τ).loc main_arg2)) (m ((c : Thread nD τ).loc main_arg3)) (m ((c : Thread nD τ).loc main_arg20)) (m ((c : Thread nD τ).loc main_arg21))) := by
  show StableHlo.after hostOps1 (W2 m ρ c) _ = _
  simp only [hostOps1]
  after_results_simp
  rw [arg20_at2 m ρ c, arg21_at2 m ρ c, v1_at2 m ρ c]
  rfl

theorem v38_at3 : W3 m ρ c (Proc.devRef .tc main_v38) = (val_main_v24 (F := Ideal) (m ((c : Thread nD τ).loc main_arg5))) := by
  show StableHlo.after hostOps1 (W2 m ρ c) _ = _
  simp only [hostOps1]
  after_results_simp
  rw [arg5_at2 m ρ c]
  exact reshapeRow_eq_bcastRow _ _ _

theorem v39_at4 : W4 m ρ c (Proc.devRef .tc main_v39) = (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg20)) (m ((c : Thread nD τ).loc main_arg21))) := by
  rw [movieRes]
  refine (W4_arr m ρ c 5).trans ((Region1.final (V3 m ρ) c).trans ?_)
  have e0 : V3 m ρ c main_v19 = (val_main_v22 (F := Ideal) (m ((c : Thread nD τ).loc main_arg1)) (m ((c : Thread nD τ).loc main_arg20)) (m ((c : Thread nD τ).loc main_arg21))) := v19_at3 m ρ c
  have e1 : V3 m ρ c main_v1 = (val_main_v4 (F := Ideal) (m ((c : Thread nD τ).loc main_arg0)) (m ((c : Thread nD τ).loc main_arg2)) (m ((c : Thread nD τ).loc main_arg3))) := (v1_at3_from2 m ρ c).trans (v1_at2 m ρ c)
  have e2 : V3 m ρ c main_arg4 = (m ((c : Thread nD τ).loc main_arg4)) := arg4_at3 m ρ c
  have e3 : V3 m ρ c main_v38 = (val_main_v24 (F := Ideal) (m ((c : Thread nD τ).loc main_arg5))) := v38_at3 m ρ c
  have e4 : V3 m ρ c main_arg6 = (m ((c : Thread nD τ).loc main_arg6)) := arg6_at3 m ρ c
  rw [e0, e1, e2, e3, e4]

theorem v40_at5 : W5 m ρ c (Proc.devRef .tc main_v40) = (val_main_v49 (F := Ideal) (m ((c : Thread nD τ).loc main_arg8))) := by
  show StableHlo.after hostOps2 (W4 m ρ c) _ = _
  simp only [hostOps2]
  after_results_simp
  rw [arg8_at4 m ρ c]
  exact reshapeRow_eq_bcastRow _ _ _

theorem v41_at6 : W6 m ρ c (Proc.devRef .tc main_v41) = (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg20)) (m ((c : Thread nD τ).loc main_arg21))) := by
  rw [userRes]
  refine (W6_arr m ρ c 5).trans ((Region2.final (V5 m ρ) c).trans ?_)
  have e0 : V5 m ρ c main_v37 = (val_main_v47 (F := Ideal) (m ((c : Thread nD τ).loc main_arg0)) (m ((c : Thread nD τ).loc main_arg2)) (m ((c : Thread nD τ).loc main_arg3)) (m ((c : Thread nD τ).loc main_arg20)) (m ((c : Thread nD τ).loc main_arg21))) := (v37_at5_from3 m ρ c).trans (v37_at3 m ρ c)
  have e1 : V5 m ρ c main_arg1 = (m ((c : Thread nD τ).loc main_arg1)) := arg1_at5 m ρ c
  have e2 : V5 m ρ c main_arg7 = (m ((c : Thread nD τ).loc main_arg7)) := arg7_at5 m ρ c
  have e3 : V5 m ρ c main_v40 = (val_main_v49 (F := Ideal) (m ((c : Thread nD τ).loc main_arg8))) := v40_at5 m ρ c
  have e4 : V5 m ρ c main_arg9 = (m ((c : Thread nD τ).loc main_arg9)) := arg9_at5 m ρ c
  rw [e0, e1, e2, e3, e4]

/-! ## The second stretch of gathers and segment means, and regions 3 and 4: layer two, normalised by rows -/

theorem v59_at7 : W7 m ρ c (Proc.devRef .tc main_v59) = (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg20)) (m ((c : Thread nD τ).loc main_arg21))) := by
  show StableHlo.after hostOps3 (W6 m ρ c) _ = _
  simp only [hostOps3]
  after_results_simp
  rw [arg20_at6 m ρ c, arg21_at6 m ρ c, v41_at6 m ρ c]
  rfl

theorem v77_at7 : W7 m ρ c (Proc.devRef .tc main_v77) = (val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg20)) (m ((c : Thread nD τ).loc main_arg21))) := by
  show StableHlo.after hostOps3 (W6 m ρ c) _ = _
  simp only [hostOps3]
  after_results_simp
  rw [arg20_at6 m ρ c, arg21_at6 m ρ c, (v39_at6_from4 m ρ c).trans (v39_at4 m ρ c)]
  rfl

theorem v78_at7 : W7 m ρ c (Proc.devRef .tc main_v78) = (val_main_v76 (F := Ideal) (m ((c : Thread nD τ).loc main_arg11))) := by
  show StableHlo.after hostOps3 (W6 m ρ c) _ = _
  simp only [hostOps3]
  after_results_simp
  rw [arg11_at6 m ρ c]
  exact reshapeRow_eq_bcastRow _ _ _

theorem v79_at8 : W8 m ρ c (Proc.devRef .tc main_v79) = (val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg20)) (m ((c : Thread nD τ).loc main_arg21))) := by
  rw [movieOut]
  refine (W8_arr m ρ c 5).trans ((Region3.final (V7 m ρ) c).trans ?_)
  have e0 : V7 m ρ c main_v59 = (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg20)) (m ((c : Thread nD τ).loc main_arg21))) := v59_at7 m ρ c
  have e1 : V7 m ρ c main_v39 = (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg20)) (m ((c : Thread nD τ).loc main_arg21))) := (v39_at7_from4 m ρ c).trans (v39_at4 m ρ c)
  have e2 : V7 m ρ c main_arg10 = (m ((c : Thread nD τ).loc main_arg10)) := arg10_at7 m ρ c
  have e3 : V7 m ρ c main_v78 = (val_main_v76 (F := Ideal) (m ((c : Thread nD τ).loc main_arg11))) := v78_at7 m ρ c
  have e4 : V7 m ρ c main_arg12 = (m ((c : Thread nD τ).loc main_arg12)) := arg12_at7 m ρ c
  rw [e0, e1, e2, e3, e4]

theorem v80_at9 : W9 m ρ c (Proc.devRef .tc main_v80) = (val_main_v100 (F := Ideal) (m ((c : Thread nD τ).loc main_arg14))) := by
  show StableHlo.after hostOps4 (W8 m ρ c) _ = _
  simp only [hostOps4]
  after_results_simp
  rw [arg14_at8 m ρ c]
  exact reshapeRow_eq_bcastRow _ _ _

theorem v81_at10 : W10 m ρ c (Proc.devRef .tc main_v81) = (val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg20)) (m ((c : Thread nD τ).loc main_arg21))) := by
  rw [userOut]
  refine (W10_arr m ρ c 5).trans ((Region4.final (V9 m ρ) c).trans ?_)
  have e0 : V9 m ρ c main_v77 = (val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg20)) (m ((c : Thread nD τ).loc main_arg21))) := (v77_at9_from7 m ρ c).trans (v77_at7 m ρ c)
  have e1 : V9 m ρ c main_v41 = (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg20)) (m ((c : Thread nD τ).loc main_arg21))) := (v41_at9_from6 m ρ c).trans (v41_at6 m ρ c)
  have e2 : V9 m ρ c main_arg13 = (m ((c : Thread nD τ).loc main_arg13)) := arg13_at9 m ρ c
  have e3 : V9 m ρ c main_v80 = (val_main_v100 (F := Ideal) (m ((c : Thread nD τ).loc main_arg14))) := v80_at9 m ρ c
  have e4 : V9 m ρ c main_arg15 = (m ((c : Thread nD τ).loc main_arg15)) := arg15_at9 m ρ c
  rw [e0, e1, e2, e3, e4]

/-! ## The decoder's operands, region 5, and the result -/

/-- Joining two arrays along the columns respects equality of the two parts. -/
theorem joinCols_congr (X X' Y Y' : FVec Ideal S500000x64 .f32) (h1 : X = X') (h2 : Y = Y') :
    concatenate S500000x128 1 [⟨S500000x64, X⟩, ⟨S500000x64, Y⟩] concatenates_S500000x64_S500000x64_S500000x128_d1
      = concatenate S500000x128 1 [⟨S500000x64, X'⟩, ⟨S500000x64, Y'⟩] concatenates_S500000x64_S500000x64_S500000x128_d1 := by
  rw [h1, h2]

theorem v96_at11 : W11 m ρ c (Proc.devRef .tc main_v96) = (val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23))) := by
  show StableHlo.after hostOps5 (W10 m ρ c) _ = _
  simp only [hostOps5]
  after_results_simp
  refine (joinCols_congr _ (val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg20)) (m ((c : Thread nD τ).loc main_arg21)) (m ((c : Thread nD τ).loc main_arg22))) _ (val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg20)) (m ((c : Thread nD τ).loc main_arg21)) (m ((c : Thread nD τ).loc main_arg23))) ?_ ?_).trans rfl
  · after_results_simp
    rw [arg22_at10 m ρ c, v81_at10 m ρ c]
    rfl
  · after_results_simp
    rw [arg23_at10 m ρ c, (v79_at10_from8 m ρ c).trans (v79_at8 m ρ c)]
    rfl

theorem v97_at11 : W11 m ρ c (Proc.devRef .tc main_v97) = (val_main_v131 (F := Ideal) (m ((c : Thread nD τ).loc main_arg17))) := by
  show StableHlo.after hostOps5 (W10 m ρ c) _ = _
  simp only [hostOps5]
  after_results_simp
  rw [arg17_at10 m ρ c]
  exact reshapeRow_eq_bcastRow _ _ _

/-- The start index of the column write is zero. -/
theorem idxOne_zero (i : S1.Idx) : broadcastInDim S1 ![] bcast_S_S1 (constantI S_ 32 0#32) i = 0#32 :=
  (Cert.LibMatrixLayout.bcast_scalar_apply _ _ i).trans rfl

/-- Both components of the start index of the scalar write are zero. -/
theorem idxPair_zero (j : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 j = 0#32 :=
  (concatenate_replicate_apply (t := S2) (s₁ := S1) (0 : Fin 1) 2 (broadcastInDim S1 ![] bcast_S_S1 (constantI S_ 32 0#32))
    (by exact concatenates_S1_S1_S2_d0) rfl j (ix1 (0 : Fin 1)) (by show (0 : ℕ) = _ % 1; rw [Nat.mod_one])
    (fun b hb => absurd (Fin.ext (by have hb1 : b.val < 1 := b.isLt; show b.val = 0; omega)) hb)).trans (idxOne_zero (ix1 (0 : Fin 1)))

/-- Joining two one-entry index vectors respects equality of the two parts. -/
theorem idxJoin_congr (X X' Y Y' : (⟨S1, .i32⟩ : BufTy).Contents (Elt Ideal)) (h1 : X = X') (h2 : Y = Y') :
    concatenate S2 0 [⟨S1, X⟩, ⟨S1, Y⟩] concatenates_S1_S1_S2_d0
      = concatenate S2 0 [⟨S1, X'⟩, ⟨S1, Y'⟩] concatenates_S1_S1_S2_d0 := by
  rw [h1, h2]

/-- The padded second weight matrix holds the last weight column in its column 0. -/
theorem weightPad_at11 (q : Fin 64) :
    (W11 m ρ c (Proc.devRef .tc main_v101) : Mat 64 128) (ix2 q (0 : Fin 128)) = ((m ((c : Thread nD τ).loc main_arg18)) : Mat 64 1) (ix2 q (0 : Fin 1)) := by
  have e : W11 m ρ c (Proc.devRef .tc main_v101) = Host.scatter scatter_S64x128_S1_S64_0_1_1_0 (fun _ b => b)
      (broadcastInDim S64x128 ![] bcast_S_S64x128 (constant (F := Ideal) S_ .f32 0x00000000#32))
      (broadcastInDim S1 ![] bcast_S_S1 (constantI S_ 32 0#32))
      (fun i => shapeCast S64 (m ((c : Thread nD τ).loc main_arg18)) shapeCasts_S64x1_S64 i) := by
    show StableHlo.after hostOps5 (W10 m ρ c) _ = _
    simp only [hostOps5]
    after_results_simp
    rw [arg18_at10 m ρ c]
    rfl
  rw [e, Cert.KernelIdeal.DecoderPads.weightPad_col0 _ (broadcastInDim S1 ![] bcast_S_S1 (constantI S_ 32 0#32)) idxOne_zero _ q]
  exact shapeCast_apply _ _ _ (ix2 q (0 : Fin 1)) (by rw [Shape.rowMajor_val_two, Shape.rowMajor_val_one]; simp)

/-- The padded bias row holds the last bias in its entry 0. -/
theorem biasPad_at11 :
    (W11 m ρ c (Proc.devRef .tc main_v107) : Mat 1 128) (ix2 (0 : Fin 1) (0 : Fin 128)) = (m ((c : Thread nD τ).loc main_arg19)) (ix1 (0 : Fin 1)) := by
  have e : W11 m ρ c (Proc.devRef .tc main_v107) = Host.scatter scatter_S1x128_S2_S__n_01_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (fun i => shapeCast S_ (m ((c : Thread nD τ).loc main_arg19)) shapeCasts_S1_S_ i) := by
    show StableHlo.after hostOps5 (W10 m ρ c) _ = _
    simp only [hostOps5]
    after_results_simp
    rw [arg19_at10 m ρ c]
    refine congrArg (fun I => Host.scatter scatter_S1x128_S2_S__n_01_01_0 (fun _ b => b)
      (broadcastInDim S1x128 ![] bcast_S_S1x128 (constant (F := Ideal) S_ .f32 0x00000000#32)) I
      (fun i => shapeCast S_ (m ((c : Thread nD τ).loc main_arg19)) shapeCasts_S1_S_ i)) (idxJoin_congr _ _ _ _ ?_ ?_)
    · after_results_simp
    · after_results_simp
  rw [e, Cert.KernelIdeal.DecoderPads.biasPad_00 _ (concatenate S2 0 [⟨S1, broadcastInDim S1 ![] bcast_S_S1 (constantI S_ 32 0#32)⟩,
      ⟨S1, broadcastInDim S1 ![] bcast_S_S1 (constantI S_ 32 0#32)⟩] concatenates_S1_S1_S2_d0) idxPair_zero _]
  exact shapeCast_apply _ _ _ (ix1 (0 : Fin 1)) (by rw [Shape.rowMajor_val_one]; rfl)

theorem v108_at12 : W12 m ρ c (Proc.devRef .tc main_v108)
    = decoder (val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23))) (m ((c : Thread nD τ).loc main_arg16)) (val_main_v131 (F := Ideal) (m ((c : Thread nD τ).loc main_arg17))) (W11 m ρ c (Proc.devRef .tc main_v101)) (W11 m ρ c (Proc.devRef .tc main_v107)) := by
  refine (W12_arr m ρ c 5).trans ((Region5.final (V11 m ρ) c).trans ?_)
  have e0 : V11 m ρ c main_v96 = (val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23))) := v96_at11 m ρ c
  have e1 : V11 m ρ c main_arg16 = (m ((c : Thread nD τ).loc main_arg16)) := arg16_at11 m ρ c
  have e2 : V11 m ρ c main_v97 = (val_main_v131 (F := Ideal) (m ((c : Thread nD τ).loc main_arg17))) := v97_at11 m ρ c
  rw [e0, e1, e2]

/-- The idealized kernel's result array is the reference's result of the launch arguments. -/
theorem result : W13 m ρ c (Proc.devRef .tc main_v109) = (val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  have e : W13 m ρ c (Proc.devRef .tc main_v109) = extractStridedSlice S500000x1 ![0, 0] (W12 m ρ c (Proc.devRef .tc main_v108))
      slices_S500000x128_S500000x1_0_0 := by
    show StableHlo.after hostOps6 (W12 m ρ c) _ = _
    simp only [hostOps6]
    after_results_simp
  rw [e, v108_at12 m ρ c, decoderOut]
  funext i
  obtain ⟨p, u, rfl⟩ : ∃ (p : Fin 500000) (u : Fin 1), i = ix2 p u := ⟨i 0, i 1, eq_ix2 i⟩
  obtain rfl : u = 0 := Subsingleton.elim _ _
  rw [Cert.KernelIdeal.DecoderPads.slice_col0_apply _ _ p (0 : Fin 1) (0 : Fin 128) rfl]
  show lin _ _ _ p (0 : Fin 128) = lin _ _ _ p (0 : Fin 1)
  unfold lin
  have hb : (val_main_v136 (F := Ideal) (m ((c : Thread nD τ).loc main_arg19))) (ix2 (0 : Fin 1) (0 : Fin 1)) = (m ((c : Thread nD τ).loc main_arg19)) (ix1 (0 : Fin 1)) := by
    unfold val_main_v136
    exact Cert.LibMatrixLayout.bcast_b_1b_apply _ _ _ _
  rw [biasPad_at11 m ρ c, hb]
  simp only [weightPad_at11 m ρ c]

end Cert.KernelIdeal.Network

end
-- ==== Proof.lean ====
/-
  The certificate of a two-layer heterogeneous SAGE network with an edge decoder.  The kernel computes the dense parts
  of the network in six row-tiled regions — a projection of the movie features, two residual combinations, two
  combinations normalised by rows, and a decoder whose second layer is padded to 128 columns of which the result keeps
  column 0 — and leaves the gathers along edges and the segment means to host operations; the reference computes the
  whole network with host operations.  At the ideal instance a change of float format is the identity, a product into a
  zero accumulator is the plain sum of products, and a row-tiled computation of a row-wise function is that function
  of the whole array; so every array the kernel produces is the reference's stage of the same arguments, and the two
  results are equal entry by entry.  No algebraic law beyond commutativity of addition (the residual is added on the
  other side) and 0 + x = x (the host's sum of squares starts from zero) is used, so finiteness of the inputs plays no
  part.  The frames of the two kernel programs are the generated ones; the reference's frame is its generated run with
  the result dropped; the idealization rewrote no operation.
-/
import proofs.«114558_j41059887350180_1_alg».proof.Defs
import proofs.«114558_j41059887350180_1_alg».proof.Proof.Gen.Kernel
import proofs.«114558_j41059887350180_1_alg».proof.Proof.Gen.Kernel.Skeleton
import proofs.«114558_j41059887350180_1_alg».proof.Proof.Gen.Kernel.Launch
import proofs.«114558_j41059887350180_1_alg».proof.Proof.Gen.Kernel.Points
import proofs.«114558_j41059887350180_1_alg».proof.Proof.Gen.Kernel.Frame
import proofs.«114558_j41059887350180_1_alg».proof.Proof.Gen.KernelIdeal
import proofs.«114558_j41059887350180_1_alg».proof.Proof.Gen.KernelIdeal.Skeleton
import proofs.«114558_j41059887350180_1_alg».proof.Proof.Gen.KernelIdeal.Launch
import proofs.«114558_j41059887350180_1_alg».proof.Proof.Gen.KernelIdeal.Points
import proofs.«114558_j41059887350180_1_alg».proof.Proof.Gen.KernelIdeal.Frame
import proofs.«114558_j41059887350180_1_alg».proof.Proof.Gen.ReferenceIdeal
import proofs.«114558_j41059887350180_1_alg».proof.Proof.Gen.Pre_finite_inputs
import proofs.«114558_j41059887350180_1_alg».proof.Proof.Gen.ReferenceIdeal.Read
import proofs.«114558_j41059887350180_1_alg».proof.Proof.NamedRun
import proofs.«114558_j41059887350180_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the arguments: the kernel by its named run and the
    value of its last boundary, the reference by its generated run; the arguments agree by hypothesis. -/
theorem algebraic : Cert.algebraic_KernelIdeal_ReferenceIdeal := by
  intro m ρ m' ρ' _ hagree
  refine ⟨fun c => Cert.KernelIdeal.Gen.W13 m ρ c (Proc.devRef .tc Cert.KernelIdeal.main_v109),
    Cert.KernelIdeal.NamedRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  show _ = Cert.KernelIdeal.Gen.W13 m ρ c (Proc.devRef .tc Cert.KernelIdeal.main_v109)
  rw [Cert.ReferenceIdeal.Read.val_main_v138_eq, Cert.KernelIdeal.Network.result m ρ c,
    h0, h1, h2, h3, h4, h5, h6, h7, h8, h9, h10, h11, h12, h13, h14, h15, h16, h17, h18, h19, h20, h21, h22, h23]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
